-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_arg1)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg1) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v25) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg1) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v12) = v6 c
          ∧ r.2.mem ((c.tc : Thread Cert.ReferenceIdeal.nD Cert.ReferenceIdeal.τ).loc Cert.ReferenceIdeal.main_v19) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S16384x32 : Shape := ⟨2, ![16384, 32]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_

variable [Facts]

def fn {F : FTy → Type} [FloatOps F] (main_arg0 : FVec F S8192x8192 .f32) (main_arg1 : FVec F S16384x32 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  main_v8
-- ==== Kernel.lean ====
abbrev S8192x8192 : Shape := ⟨2, ![8192, 8192]⟩
abbrev S16384x32 : Shape := ⟨2, ![16384, 32]⟩
abbrev S3x8192x32 : Shape := ⟨3, ![3, 8192, 32]⟩
abbrev S256x8192 : Shape := ⟨2, ![256, 8192]⟩
abbrev S1x256x32 : Shape := ⟨3, ![1, 256, 32]⟩
abbrev S1x8192x32 : Shape := ⟨3, ![1, 8192, 32]⟩
abbrev S8192x32 : Shape := ⟨2, ![8192, 32]⟩
abbrev S32x8192 : Shape := ⟨2, ![32, 8192]⟩
abbrev S256x32 : Shape := ⟨2, ![256, 32]⟩
abbrev S32x256 : Shape := ⟨2, ![32, 256]⟩

abbrev nBuf : Space → Nat
  | .hbm => 36
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S16384x32, .f32⟩
  | .hbm, ⟨2, _⟩ => ⟨S3x8192x32, .f32⟩
  | .hbm, ⟨3, _⟩ => ⟨S3x8192x32, .f32⟩
  | .hbm, ⟨4, _⟩ => ⟨S3x8192x32, .f32⟩
  | .hbm, ⟨5, _⟩ => ⟨S3x8192x32, .f32⟩
  | .hbm, ⟨6, _⟩ => ⟨S1x8192x32, .f32⟩
  | .hbm, ⟨7, _⟩ => ⟨S8192x32, .f32⟩
  | .hbm, ⟨8, _⟩ => ⟨S1x8192x32, .f32⟩
  | .hbm, ⟨9, _⟩ => ⟨S8192x32, .f32⟩
  | .hbm, ⟨10, _⟩ => ⟨S16384x32, .f32⟩
  | .hbm, ⟨11, _⟩ => ⟨S1x8192x32, .f32⟩
  | .hbm, ⟨12, _⟩ => ⟨S8192x32, .f32⟩
  | .hbm, ⟨13, _⟩ => ⟨S1x8192x32, .f32⟩
  | .hbm, ⟨14, _⟩ => ⟨S8192x32, .f32⟩
  | .hbm, ⟨15, _⟩ => ⟨S16384x32, .f32⟩
  | .hbm, ⟨16, _⟩ => ⟨S1x8192x32, .f32⟩
  | .hbm, ⟨17, _⟩ => ⟨S8192x32, .f32⟩
  | .hbm, ⟨18, _⟩ => ⟨S1x8192x32, .f32⟩
  | .hbm, ⟨19, _⟩ => ⟨S8192x32, .f32⟩
  | .hbm, ⟨20, _⟩ => ⟨S16384x32, .f32⟩
  | .hbm, ⟨21, _⟩ => ⟨S1x8192x32, .f32⟩
  | .hbm, ⟨22, _⟩ => ⟨S8192x32, .f32⟩
  | .hbm, ⟨23, _⟩ => ⟨S1x8192x32, .f32⟩
  | .hbm, ⟨24, _⟩ => ⟨S8192x32, .f32⟩
  | .hbm, ⟨25, _⟩ => ⟨S16384x32, .f32⟩
  | .hbm, ⟨26, _⟩ => ⟨S1x8192x32, .f32⟩
  | .hbm, ⟨27, _⟩ => ⟨S8192x32, .f32⟩
  | .hbm, ⟨28, _⟩ => ⟨S1x8192x32, .f32⟩
  | .hbm, ⟨29, _⟩ => ⟨S8192x32, .f32⟩
  | .hbm, ⟨30, _⟩ => ⟨S16384x32, .f32⟩
  | .hbm, ⟨31, _⟩ => ⟨S1x8192x32, .f32⟩
  | .hbm, ⟨32, _⟩ => ⟨S8192x32, .f32⟩
  | .hbm, ⟨33, _⟩ => ⟨S1x8192x32, .f32⟩
  | .hbm, ⟨34, _⟩ => ⟨S8192x32, .f32⟩
  | .hbm, ⟨35, _⟩ => ⟨S16384x32, .f32⟩
  | .local _ .vmem, ⟨0, _⟩ => ⟨S256x8192, .f32⟩
  | .local _ .vmem, ⟨1, _⟩ => ⟨S256x8192, .f32⟩
  | .local _ .vmem, ⟨2, _⟩ => ⟨S16384x32, .f32⟩
  | .local _ .vmem, ⟨3, _⟩ => ⟨S1x256x32, .f32⟩
  | .local _ .vmem, ⟨4, _⟩ => ⟨S1x256x32, .f32⟩
  | .local _ .vmem, ⟨5, _⟩ => ⟨S1x256x32, .f32⟩
  | .local _ .vmem, ⟨6, _⟩ => ⟨S1x256x32, .f32⟩
  | .local _ .vmem, ⟨7, _⟩ => ⟨S1x8192x32, .f32⟩
  | .local _ .vmem, ⟨8, _⟩ => ⟨S1x8192x32, .f32⟩
  | .local _ .vmem, ⟨9, _⟩ => ⟨S1x8192x32, .f32⟩
  | .local _ .vmem, ⟨10, _⟩ => ⟨S1x8192x32, .f32⟩
  | .local _ .vmem, ⟨11, _⟩ => ⟨S8192x32, .f32⟩
  | .local _ .vmem, ⟨12, _⟩ => ⟨S8192x32, .f32⟩
  | .local _ .vmem, ⟨13, _⟩ => ⟨S32x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 32], ![false, false]⟩

def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : Index := Scalar.indexCast v6
  let c0_3 : Index := 0#32
  ![v7.toNat, 0]
def k0_cond4 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S16384x32_S8192x32_0_0 : ∀ a, (![0, 0] : Fin 2 → Nat) a + S8192x32.size a ≤ S16384x32.size a
  h_S8192x32 : 0 < S8192x32.numel
  inb_S8192x32_S8192x32_0_0 : ∀ a, (![0, 0] : Fin 2 → Nat) a + S8192x32.size a ≤ S8192x32.size a
  shapeCasts_S8192x32_S8192x32 : S8192x32.ShapeCasts S8192x32
  inb_S16384x32_S8192x32_8192_0 : ∀ a, (![8192, 0] : Fin 2 → Nat) a + S8192x32.size a ≤ S16384x32.size a
  inb_S256x8192_S256x8192_0_0 : ∀ a, (![0, 0] : Fin 2 → Nat) a + S256x8192.size a ≤ S256x8192.size a
  h_S256x8192 : 0 < S256x8192.numel
  h_S256x32 : 0 < S256x32.numel
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  shapeCasts_S256x32_S1x256x32 : S256x32.ShapeCasts S1x256x32
  shapeCasts_S256x32_S256x32 : S256x32.ShapeCasts S256x32
  transposes_S256x32_p1_0_S32x256 : S256x32.Transposes [1, 0] S32x256
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  transposes_S32x8192_p1_0_S8192x32 : S32x8192.Transposes [1, 0] S8192x32
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  shapeCasts_S8192x32_S1x8192x32 : S8192x32.ShapeCasts S1x8192x32
  slices_S3x8192x32_S1x8192x32_0_0_0 : S3x8192x32.Slices ![0, 0, 0] S1x8192x32
  concatenates_S8192x32_S8192x32_S16384x32_d0 : Shape.Concatenates [S8192x32, S8192x32] S16384x32 0
  slices_S3x8192x32_S1x8192x32_1_0_0 : S3x8192x32.Slices ![1, 0, 0] S1x8192x32
  slices_S3x8192x32_S1x8192x32_2_0_0 : S3x8192x32.Slices ![2, 0, 0] S1x8192x32
  dot_S256x8192_S8192x32_S256x32_1_0_0_1_n_n_wf : DotDims.WF S256x8192 S8192x32 S256x32 [1] [0] [0] [1] [] []
  dot_S32x256_S256x8192_S32x8192_1_0_0_1_n_n_wf : DotDims.WF S32x256 S256x8192 S32x8192 [1] [0] [0] [1] [] []
  hrank0 : 0 < grid0.rank
  k0_off1_inb : ∀ i : grid0.Coords, ∀ a, (k0_off1 i) a + S256x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32.size a ≤ S3x8192x32.size a
  hwx0_2 : ∀ i : grid0.Coords, EltTy.bits .f32 = 32 ∨ (Rect.block (s := S3x8192x32) S1x256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32.size a ≤ S3x8192x32.size a
  hwx0_3 : ∀ i : grid0.Coords, EltTy.bits .f32 = 32 ∨ (Rect.block (s := S3x8192x32) S1x256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x32.size a ≤ S3x8192x32.size a
  hwx0_4 : ∀ i : grid0.Coords, EltTy.bits .f32 = 32 ∨ (Rect.block (s := S3x8192x32) S1x8192x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x32.size a ≤ S3x8192x32.size a
  hwx0_5 : ∀ i : grid0.Coords, EltTy.bits .f32 = 32 ∨ (Rect.block (s := S3x8192x32) S1x8192x32.size (cc0_transform_5 i) (hinb0_5 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S32x256_S256x8192_S32x8192_1_0_0_1_n_n : DotDims S32x256 S256x8192 S32x8192 where
  lhsContracting := [1]
  rhsContracting := [0]
  lhsNonContracting := [0]
  rhsNonContracting := [1]
  lhsBatch := []
  rhsBatch := []
  wf := dot_S32x256_S256x8192_S32x8192_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8192x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x8192x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S16384x32 : Shape := ⟨2, ![16384, 32]⟩
abbrev S8192x32 : Shape := ⟨2, ![8192, 32]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S16384x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x32, .f32⟩
  | .hbm, ⟨6, _⟩ => ⟨S8192x32, .f32⟩
  | .hbm, ⟨7, _⟩ => ⟨S16384x32, .f32⟩
  | .hbm, ⟨8, _⟩ => ⟨S16384x32, .f32⟩
  | .hbm, ⟨9, _⟩ => ⟨S8192x32, .f32⟩
  | .hbm, ⟨10, _⟩ => ⟨S8192x32, .f32⟩
  | .hbm, ⟨11, _⟩ => ⟨S8192x8192, .f32⟩
  | .hbm, ⟨12, _⟩ => ⟨S8192x32, .f32⟩
  | .hbm, ⟨13, _⟩ => ⟨S8192x32, .f32⟩
  | .hbm, ⟨14, _⟩ => ⟨S16384x32, .f32⟩
  | .hbm, ⟨15, _⟩ => ⟨S16384x32, .f32⟩
  | .hbm, ⟨16, _⟩ => ⟨S8192x32, .f32⟩
  | .hbm, ⟨17, _⟩ => ⟨S8192x32, .f32⟩
  | .hbm, ⟨18, _⟩ => ⟨S8192x8192, .f32⟩
  | .hbm, ⟨19, _⟩ => ⟨S8192x32, .f32⟩
  | .hbm, ⟨20, _⟩ => ⟨S8192x32, .f32⟩
  | .hbm, ⟨21, _⟩ => ⟨S16384x32, .f32⟩
  | .hbm, ⟨22, _⟩ => ⟨S16384x32, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]

class Facts₀ : Prop where
  slices_S16384x32_S8192x32_8192_0 : S16384x32.Slices ![8192, 0] S8192x32
  transposes_S8192x8192_S8192x8192_1_0 : S8192x8192.Transposes [1, 0] S8192x8192
  slices_S16384x32_S8192x32_0_0 : S16384x32.Slices ![0, 0] S8192x32
  concatenates_S8192x32_S8192x32_S16384x32_d0 : Shape.Concatenates [S8192x32, S8192x32] S16384x32 0
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Step.lean ====
/-
  The kernel body's effect at one grid point as pure functions of what it loads: the stripe of the users' table a point owns,
  the table with that stripe replaced, the two halves of the embedding table, and the step of the state
  (users' table, items' table, transposed accumulator, and the four output blocks) from one point to the next.
  Also: where each of the body's four branch conditions holds on the 3 x 32 grid, and which output windows are idle where.
-/
import proofs.«159328_g20109036880396_cont_8to1_786_9_alg».proof.Proof.Gen.KernelIdeal.Launch
import proofs.«159328_g20109036880396_cont_8to1_786_9_alg».proof.Proof.Gen.KernelIdeal.Skeleton
import proofs.«159328_g20109036880396_cont_8to1_786_9_alg».proof.Proof.Gen.KernelIdeal.Points
import proofs.«159328_g20109036880396_cont_8to1_786_9_alg».proof.Proof.Gen.KernelIdeal.Frame
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and where they hold -/

/-- The first branch: layer 0 and stripe 0. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: stripe 0. -/
abbrev cnd2 (i : grid0.Coords) : Prop := (Scalar.cmpi .ne (Scalar.extui (Scalar.cmpi .eq (BitVec.ofNat 32 (i 1).val) 0#32)) 0#32) = 1#1
/-- The third branch: a later stripe. -/
abbrev cnd3 (i : grid0.Coords) : Prop := (Scalar.cmpi .ne (Scalar.extui (Scalar.cmpi .sgt (BitVec.ofNat 32 (i 1).val) 0#32)) 0#32) = 1#1
/-- The fourth branch: the last stripe. -/
abbrev cnd4 (i : grid0.Coords) : Prop := k0_cond4 i = 1#1

theorem hcnd1 : ∀ t : Fin cfg0.N, cnd1 (grid0.coords t) ↔ t.val = 0 :=
  (by decide +kernel : ∀ t : Fin grid0.N, cnd1 (grid0.coords t) ↔ t.val = 0)
theorem hcnd2 : ∀ t : Fin cfg0.N, cnd2 (grid0.coords t) ↔ t.val % 32 = 0 :=
  (by decide +kernel : ∀ t : Fin grid0.N, cnd2 (grid0.coords t) ↔ t.val % 32 = 0)
theorem hcnd3 : ∀ t : Fin cfg0.N, cnd3 (grid0.coords t) ↔ ¬ t.val % 32 = 0 :=
  (by decide +kernel : ∀ t : Fin grid0.N, cnd3 (grid0.coords t) ↔ ¬ t.val % 32 = 0)
theorem hcnd4 : ∀ t : Fin cfg0.N, cnd4 (grid0.coords t) ↔ t.val % 32 = 31 :=
  (by decide +kernel : ∀ t : Fin grid0.N, cnd4 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬ t.val % 32 = 31 → cfg0.idle 4 (grid0.coords t) = true := by decide +kernel
theorem idleAt0_5 : ∀ t : Fin cfg0.N, ¬ t.val % 32 = 31 → cfg0.idle 5 (grid0.coords t) = true := by decide +kernel
theorem liveAt0_4 : ∀ t : Fin cfg0.N, t.val % 32 = 31 → cfg0.idle 4 (grid0.coords t) = false := by decide +kernel
theorem liveAt0_5 : ∀ t : Fin cfg0.N, t.val % 32 = 31 → cfg0.idle 5 (grid0.coords t) = false := by decide +kernel
theorem noFlush0_4 : ∀ t : Fin cfg0.N, ¬ t.val % 32 = 31 → (cfg0.win 4).flush t = false := by decide +kernel
theorem noFlush0_5 : ∀ t : Fin cfg0.N, ¬ t.val % 32 = 31 → (cfg0.win 5).flush t = false := by decide +kernel

/-! ## The body's effect as pure functions -/

theorem z2 : (![0, 0] : Fin 2 → ℕ) = fun _ => 0 := by funext a; fin_cases a <;> rfl
theorem z3 : (![0, 0, 0] : Fin 3 → ℕ) = fun _ => 0 := by funext a; fin_cases a <;> rfl

/-- The rows of a user table that belong to the point's stripe: rows 256·i to 256·i + 255. -/
def stripe (i : grid0.Coords) (u : Vec F S8192x32 .f32) : Vec F S256x32 .f32 :=
  View.ld u (Rect.unit (s := S8192x32) (k0_off1 i) S256x32.size (k0_off1_inb i))
/-- A user table with the point's stripe replaced by `w`. -/
def putStripe (i : grid0.Coords) (u : Vec F S8192x32 .f32) (w : Vec F S256x32 .f32) : Vec F S8192x32 .f32 :=
  fun y => if h : ∀ a, k0_off1 i a ≤ (y a).val ∧ (y a).val < k0_off1 i a + S256x32.size a then
      w (Rect.unitLocal (s := S8192x32) (off := k0_off1 i) (size := S256x32.size) y h) else u y
/-- The user rows of the embedding table (its first 8192 rows). -/
def embU (e : Vec F S16384x32 .f32) : Vec F S8192x32 .f32 :=
  k0_pay7 (View.ld e (Rect.unit (s := S16384x32) ![0, 0] S8192x32.size inb_S16384x32_S8192x32_0_0))
/-- The item rows of the embedding table (its last 8192 rows). -/
def embI (e : Vec F S16384x32 .f32) : Vec F S8192x32 .f32 :=
  k0_pay8 (View.ld e (Rect.unit (s := S16384x32) ![8192, 0] S8192x32.size inb_S16384x32_S8192x32_8192_0))

section Mem
variable {S : Shape} {e : EltTy} (mr : Memref sig .tc .vmem S e) (h : mr.IsWhole)

theorem rd_whole (f : mr.view.ty.Contents (Elt F)) {off : Fin S.rank → ℕ} (hz : off = fun _ => 0) (inb : ∀ a, off a + S.size a ≤ S.size a) :
    (View.readAt (Elt F) mr.view (Rect.unit (s := S) off S.size inb).toLoadRect f : S.Idx → Elt F e) = mr.view.read (Elt F) f :=
  View.ld_unit_zero hz inb (mr.view.read (Elt F) f)

theorem wr_whole (f : mr.view.ty.Contents (Elt F)) {off : Fin S.rank → ℕ} (hz : off = fun _ => 0) (inb : ∀ a, off a + S.size a ≤ S.size a)
    (w : S.Idx → Elt F e) (L : List (View.Piece (Elt F) S e)) :
    mr.view.read (Elt F) (mr.view.writes (Elt F) f ((⟨Rect.unit (s := S) off S.size inb, w⟩ : View.Piece (Elt F) S e) :: L)) = w := by
  subst hz
  funext y
  exact View.read_writes_cons_unit_of_mem mr.view f inb w L y y rfl (fun a => by simp)
end Mem

theorem rd_stripe (mr : Memref sig .tc .vmem S8192x32 .f32) (f : mr.view.ty.Contents (Elt F)) (i : grid0.Coords) :
    View.readAt (Elt F) mr.view (Rect.unit (s := S8192x32) (k0_off1 i) S256x32.size (k0_off1_inb i)).toLoadRect f
      = stripe i (mr.view.read (Elt F) f) := rfl
theorem rd_lo (mr : Memref sig .tc .vmem S16384x32 .f32) (f : mr.view.ty.Contents (Elt F)) :
    View.readAt (Elt F) mr.view (Rect.unit (s := S16384x32) ![0, 0] S8192x32.size inb_S16384x32_S8192x32_0_0).toLoadRect f
      = View.ld (mr.view.read (Elt F) f) (Rect.unit (s := S16384x32) ![0, 0] S8192x32.size inb_S16384x32_S8192x32_0_0) := rfl
theorem rd_hi (mr : Memref sig .tc .vmem S16384x32 .f32) (f : mr.view.ty.Contents (Elt F)) :
    View.readAt (Elt F) mr.view (Rect.unit (s := S16384x32) ![8192, 0] S8192x32.size inb_S16384x32_S8192x32_8192_0).toLoadRect f
      = View.ld (mr.view.read (Elt F) f) (Rect.unit (s := S16384x32) ![8192, 0] S8192x32.size inb_S16384x32_S8192x32_8192_0) := rfl
theorem wr_stripe (mr : Memref sig .tc .vmem S8192x32 .f32) (f : mr.view.ty.Contents (Elt F)) (i : grid0.Coords)
    (w : Vec F S256x32 .f32) (L : List (View.Piece (Elt F) S8192x32 .f32)) :
    mr.view.read (Elt F) (mr.view.writes (Elt F) f ((⟨Rect.unit (s := S8192x32) (k0_off1 i) S256x32.size (k0_off1_inb i), w⟩ : View.Piece (Elt F) S8192x32 .f32) :: L))
      = putStripe i (mr.view.read (Elt F) (mr.view.writes (Elt F) f L)) w := by
  funext y
  rw [View.read_writes_cons_unit mr.view f (k0_off1_inb i) w L y rfl]
  rfl

/-! The same reads and writes with the rectangles' extents spelled as literals. -/
theorem rdL_S256x8192 (mr : Memref sig .tc .vmem S256x8192 .f32) (f : mr.view.ty.Contents (Elt F)) (inb : ∀ a, (![0, 0] : Fin S256x8192.rank → ℕ) a + (![256, 8192] : Fin S256x8192.rank → ℕ) a ≤ S256x8192.size a) :
    (View.readAt (Elt F) mr.view (Rect.unit (s := S256x8192) ![0, 0] ![256, 8192] inb).toLoadRect f : S256x8192.Idx → Elt F .f32) = mr.view.read (Elt F) f :=
  rd_whole (S := S256x8192) mr f z2 inb
theorem wrL_S256x8192 (mr : Memref sig .tc .vmem S256x8192 .f32) (f : mr.view.ty.Contents (Elt F)) (inb : ∀ a, (![0, 0] : Fin S256x8192.rank → ℕ) a + (![256, 8192] : Fin S256x8192.rank → ℕ) a ≤ S256x8192.size a)
    (w : S256x8192.Idx → Elt F .f32) (L : List (View.Piece (Elt F) S256x8192 .f32)) :
    mr.view.read (Elt F) (mr.view.writes (Elt F) f ((⟨Rect.unit (s := S256x8192) ![0, 0] ![256, 8192] inb, w⟩ : View.Piece (Elt F) S256x8192 .f32) :: L)) = w :=
  wr_whole (S := S256x8192) mr f z2 inb w L
theorem rcL_S256x8192 (mr : Memref sig .tc .vmem S256x8192 .f32) (inb : ∀ a, (![0, 0] : Fin S256x8192.rank → ℕ) a + (![256, 8192] : Fin S256x8192.rank → ℕ) a ≤ S256x8192.size a)
    (w : S256x8192.Idx → Elt F .f32) :
    (mr.view.readCov [(⟨Rect.unit (s := S256x8192) ![0, 0] ![256, 8192] inb, w⟩ : View.Piece (Elt F) S256x8192 .f32)] (Rect.unit (s := S256x8192) ![0, 0] ![256, 8192] inb).toLoadRect : S256x8192.Idx → Elt F .f32) = w :=
  View.readCov_unit_zero (S := S256x8192) mr.view z2 inb w
theorem rdL_S8192x32 (mr : Memref sig .tc .vmem S8192x32 .f32) (f : mr.view.ty.Contents (Elt F)) (inb : ∀ a, (![0, 0] : Fin S8192x32.rank → ℕ) a + (![8192, 32] : Fin S8192x32.rank → ℕ) a ≤ S8192x32.size a) :
    (View.readAt (Elt F) mr.view (Rect.unit (s := S8192x32) ![0, 0] ![8192, 32] inb).toLoadRect f : S8192x32.Idx → Elt F .f32) = mr.view.read (Elt F) f :=
  rd_whole (S := S8192x32) mr f z2 inb
theorem wrL_S8192x32 (mr : Memref sig .tc .vmem S8192x32 .f32) (f : mr.view.ty.Contents (Elt F)) (inb : ∀ a, (![0, 0] : Fin S8192x32.rank → ℕ) a + (![8192, 32] : Fin S8192x32.rank → ℕ) a ≤ S8192x32.size a)
    (w : S8192x32.Idx → Elt F .f32) (L : List (View.Piece (Elt F) S8192x32 .f32)) :
    mr.view.read (Elt F) (mr.view.writes (Elt F) f ((⟨Rect.unit (s := S8192x32) ![0, 0] ![8192, 32] inb, w⟩ : View.Piece (Elt F) S8192x32 .f32) :: L)) = w :=
  wr_whole (S := S8192x32) mr f z2 inb w L
theorem rcL_S8192x32 (mr : Memref sig .tc .vmem S8192x32 .f32) (inb : ∀ a, (![0, 0] : Fin S8192x32.rank → ℕ) a + (![8192, 32] : Fin S8192x32.rank → ℕ) a ≤ S8192x32.size a)
    (w : S8192x32.Idx → Elt F .f32) :
    (mr.view.readCov [(⟨Rect.unit (s := S8192x32) ![0, 0] ![8192, 32] inb, w⟩ : View.Piece (Elt F) S8192x32 .f32)] (Rect.unit (s := S8192x32) ![0, 0] ![8192, 32] inb).toLoadRect : S8192x32.Idx → Elt F .f32) = w :=
  View.readCov_unit_zero (S := S8192x32) mr.view z2 inb w
theorem rdL_S32x8192 (mr : Memref sig .tc .vmem S32x8192 .f32) (f : mr.view.ty.Contents (Elt F)) (inb : ∀ a, (![0, 0] : Fin S32x8192.rank → ℕ) a + (![32, 8192] : Fin S32x8192.rank → ℕ) a ≤ S32x8192.size a) :
    (View.readAt (Elt F) mr.view (Rect.unit (s := S32x8192) ![0, 0] ![32, 8192] inb).toLoadRect f : S32x8192.Idx → Elt F .f32) = mr.view.read (Elt F) f :=
  rd_whole (S := S32x8192) mr f z2 inb
theorem wrL_S32x8192 (mr : Memref sig .tc .vmem S32x8192 .f32) (f : mr.view.ty.Contents (Elt F)) (inb : ∀ a, (![0, 0] : Fin S32x8192.rank → ℕ) a + (![32, 8192] : Fin S32x8192.rank → ℕ) a ≤ S32x8192.size a)
    (w : S32x8192.Idx → Elt F .f32) (L : List (View.Piece (Elt F) S32x8192 .f32)) :
    mr.view.read (Elt F) (mr.view.writes (Elt F) f ((⟨Rect.unit (s := S32x8192) ![0, 0] ![32, 8192] inb, w⟩ : View.Piece (Elt F) S32x8192 .f32) :: L)) = w :=
  wr_whole (S := S32x8192) mr f z2 inb w L
theorem rcL_S32x8192 (mr : Memref sig .tc .vmem S32x8192 .f32) (inb : ∀ a, (![0, 0] : Fin S32x8192.rank → ℕ) a + (![32, 8192] : Fin S32x8192.rank → ℕ) a ≤ S32x8192.size a)
    (w : S32x8192.Idx → Elt F .f32) :
    (mr.view.readCov [(⟨Rect.unit (s := S32x8192) ![0, 0] ![32, 8192] inb, w⟩ : View.Piece (Elt F) S32x8192 .f32)] (Rect.unit (s := S32x8192) ![0, 0] ![32, 8192] inb).toLoadRect : S32x8192.Idx → Elt F .f32) = w :=
  View.readCov_unit_zero (S := S32x8192) mr.view z2 inb w
theorem rdL_S1x256x32 (mr : Memref sig .tc .vmem S1x256x32 .f32) (f : mr.view.ty.Contents (Elt F)) (inb : ∀ a, (![0, 0, 0] : Fin S1x256x32.rank → ℕ) a + (![1, 256, 32] : Fin S1x256x32.rank → ℕ) a ≤ S1x256x32.size a) :
    (View.readAt (Elt F) mr.view (Rect.unit (s := S1x256x32) ![0, 0, 0] ![1, 256, 32] inb).toLoadRect f : S1x256x32.Idx → Elt F .f32) = mr.view.read (Elt F) f :=
  rd_whole (S := S1x256x32) mr f z3 inb
theorem wrL_S1x256x32 (mr : Memref sig .tc .vmem S1x256x32 .f32) (f : mr.view.ty.Contents (Elt F)) (inb : ∀ a, (![0, 0, 0] : Fin S1x256x32.rank → ℕ) a + (![1, 256, 32] : Fin S1x256x32.rank → ℕ) a ≤ S1x256x32.size a)
    (w : S1x256x32.Idx → Elt F .f32) (L : List (View.Piece (Elt F) S1x256x32 .f32)) :
    mr.view.read (Elt F) (mr.view.writes (Elt F) f ((⟨Rect.unit (s := S1x256x32) ![0, 0, 0] ![1, 256, 32] inb, w⟩ : View.Piece (Elt F) S1x256x32 .f32) :: L)) = w :=
  wr_whole (S := S1x256x32) mr f z3 inb w L
theorem rcL_S1x256x32 (mr : Memref sig .tc .vmem S1x256x32 .f32) (inb : ∀ a, (![0, 0, 0] : Fin S1x256x32.rank → ℕ) a + (![1, 256, 32] : Fin S1x256x32.rank → ℕ) a ≤ S1x256x32.size a)
    (w : S1x256x32.Idx → Elt F .f32) :
    (mr.view.readCov [(⟨Rect.unit (s := S1x256x32) ![0, 0, 0] ![1, 256, 32] inb, w⟩ : View.Piece (Elt F) S1x256x32 .f32)] (Rect.unit (s := S1x256x32) ![0, 0, 0] ![1, 256, 32] inb).toLoadRect : S1x256x32.Idx → Elt F .f32) = w :=
  View.readCov_unit_zero (S := S1x256x32) mr.view z3 inb w
theorem rdL_S1x8192x32 (mr : Memref sig .tc .vmem S1x8192x32 .f32) (f : mr.view.ty.Contents (Elt F)) (inb : ∀ a, (![0, 0, 0] : Fin S1x8192x32.rank → ℕ) a + (![1, 8192, 32] : Fin S1x8192x32.rank → ℕ) a ≤ S1x8192x32.size a) :
    (View.readAt (Elt F) mr.view (Rect.unit (s := S1x8192x32) ![0, 0, 0] ![1, 8192, 32] inb).toLoadRect f : S1x8192x32.Idx → Elt F .f32) = mr.view.read (Elt F) f :=
  rd_whole (S := S1x8192x32) mr f z3 inb
theorem wrL_S1x8192x32 (mr : Memref sig .tc .vmem S1x8192x32 .f32) (f : mr.view.ty.Contents (Elt F)) (inb : ∀ a, (![0, 0, 0] : Fin S1x8192x32.rank → ℕ) a + (![1, 8192, 32] : Fin S1x8192x32.rank → ℕ) a ≤ S1x8192x32.size a)
    (w : S1x8192x32.Idx → Elt F .f32) (L : List (View.Piece (Elt F) S1x8192x32 .f32)) :
    mr.view.read (Elt F) (mr.view.writes (Elt F) f ((⟨Rect.unit (s := S1x8192x32) ![0, 0, 0] ![1, 8192, 32] inb, w⟩ : View.Piece (Elt F) S1x8192x32 .f32) :: L)) = w :=
  wr_whole (S := S1x8192x32) mr f z3 inb w L
theorem rcL_S1x8192x32 (mr : Memref sig .tc .vmem S1x8192x32 .f32) (inb : ∀ a, (![0, 0, 0] : Fin S1x8192x32.rank → ℕ) a + (![1, 8192, 32] : Fin S1x8192x32.rank → ℕ) a ≤ S1x8192x32.size a)
    (w : S1x8192x32.Idx → Elt F .f32) :
    (mr.view.readCov [(⟨Rect.unit (s := S1x8192x32) ![0, 0, 0] ![1, 8192, 32] inb, w⟩ : View.Piece (Elt F) S1x8192x32 .f32)] (Rect.unit (s := S1x8192x32) ![0, 0, 0] ![1, 8192, 32] inb).toLoadRect : S1x8192x32.Idx → Elt F .f32) = w :=
  View.readCov_unit_zero (S := S1x8192x32) mr.view z3 inb w
theorem rdL_stripe (mr : Memref sig .tc .vmem S8192x32 .f32) (f : mr.view.ty.Contents (Elt F)) (i : grid0.Coords) (inb : ∀ a, k0_off1 i a + (![256, 32] : Fin 2 → ℕ) a ≤ S8192x32.size a) :
    View.readAt (Elt F) mr.view (Rect.unit (s := S8192x32) (k0_off1 i) ![256, 32] inb).toLoadRect f
      = stripe i (mr.view.read (Elt F) f) := rfl
theorem wrL_stripe (mr : Memref sig .tc .vmem S8192x32 .f32) (f : mr.view.ty.Contents (Elt F)) (i : grid0.Coords) (inb : ∀ a, k0_off1 i a + (![256, 32] : Fin 2 → ℕ) a ≤ S8192x32.size a)
    (w : Vec F S256x32 .f32) (L : List (View.Piece (Elt F) S8192x32 .f32)) :
    mr.view.read (Elt F) (mr.view.writes (Elt F) f ((⟨Rect.unit (s := S8192x32) (k0_off1 i) ![256, 32] inb, w⟩ : View.Piece (Elt F) S8192x32 .f32) :: L))
      = putStripe i (mr.view.read (Elt F) (mr.view.writes (Elt F) f L)) w :=
  wr_stripe mr f i w L
theorem rdL_lo (mr : Memref sig .tc .vmem S16384x32 .f32) (h : mr.IsWhole) (x : Vec F S16384x32 .f32) (inb : ∀ a, (![0, 0] : Fin 2 → ℕ) a + (![8192, 32] : Fin 2 → ℕ) a ≤ S16384x32.size a) :
    k0_pay7 (View.readAt (Elt F) mr.view (Rect.unit (s := S16384x32) ![0, 0] ![8192, 32] inb).toLoadRect (h.unread x)) = embU x := by
  unfold embU
  have e : mr.view.read (Elt F) (h.unread x) = x := h.read_unread x
  show k0_pay7 (View.ld (mr.view.read (Elt F) (h.unread x)) (Rect.unit (s := S16384x32) ![0, 0] ![8192, 32] inb)) = _
  rw [e]
theorem rdL_hi (mr : Memref sig .tc .vmem S16384x32 .f32) (h : mr.IsWhole) (x : Vec F S16384x32 .f32) (inb : ∀ a, (![8192, 0] : Fin 2 → ℕ) a + (![8192, 32] : Fin 2 → ℕ) a ≤ S16384x32.size a) :
    k0_pay8 (View.readAt (Elt F) mr.view (Rect.unit (s := S16384x32) ![8192, 0] ![8192, 32] inb).toLoadRect (h.unread x)) = embI x := by
  unfold embI
  have e : mr.view.read (Elt F) (h.unread x) = x := h.read_unread x
  show k0_pay8 (View.ld (mr.view.read (Elt F) (h.unread x)) (Rect.unit (s := S16384x32) ![8192, 0] ![8192, 32] inb)) = _
  rw [e]
theorem rd_lo' (mr : Memref sig .tc .vmem S16384x32 .f32) (h : mr.IsWhole) (x : Vec F S16384x32 .f32) :
    k0_pay7 (View.readAt (Elt F) mr.view (Rect.unit (s := S16384x32) ![0, 0] S8192x32.size inb_S16384x32_S8192x32_0_0).toLoadRect (h.unread x)) = embU x :=
  rdL_lo mr h x _
theorem rd_hi' (mr : Memref sig .tc .vmem S16384x32 .f32) (h : mr.IsWhole) (x : Vec F S16384x32 .f32) :
    k0_pay8 (View.readAt (Elt F) mr.view (Rect.unit (s := S16384x32) ![8192, 0] S8192x32.size inb_S16384x32_S8192x32_8192_0).toLoadRect (h.unread x)) = embI x :=
  rdL_hi mr h x _

/-! ## What the scratch tables and the output blocks hold after each point -/

/-- The three scratch tables (the users' table, the items' table, the transposed accumulator) and the four
    output blocks after a point. -/
structure St (F : FTy → Type) [FloatOps F] where
  U : Vec F S8192x32 .f32
  I : Vec F S8192x32 .f32
  Acc : Vec F S32x8192 .f32
  G : Vec F S1x256x32 .f32
  L : Vec F S1x256x32 .f32
  IG : Vec F S1x8192x32 .f32
  IL : Vec F S1x8192x32 .f32

/-- One point of the grid, at position `n` of the row-major order (layer `n / 32`, stripe `n % 32`): the tables are
    loaded from the embeddings at the very first point; the stripe's user rows get the forward product plus
    themselves; the accumulator is set at a layer's first stripe and added to afterwards; at a layer's last stripe
    the items' table gets the accumulator transposed plus itself. -/
def stepAt (n : ℕ) (i : grid0.Coords) (a : Vec F S256x8192 .f32) (e : Vec F S16384x32 .f32) (s : St F) : St F :=
  { U := putStripe i (if n = 0 then embU e else s.U)
      (k0_pay13 a (stripe i (if n = 0 then embU e else s.U)) (if n = 0 then embI e else s.I))
    I := if n % 32 = 31 then
        k0_pay6 (if n % 32 = 0 then k0_pay15 a (stripe i (if n = 0 then embU e else s.U))
                  else k0_pay1 (k0_pay14 a (stripe i (if n = 0 then embU e else s.U))) s.Acc) (if n = 0 then embI e else s.I)
      else (if n = 0 then embI e else s.I)
    Acc := if n % 32 = 0 then k0_pay15 a (stripe i (if n = 0 then embU e else s.U))
      else k0_pay1 (k0_pay14 a (stripe i (if n = 0 then embU e else s.U))) s.Acc
    G := k0_pay10 a (if n = 0 then embI e else s.I)
    L := k0_pay12 a (stripe i (if n = 0 then embU e else s.U)) (if n = 0 then embI e else s.I)
    IG := k0_pay3 (if n % 32 = 0 then k0_pay15 a (stripe i (if n = 0 then embU e else s.U))
      else k0_pay1 (k0_pay14 a (stripe i (if n = 0 then embU e else s.U))) s.Acc)
    IL := k0_pay5 (if n % 32 = 0 then k0_pay15 a (stripe i (if n = 0 then embU e else s.U))
      else k0_pay1 (k0_pay14 a (stripe i (if n = 0 then embU e else s.U))) s.Acc) (if n = 0 then embI e else s.I) }

/-- Any state: what precedes the first point, of which nothing is read. -/
def st0 : St F := ⟨fun _ => Classical.choice (Elt.nonempty F .f32), fun _ => Classical.choice (Elt.nonempty F .f32), fun _ => Classical.choice (Elt.nonempty F .f32),
  fun _ => Classical.choice (Elt.nonempty F .f32), fun _ => Classical.choice (Elt.nonempty F .f32), fun _ => Classical.choice (Elt.nonempty F .f32), fun _ => Classical.choice (Elt.nonempty F .f32)⟩

end Cert.KernelIdeal.Gen
end
-- ==== Proof.Runs.lean ====
/-
  The kernel body run symbolically in each of the four cases of its branch conditions the grid meets
  (A: the very first point; B: a later layer's first stripe; C: a middle stripe; D: a layer's last stripe):
  from the staging buffers and the scratch tables at given contents to the contents the case's stores leave,
  each named by the pure functions of the step.
-/
import proofs.«159328_g20109036880396_cont_8to1_786_9_alg».proof.Proof.Step
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reads the contents a run leaves back to the named pure functions. -/
macro "rd_tac" : tactic => `(tactic| (
  sl_unfold_run_names
  simp only [rdL_S256x8192, wrL_S256x8192, rcL_S256x8192, rd_whole (S := S256x8192) _ _ z2, wr_whole (S := S256x8192) _ _ z2, View.readCov_unit_zero (S := S256x8192) _ z2, rdL_S8192x32, wrL_S8192x32, rcL_S8192x32, rd_whole (S := S8192x32) _ _ z2, wr_whole (S := S8192x32) _ _ z2, View.readCov_unit_zero (S := S8192x32) _ z2, rdL_S32x8192, wrL_S32x8192, rcL_S32x8192, rd_whole (S := S32x8192) _ _ z2, wr_whole (S := S32x8192) _ _ z2, View.readCov_unit_zero (S := S32x8192) _ z2, rdL_S1x256x32, wrL_S1x256x32, rcL_S1x256x32, rd_whole (S := S1x256x32) _ _ z3, wr_whole (S := S1x256x32) _ _ z3, View.readCov_unit_zero (S := S1x256x32) _ z3, rdL_S1x8192x32, wrL_S1x8192x32, rcL_S1x8192x32, rd_whole (S := S1x8192x32) _ _ z3, wr_whole (S := S1x8192x32) _ _ z3, View.readCov_unit_zero (S := S1x8192x32) _ z3,
    rd_stripe, rdL_stripe, rdL_lo, rdL_hi, rd_lo', rd_hi', wr_stripe, wrL_stripe, View.writes_nil, Memref.IsWhole.read_unread]
  try rfl))

set_option maxHeartbeats 4000000 in
/-- The body at a point of case A: from the staging buffers and the three scratch tables at given contents it runs
    to the same buffers at the contents the case's stores leave, each a pure function of what was loaded. -/
theorem runA (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : cnd1 i) (hc2 : cnd2 i) (hc3 : ¬cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 (embI x1)) ∗ owns (c : Thread nD τ) arg5 fullShare (k0_pay12 x0 (stripe i (embU x1)) (embI x1))
                ∗ owns (c : Thread nD τ) arg6 fullShare xi6 ∗ owns (c : Thread nD τ) arg7 fullShare xi7
                ∗ owns (c : Thread nD τ) arg8 fullShare (putStripe i (embU x1) (k0_pay13 x0 (stripe i (embU x1)) (embI x1))) ∗ owns (c : Thread nD τ) arg9 fullShare (embI x1)
                ∗ owns (c : Thread nD τ) arg10 fullShare (k0_pay15 x0 (stripe i (embU x1)))) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; swap; · iexact H9
      ipureintro; rd_tac
    iexists _; isplitr; swap; · iexact H10
    ipureintro; rd_tac

set_option maxHeartbeats 4000000 in
/-- The body at a point of case B: from the staging buffers and the three scratch tables at given contents it runs
    to the same buffers at the contents the case's stores leave, each a pure function of what was loaded. -/
theorem runB (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : cnd2 i) (hc3 : ¬cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare xi6 ∗ owns (c : Thread nD τ) arg7 fullShare xi7
                ∗ owns (c : Thread nD τ) arg8 fullShare (putStripe i xs8 (k0_pay13 x0 (stripe i xs8) xs9)) ∗ owns (c : Thread nD τ) arg9 fullShare xs9
                ∗ owns (c : Thread nD τ) arg10 fullShare (k0_pay15 x0 (stripe i xs8))) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; · ipureintro; exact harg9.read_unread _
      iexact H9
    iexists _; isplitr; swap; · iexact H10
    ipureintro; rd_tac

set_option maxHeartbeats 4000000 in
/-- The body at a point of case C: from the staging buffers and the three scratch tables at given contents it runs
    to the same buffers at the contents the case's stores leave, each a pure function of what was loaded. -/
theorem runC (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : ¬cnd2 i) (hc3 : cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare xi6 ∗ owns (c : Thread nD τ) arg7 fullShare xi7
                ∗ owns (c : Thread nD τ) arg8 fullShare (putStripe i xs8 (k0_pay13 x0 (stripe i xs8) xs9)) ∗ owns (c : Thread nD τ) arg9 fullShare xs9
                ∗ owns (c : Thread nD τ) arg10 fullShare (k0_pay1 (k0_pay14 x0 (stripe i xs8)) xs10)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; · ipureintro; exact harg9.read_unread _
      iexact H9
    iexists _; isplitr; swap; · iexact H10
    ipureintro; rd_tac

set_option maxHeartbeats 4000000 in
/-- The body at a point of case D: from the staging buffers and the three scratch tables at given contents it runs
    to the same buffers at the contents the case's stores leave, each a pure function of what was loaded. -/
theorem runD (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : ¬cnd2 i) (hc3 : cnd3 i) (hc4 : cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare (k0_pay3 (k0_pay1 (k0_pay14 x0 (stripe i xs8)) xs10)) ∗ owns (c : Thread nD τ) arg7 fullShare (k0_pay5 (k0_pay1 (k0_pay14 x0 (stripe i xs8)) xs10) xs9)
                ∗ owns (c : Thread nD τ) arg8 fullShare (putStripe i xs8 (k0_pay13 x0 (stripe i xs8) xs9)) ∗ owns (c : Thread nD τ) arg9 fullShare (k0_pay6 (k0_pay1 (k0_pay14 x0 (stripe i xs8)) xs10) xs9)
                ∗ owns (c : Thread nD τ) arg10 fullShare (k0_pay1 (k0_pay14 x0 (stripe i xs8)) xs10)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; swap; · iexact H6
      ipureintro; rd_tac
    isplitl [H7]
    · iexists _; isplitr; swap; · iexact H7
      ipureintro; rd_tac
    isplitl [H8]
    · iexists _; isplitr; swap; · iexact H8
      ipureintro; rd_tac
    isplitl [H9]
    · iexists _; isplitr; swap; · iexact H9
      ipureintro; rd_tac
    iexists _; isplitr; swap; · iexact H10
    ipureintro; rd_tac

end Cert.KernelIdeal.Gen
end
-- ==== Proof.Body.lean ====
/-
  The state after each grid point by recursion on the point, the invariant that carries the three scratch tables from point to
  point, the proof data of the pipeline, the body obligation at every point (by cases on the closed forms of the branch
  conditions), and the run of @main around its one region.
-/
import proofs.«159328_g20109036880396_cont_8to1_786_9_alg».proof.Proof.Runs
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The state after the point at position `n`, by recursion on the position. -/
def stAt (c : Dev nD) : (n : ℕ) → n < cfg0.N → St F
  | 0, hn => stepAt 0 (grid0.coords ⟨0, hn⟩) (iblk m c 0 ⟨0, hn⟩) (iblk m c 1 ⟨0, hn⟩) st0
  | n + 1, hn => stepAt (n + 1) (grid0.coords ⟨n + 1, hn⟩) (iblk m c 0 ⟨n + 1, hn⟩) (iblk m c 1 ⟨n + 1, hn⟩) (stAt c n (Nat.lt_of_succ_lt hn))

theorem stAt_zero (c : Dev nD) (t : Fin cfg0.N) (hz : t.val = 0) (s : St F) :
    stAt m c t.val t.isLt = stepAt t.val (grid0.coords t) (iblk m c 0 t) (iblk m c 1 t) s := by
  obtain ⟨n, hn⟩ := t
  cases n with
  | zero => unfold stAt stepAt; simp only [if_pos]
  | succ n => exact absurd hz (Nat.succ_ne_zero n)

theorem stAt_pos (c : Dev nD) (t : Fin cfg0.N) (hz : t.val ≠ 0) :
    stAt m c t.val t.isLt = stepAt t.val (grid0.coords t) (iblk m c 0 t) (iblk m c 1 t)
      (stAt m c (t.val - 1) (Nat.lt_of_le_of_lt (Nat.sub_le _ _) t.isLt)) := by
  obtain ⟨n, hn⟩ := t
  cases n with
  | zero => exact absurd rfl hz
  | succ n => rfl

/-! ## The invariant and the proof data -/

abbrev scM0 : Memref sig .tc .vmem S8192x32 .f32 := Memref.whole cc0_scratch0
abbrev scM1 : Memref sig .tc .vmem S8192x32 .f32 := Memref.whole cc0_scratch1
abbrev scM2 : Memref sig .tc .vmem S32x8192 .f32 := Memref.whole cc0_scratch2
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x32 .f32 := win0_5.stage (cfg0.slots t 5)
abbrev hs0_5 (t : Fin cfg0.N) : (ms0_5 t).IsWhole := hstage0_5 ((cfg0.slots t 5).cast nbuf0_5)

/-- The region's own invariant with the three scratch tables as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point the scratch tables hold anything; afterwards what the
    point before left in them. -/
def PhiS (c : Dev nD) : (n : ℕ) → n ≤ cfg0.N → sProp 𝕄
  | 0, _ => Pipeline.ΦA spec0 c
  | n + 1, hn => iprop(iprop(owns (c : Thread nD τ) scM0 fullShare (stAt m c n hn).U ∗ owns (c : Thread nD τ) scM1 fullShare (stAt m c n hn).I ∗ owns (c : Thread nD τ) scM2 fullShare (stAt m c n hn).Acc) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (stAt m c n hn).U ∗ owns (c : Thread nD τ) scM1 fullShare (stAt m c n hn).I ∗ owns (c : Thread nD τ) scM2 fullShare (stAt m c n hn).Acc) ∗ (∃ r, prngReg c r)) := rfl
theorem PhiS_pos (c : Dev nD) (n : ℕ) (h : n ≤ cfg0.N) (hz : n ≠ 0) :
    PhiS m c n h = iprop(iprop(owns (c : Thread nD τ) scM0 fullShare (stAt m c (n - 1) (by omega)).U ∗ owns (c : Thread nD τ) scM1 fullShare (stAt m c (n - 1) (by omega)).I ∗ owns (c : Thread nD τ) scM2 fullShare (stAt m c (n - 1) (by omega)).Acc) ∗ (∃ r, prngReg c r)) := by
  cases n with
  | zero => exact absurd rfl hz
  | succ n => rfl

/-- The proof data: the arrays as the region finds them; after each point the inputs' buffers at their blocks and the
    outputs' at the state's blocks; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).G
    | ⟨3, _⟩ => (stAt m c t.val t.isLt).L
    | ⟨4, _⟩ => (stAt m c t.val t.isLt).IG
    | ⟨5, _⟩ => (stAt m c t.val t.isLt).IL
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).G := by dsimp only [dats]
theorem after0_3 (c : Dev nD) (t : Fin cfg0.N) : (dats m 0 c).after 3 t = (stAt m c t.val t.isLt).L := by dsimp only [dats]
theorem after0_4 (c : Dev nD) (t : Fin cfg0.N) : (dats m 0 c).after 4 t = (stAt m c t.val t.isLt).IG := by dsimp only [dats]
theorem after0_5 (c : Dev nD) (t : Fin cfg0.N) : (dats m 0 c).after 5 t = (stAt m c t.val t.isLt).IL := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem live0 (c : Dev nD) (t : Fin cfg0.N) : (dats m 0 c).leavesExact 0 t = owns (c : Thread nD τ) (ms0_0 t) fullShare (iblk m c 0 t) := by
  unfold Dat.leavesExact; rw [liveAt0_0 t, after0_0]
theorem live1 (c : Dev nD) (t : Fin cfg0.N) : (dats m 0 c).leavesExact 1 t = owns (c : Thread nD τ) (ms0_1 t) fullShare (iblk m c 1 t) := by
  unfold Dat.leavesExact; rw [liveAt0_1 t, after0_1]
theorem live2 (c : Dev nD) (t : Fin cfg0.N) : (dats m 0 c).leavesExact 2 t = owns (c : Thread nD τ) (ms0_2 t) fullShare (stAt m c t.val t.isLt).G := by
  unfold Dat.leavesExact; rw [liveAt0_2 t, after0_2]
theorem live3 (c : Dev nD) (t : Fin cfg0.N) : (dats m 0 c).leavesExact 3 t = owns (c : Thread nD τ) (ms0_3 t) fullShare (stAt m c t.val t.isLt).L := by
  unfold Dat.leavesExact; rw [liveAt0_3 t, after0_3]
theorem live4 (c : Dev nD) (t : Fin cfg0.N) (h : t.val % 32 = 31) : (dats m 0 c).leavesExact 4 t = owns (c : Thread nD τ) (ms0_4 t) fullShare (stAt m c t.val t.isLt).IG := by
  unfold Dat.leavesExact; rw [liveAt0_4 t h, after0_4]
theorem live5 (c : Dev nD) (t : Fin cfg0.N) (h : t.val % 32 = 31) : (dats m 0 c).leavesExact 5 t = owns (c : Thread nD τ) (ms0_5 t) fullShare (stAt m c t.val t.isLt).IL := by
  unfold Dat.leavesExact; rw [liveAt0_5 t h, after0_5]

set_option maxHeartbeats 4800000 in
/-- The body at any point: the closed forms of the branch conditions say which case the point is in; the invariant hands
    the body the scratch tables at what the point before left (at anything before the first point) and takes them back at
    this point's state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [live0, live1, live2, live3]
  have hN : t.val < 96 := lt_of_lt_of_eq t.isLt (show cfg0.N = 96 from N_0)
  by_cases hz : t.val = 0
  · have h2 : t.val % 32 = 0 := by omega
    have h4 : ¬ t.val % 32 = 31 := by omega
    rw [Dat.leavesExact_idle (dats m 0 c) 4 t (idleAt0_4 t h4) (noFlush0_4 t h4), Dat.leavesExact_idle (dats m 0 c) 5 t (idleAt0_5 t h4) (noFlush0_5 t h4)]
    rw [stAt_zero m c t hz st0]; unfold stepAt; simp only [if_pos hz, if_pos h2, if_neg h4]
    rw [PhiS_castSucc m c t, PhiS_zero m c _ _ hz, PhiA0_eq]
    iintro ⟨⟨⟨⟨%x8, HS0⟩, ⟨%x9, HS1⟩, ⟨%x10, HS2⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) ((hcnd1 t).mpr hz) ((hcnd2 t).mpr h2) (fun h => ((hcnd3 t).mp h) h2) (fun h => h4 ((hcnd4 t).mp h)) (iblk m c 0 t) (iblk m c 1 t) _ _ _ _ x8 x9 x10 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val % 32 = 0
    · have h4 : ¬ t.val % 32 = 31 := by omega
      rw [Dat.leavesExact_idle (dats m 0 c) 4 t (idleAt0_4 t h4) (noFlush0_4 t h4), Dat.leavesExact_idle (dats m 0 c) 5 t (idleAt0_5 t h4) (noFlush0_5 t h4)]
      rw [stAt_pos m c t hz]; unfold stepAt; simp only [if_neg hz, if_pos h2, if_neg h4]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) ((hcnd2 t).mpr h2) (fun h => ((hcnd3 t).mp h) h2) (fun h => h4 ((hcnd4 t).mp h)) (iblk m c 0 t) (iblk m c 1 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · by_cases h4 : t.val % 32 = 31
      · rw [live4 m c t h4, live5 m c t h4]
        rw [stAt_pos m c t hz]; unfold stepAt; simp only [if_neg hz, if_neg h2, if_pos h4]
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) (fun h => h2 ((hcnd2 t).mp h)) ((hcnd3 t).mpr h2) ((hcnd4 t).mpr h4) (iblk m c 0 t) (iblk m c 1 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Dat.leavesExact_idle (dats m 0 c) 4 t (idleAt0_4 t h4) (noFlush0_4 t h4), Dat.leavesExact_idle (dats m 0 c) 5 t (idleAt0_5 t h4) (noFlush0_5 t h4)]
        rw [stAt_pos m c t hz]; unfold stepAt; simp only [if_neg hz, if_neg h2, if_neg h4]
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) (fun h => h2 ((hcnd2 t).mp h)) ((hcnd3 t).mpr h2) (fun h => h4 ((hcnd4 t).mp h)) (iblk m c 0 t) (iblk m c 1 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 96 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every weakly fair execution of @main terminates, with every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen
end
-- ==== Proof.StepBits.lean ====
/-
  The kernel body's effect at one grid point as pure functions of what it loads: the stripe of the users' table a point owns,
  the table with that stripe replaced, the two halves of the embedding table, and the step of the state
  (users' table, items' table, transposed accumulator, and the four output blocks) from one point to the next.
  Also: where each of the body's four branch conditions holds on the 3 x 32 grid, and which output windows are idle where.
-/
import proofs.«159328_g20109036880396_cont_8to1_786_9_alg».proof.Proof.Gen.Kernel.Launch
import proofs.«159328_g20109036880396_cont_8to1_786_9_alg».proof.Proof.Gen.Kernel.Skeleton
import proofs.«159328_g20109036880396_cont_8to1_786_9_alg».proof.Proof.Gen.Kernel.Points
import proofs.«159328_g20109036880396_cont_8to1_786_9_alg».proof.Proof.Gen.Kernel.Frame
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and where they hold -/

/-- The first branch: layer 0 and stripe 0. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: stripe 0. -/
abbrev cnd2 (i : grid0.Coords) : Prop := (Scalar.cmpi .ne (Scalar.extui (Scalar.cmpi .eq (BitVec.ofNat 32 (i 1).val) 0#32)) 0#32) = 1#1
/-- The third branch: a later stripe. -/
abbrev cnd3 (i : grid0.Coords) : Prop := (Scalar.cmpi .ne (Scalar.extui (Scalar.cmpi .sgt (BitVec.ofNat 32 (i 1).val) 0#32)) 0#32) = 1#1
/-- The fourth branch: the last stripe. -/
abbrev cnd4 (i : grid0.Coords) : Prop := k0_cond4 i = 1#1

theorem hcnd1 : ∀ t : Fin cfg0.N, cnd1 (grid0.coords t) ↔ t.val = 0 :=
  (by decide +kernel : ∀ t : Fin grid0.N, cnd1 (grid0.coords t) ↔ t.val = 0)
theorem hcnd2 : ∀ t : Fin cfg0.N, cnd2 (grid0.coords t) ↔ t.val % 32 = 0 :=
  (by decide +kernel : ∀ t : Fin grid0.N, cnd2 (grid0.coords t) ↔ t.val % 32 = 0)
theorem hcnd3 : ∀ t : Fin cfg0.N, cnd3 (grid0.coords t) ↔ ¬ t.val % 32 = 0 :=
  (by decide +kernel : ∀ t : Fin grid0.N, cnd3 (grid0.coords t) ↔ ¬ t.val % 32 = 0)
theorem hcnd4 : ∀ t : Fin cfg0.N, cnd4 (grid0.coords t) ↔ t.val % 32 = 31 :=
  (by decide +kernel : ∀ t : Fin grid0.N, cnd4 (grid0.coords t) ↔ t.val % 32 = 31)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬ t.val % 32 = 31 → cfg0.idle 4 (grid0.coords t) = true := by decide +kernel
theorem idleAt0_5 : ∀ t : Fin cfg0.N, ¬ t.val % 32 = 31 → cfg0.idle 5 (grid0.coords t) = true := by decide +kernel
theorem liveAt0_4 : ∀ t : Fin cfg0.N, t.val % 32 = 31 → cfg0.idle 4 (grid0.coords t) = false := by decide +kernel
theorem liveAt0_5 : ∀ t : Fin cfg0.N, t.val % 32 = 31 → cfg0.idle 5 (grid0.coords t) = false := by decide +kernel
theorem noFlush0_4 : ∀ t : Fin cfg0.N, ¬ t.val % 32 = 31 → (cfg0.win 4).flush t = false := by decide +kernel
theorem noFlush0_5 : ∀ t : Fin cfg0.N, ¬ t.val % 32 = 31 → (cfg0.win 5).flush t = false := by decide +kernel

/-! ## The body's effect as pure functions -/

theorem z2 : (![0, 0] : Fin 2 → ℕ) = fun _ => 0 := by funext a; fin_cases a <;> rfl
theorem z3 : (![0, 0, 0] : Fin 3 → ℕ) = fun _ => 0 := by funext a; fin_cases a <;> rfl

/-- The rows of a user table that belong to the point's stripe: rows 256·i to 256·i + 255. -/
def stripe (i : grid0.Coords) (u : Vec F S8192x32 .f32) : Vec F S256x32 .f32 :=
  View.ld u (Rect.unit (s := S8192x32) (k0_off1 i) S256x32.size (k0_off1_inb i))
/-- A user table with the point's stripe replaced by `w`. -/
def putStripe (i : grid0.Coords) (u : Vec F S8192x32 .f32) (w : Vec F S256x32 .f32) : Vec F S8192x32 .f32 :=
  fun y => if h : ∀ a, k0_off1 i a ≤ (y a).val ∧ (y a).val < k0_off1 i a + S256x32.size a then
      w (Rect.unitLocal (s := S8192x32) (off := k0_off1 i) (size := S256x32.size) y h) else u y
/-- The user rows of the embedding table (its first 8192 rows). -/
def embU (e : Vec F S16384x32 .f32) : Vec F S8192x32 .f32 :=
  k0_pay7 (View.ld e (Rect.unit (s := S16384x32) ![0, 0] S8192x32.size inb_S16384x32_S8192x32_0_0))
/-- The item rows of the embedding table (its last 8192 rows). -/
def embI (e : Vec F S16384x32 .f32) : Vec F S8192x32 .f32 :=
  k0_pay8 (View.ld e (Rect.unit (s := S16384x32) ![8192, 0] S8192x32.size inb_S16384x32_S8192x32_8192_0))

section Mem
variable {S : Shape} {e : EltTy} (mr : Memref sig .tc .vmem S e) (h : mr.IsWhole)

theorem rd_whole (f : mr.view.ty.Contents (Elt F)) {off : Fin S.rank → ℕ} (hz : off = fun _ => 0) (inb : ∀ a, off a + S.size a ≤ S.size a) :
    (View.readAt (Elt F) mr.view (Rect.unit (s := S) off S.size inb).toLoadRect f : S.Idx → Elt F e) = mr.view.read (Elt F) f :=
  View.ld_unit_zero hz inb (mr.view.read (Elt F) f)

theorem wr_whole (f : mr.view.ty.Contents (Elt F)) {off : Fin S.rank → ℕ} (hz : off = fun _ => 0) (inb : ∀ a, off a + S.size a ≤ S.size a)
    (w : S.Idx → Elt F e) (L : List (View.Piece (Elt F) S e)) :
    mr.view.read (Elt F) (mr.view.writes (Elt F) f ((⟨Rect.unit (s := S) off S.size inb, w⟩ : View.Piece (Elt F) S e) :: L)) = w := by
  subst hz
  funext y
  exact View.read_writes_cons_unit_of_mem mr.view f inb w L y y rfl (fun a => by simp)
end Mem

theorem rd_stripe (mr : Memref sig .tc .vmem S8192x32 .f32) (f : mr.view.ty.Contents (Elt F)) (i : grid0.Coords) :
    View.readAt (Elt F) mr.view (Rect.unit (s := S8192x32) (k0_off1 i) S256x32.size (k0_off1_inb i)).toLoadRect f
      = stripe i (mr.view.read (Elt F) f) := rfl
theorem rd_lo (mr : Memref sig .tc .vmem S16384x32 .f32) (f : mr.view.ty.Contents (Elt F)) :
    View.readAt (Elt F) mr.view (Rect.unit (s := S16384x32) ![0, 0] S8192x32.size inb_S16384x32_S8192x32_0_0).toLoadRect f
      = View.ld (mr.view.read (Elt F) f) (Rect.unit (s := S16384x32) ![0, 0] S8192x32.size inb_S16384x32_S8192x32_0_0) := rfl
theorem rd_hi (mr : Memref sig .tc .vmem S16384x32 .f32) (f : mr.view.ty.Contents (Elt F)) :
    View.readAt (Elt F) mr.view (Rect.unit (s := S16384x32) ![8192, 0] S8192x32.size inb_S16384x32_S8192x32_8192_0).toLoadRect f
      = View.ld (mr.view.read (Elt F) f) (Rect.unit (s := S16384x32) ![8192, 0] S8192x32.size inb_S16384x32_S8192x32_8192_0) := rfl
theorem wr_stripe (mr : Memref sig .tc .vmem S8192x32 .f32) (f : mr.view.ty.Contents (Elt F)) (i : grid0.Coords)
    (w : Vec F S256x32 .f32) (L : List (View.Piece (Elt F) S8192x32 .f32)) :
    mr.view.read (Elt F) (mr.view.writes (Elt F) f ((⟨Rect.unit (s := S8192x32) (k0_off1 i) S256x32.size (k0_off1_inb i), w⟩ : View.Piece (Elt F) S8192x32 .f32) :: L))
      = putStripe i (mr.view.read (Elt F) (mr.view.writes (Elt F) f L)) w := by
  funext y
  rw [View.read_writes_cons_unit mr.view f (k0_off1_inb i) w L y rfl]
  rfl

/-! The same reads and writes with the rectangles' extents spelled as literals. -/
theorem rdL_S256x8192 (mr : Memref sig .tc .vmem S256x8192 .f32) (f : mr.view.ty.Contents (Elt F)) (inb : ∀ a, (![0, 0] : Fin S256x8192.rank → ℕ) a + (![256, 8192] : Fin S256x8192.rank → ℕ) a ≤ S256x8192.size a) :
    (View.readAt (Elt F) mr.view (Rect.unit (s := S256x8192) ![0, 0] ![256, 8192] inb).toLoadRect f : S256x8192.Idx → Elt F .f32) = mr.view.read (Elt F) f :=
  rd_whole (S := S256x8192) mr f z2 inb
theorem wrL_S256x8192 (mr : Memref sig .tc .vmem S256x8192 .f32) (f : mr.view.ty.Contents (Elt F)) (inb : ∀ a, (![0, 0] : Fin S256x8192.rank → ℕ) a + (![256, 8192] : Fin S256x8192.rank → ℕ) a ≤ S256x8192.size a)
    (w : S256x8192.Idx → Elt F .f32) (L : List (View.Piece (Elt F) S256x8192 .f32)) :
    mr.view.read (Elt F) (mr.view.writes (Elt F) f ((⟨Rect.unit (s := S256x8192) ![0, 0] ![256, 8192] inb, w⟩ : View.Piece (Elt F) S256x8192 .f32) :: L)) = w :=
  wr_whole (S := S256x8192) mr f z2 inb w L
theorem rcL_S256x8192 (mr : Memref sig .tc .vmem S256x8192 .f32) (inb : ∀ a, (![0, 0] : Fin S256x8192.rank → ℕ) a + (![256, 8192] : Fin S256x8192.rank → ℕ) a ≤ S256x8192.size a)
    (w : S256x8192.Idx → Elt F .f32) :
    (mr.view.readCov [(⟨Rect.unit (s := S256x8192) ![0, 0] ![256, 8192] inb, w⟩ : View.Piece (Elt F) S256x8192 .f32)] (Rect.unit (s := S256x8192) ![0, 0] ![256, 8192] inb).toLoadRect : S256x8192.Idx → Elt F .f32) = w :=
  View.readCov_unit_zero (S := S256x8192) mr.view z2 inb w
theorem rdL_S8192x32 (mr : Memref sig .tc .vmem S8192x32 .f32) (f : mr.view.ty.Contents (Elt F)) (inb : ∀ a, (![0, 0] : Fin S8192x32.rank → ℕ) a + (![8192, 32] : Fin S8192x32.rank → ℕ) a ≤ S8192x32.size a) :
    (View.readAt (Elt F) mr.view (Rect.unit (s := S8192x32) ![0, 0] ![8192, 32] inb).toLoadRect f : S8192x32.Idx → Elt F .f32) = mr.view.read (Elt F) f :=
  rd_whole (S := S8192x32) mr f z2 inb
theorem wrL_S8192x32 (mr : Memref sig .tc .vmem S8192x32 .f32) (f : mr.view.ty.Contents (Elt F)) (inb : ∀ a, (![0, 0] : Fin S8192x32.rank → ℕ) a + (![8192, 32] : Fin S8192x32.rank → ℕ) a ≤ S8192x32.size a)
    (w : S8192x32.Idx → Elt F .f32) (L : List (View.Piece (Elt F) S8192x32 .f32)) :
    mr.view.read (Elt F) (mr.view.writes (Elt F) f ((⟨Rect.unit (s := S8192x32) ![0, 0] ![8192, 32] inb, w⟩ : View.Piece (Elt F) S8192x32 .f32) :: L)) = w :=
  wr_whole (S := S8192x32) mr f z2 inb w L
theorem rcL_S8192x32 (mr : Memref sig .tc .vmem S8192x32 .f32) (inb : ∀ a, (![0, 0] : Fin S8192x32.rank → ℕ) a + (![8192, 32] : Fin S8192x32.rank → ℕ) a ≤ S8192x32.size a)
    (w : S8192x32.Idx → Elt F .f32) :
    (mr.view.readCov [(⟨Rect.unit (s := S8192x32) ![0, 0] ![8192, 32] inb, w⟩ : View.Piece (Elt F) S8192x32 .f32)] (Rect.unit (s := S8192x32) ![0, 0] ![8192, 32] inb).toLoadRect : S8192x32.Idx → Elt F .f32) = w :=
  View.readCov_unit_zero (S := S8192x32) mr.view z2 inb w
theorem rdL_S32x8192 (mr : Memref sig .tc .vmem S32x8192 .f32) (f : mr.view.ty.Contents (Elt F)) (inb : ∀ a, (![0, 0] : Fin S32x8192.rank → ℕ) a + (![32, 8192] : Fin S32x8192.rank → ℕ) a ≤ S32x8192.size a) :
    (View.readAt (Elt F) mr.view (Rect.unit (s := S32x8192) ![0, 0] ![32, 8192] inb).toLoadRect f : S32x8192.Idx → Elt F .f32) = mr.view.read (Elt F) f :=
  rd_whole (S := S32x8192) mr f z2 inb
theorem wrL_S32x8192 (mr : Memref sig .tc .vmem S32x8192 .f32) (f : mr.view.ty.Contents (Elt F)) (inb : ∀ a, (![0, 0] : Fin S32x8192.rank → ℕ) a + (![32, 8192] : Fin S32x8192.rank → ℕ) a ≤ S32x8192.size a)
    (w : S32x8192.Idx → Elt F .f32) (L : List (View.Piece (Elt F) S32x8192 .f32)) :
    mr.view.read (Elt F) (mr.view.writes (Elt F) f ((⟨Rect.unit (s := S32x8192) ![0, 0] ![32, 8192] inb, w⟩ : View.Piece (Elt F) S32x8192 .f32) :: L)) = w :=
  wr_whole (S := S32x8192) mr f z2 inb w L
theorem rcL_S32x8192 (mr : Memref sig .tc .vmem S32x8192 .f32) (inb : ∀ a, (![0, 0] : Fin S32x8192.rank → ℕ) a + (![32, 8192] : Fin S32x8192.rank → ℕ) a ≤ S32x8192.size a)
    (w : S32x8192.Idx → Elt F .f32) :
    (mr.view.readCov [(⟨Rect.unit (s := S32x8192) ![0, 0] ![32, 8192] inb, w⟩ : View.Piece (Elt F) S32x8192 .f32)] (Rect.unit (s := S32x8192) ![0, 0] ![32, 8192] inb).toLoadRect : S32x8192.Idx → Elt F .f32) = w :=
  View.readCov_unit_zero (S := S32x8192) mr.view z2 inb w
theorem rdL_S1x256x32 (mr : Memref sig .tc .vmem S1x256x32 .f32) (f : mr.view.ty.Contents (Elt F)) (inb : ∀ a, (![0, 0, 0] : Fin S1x256x32.rank → ℕ) a + (![1, 256, 32] : Fin S1x256x32.rank → ℕ) a ≤ S1x256x32.size a) :
    (View.readAt (Elt F) mr.view (Rect.unit (s := S1x256x32) ![0, 0, 0] ![1, 256, 32] inb).toLoadRect f : S1x256x32.Idx → Elt F .f32) = mr.view.read (Elt F) f :=
  rd_whole (S := S1x256x32) mr f z3 inb
theorem wrL_S1x256x32 (mr : Memref sig .tc .vmem S1x256x32 .f32) (f : mr.view.ty.Contents (Elt F)) (inb : ∀ a, (![0, 0, 0] : Fin S1x256x32.rank → ℕ) a + (![1, 256, 32] : Fin S1x256x32.rank → ℕ) a ≤ S1x256x32.size a)
    (w : S1x256x32.Idx → Elt F .f32) (L : List (View.Piece (Elt F) S1x256x32 .f32)) :
    mr.view.read (Elt F) (mr.view.writes (Elt F) f ((⟨Rect.unit (s := S1x256x32) ![0, 0, 0] ![1, 256, 32] inb, w⟩ : View.Piece (Elt F) S1x256x32 .f32) :: L)) = w :=
  wr_whole (S := S1x256x32) mr f z3 inb w L
theorem rcL_S1x256x32 (mr : Memref sig .tc .vmem S1x256x32 .f32) (inb : ∀ a, (![0, 0, 0] : Fin S1x256x32.rank → ℕ) a + (![1, 256, 32] : Fin S1x256x32.rank → ℕ) a ≤ S1x256x32.size a)
    (w : S1x256x32.Idx → Elt F .f32) :
    (mr.view.readCov [(⟨Rect.unit (s := S1x256x32) ![0, 0, 0] ![1, 256, 32] inb, w⟩ : View.Piece (Elt F) S1x256x32 .f32)] (Rect.unit (s := S1x256x32) ![0, 0, 0] ![1, 256, 32] inb).toLoadRect : S1x256x32.Idx → Elt F .f32) = w :=
  View.readCov_unit_zero (S := S1x256x32) mr.view z3 inb w
theorem rdL_S1x8192x32 (mr : Memref sig .tc .vmem S1x8192x32 .f32) (f : mr.view.ty.Contents (Elt F)) (inb : ∀ a, (![0, 0, 0] : Fin S1x8192x32.rank → ℕ) a + (![1, 8192, 32] : Fin S1x8192x32.rank → ℕ) a ≤ S1x8192x32.size a) :
    (View.readAt (Elt F) mr.view (Rect.unit (s := S1x8192x32) ![0, 0, 0] ![1, 8192, 32] inb).toLoadRect f : S1x8192x32.Idx → Elt F .f32) = mr.view.read (Elt F) f :=
  rd_whole (S := S1x8192x32) mr f z3 inb
theorem wrL_S1x8192x32 (mr : Memref sig .tc .vmem S1x8192x32 .f32) (f : mr.view.ty.Contents (Elt F)) (inb : ∀ a, (![0, 0, 0] : Fin S1x8192x32.rank → ℕ) a + (![1, 8192, 32] : Fin S1x8192x32.rank → ℕ) a ≤ S1x8192x32.size a)
    (w : S1x8192x32.Idx → Elt F .f32) (L : List (View.Piece (Elt F) S1x8192x32 .f32)) :
    mr.view.read (Elt F) (mr.view.writes (Elt F) f ((⟨Rect.unit (s := S1x8192x32) ![0, 0, 0] ![1, 8192, 32] inb, w⟩ : View.Piece (Elt F) S1x8192x32 .f32) :: L)) = w :=
  wr_whole (S := S1x8192x32) mr f z3 inb w L
theorem rcL_S1x8192x32 (mr : Memref sig .tc .vmem S1x8192x32 .f32) (inb : ∀ a, (![0, 0, 0] : Fin S1x8192x32.rank → ℕ) a + (![1, 8192, 32] : Fin S1x8192x32.rank → ℕ) a ≤ S1x8192x32.size a)
    (w : S1x8192x32.Idx → Elt F .f32) :
    (mr.view.readCov [(⟨Rect.unit (s := S1x8192x32) ![0, 0, 0] ![1, 8192, 32] inb, w⟩ : View.Piece (Elt F) S1x8192x32 .f32)] (Rect.unit (s := S1x8192x32) ![0, 0, 0] ![1, 8192, 32] inb).toLoadRect : S1x8192x32.Idx → Elt F .f32) = w :=
  View.readCov_unit_zero (S := S1x8192x32) mr.view z3 inb w
theorem rdL_stripe (mr : Memref sig .tc .vmem S8192x32 .f32) (f : mr.view.ty.Contents (Elt F)) (i : grid0.Coords) (inb : ∀ a, k0_off1 i a + (![256, 32] : Fin 2 → ℕ) a ≤ S8192x32.size a) :
    View.readAt (Elt F) mr.view (Rect.unit (s := S8192x32) (k0_off1 i) ![256, 32] inb).toLoadRect f
      = stripe i (mr.view.read (Elt F) f) := rfl
theorem wrL_stripe (mr : Memref sig .tc .vmem S8192x32 .f32) (f : mr.view.ty.Contents (Elt F)) (i : grid0.Coords) (inb : ∀ a, k0_off1 i a + (![256, 32] : Fin 2 → ℕ) a ≤ S8192x32.size a)
    (w : Vec F S256x32 .f32) (L : List (View.Piece (Elt F) S8192x32 .f32)) :
    mr.view.read (Elt F) (mr.view.writes (Elt F) f ((⟨Rect.unit (s := S8192x32) (k0_off1 i) ![256, 32] inb, w⟩ : View.Piece (Elt F) S8192x32 .f32) :: L))
      = putStripe i (mr.view.read (Elt F) (mr.view.writes (Elt F) f L)) w :=
  wr_stripe mr f i w L
theorem rdL_lo (mr : Memref sig .tc .vmem S16384x32 .f32) (h : mr.IsWhole) (x : Vec F S16384x32 .f32) (inb : ∀ a, (![0, 0] : Fin 2 → ℕ) a + (![8192, 32] : Fin 2 → ℕ) a ≤ S16384x32.size a) :
    k0_pay7 (View.readAt (Elt F) mr.view (Rect.unit (s := S16384x32) ![0, 0] ![8192, 32] inb).toLoadRect (h.unread x)) = embU x := by
  unfold embU
  have e : mr.view.read (Elt F) (h.unread x) = x := h.read_unread x
  show k0_pay7 (View.ld (mr.view.read (Elt F) (h.unread x)) (Rect.unit (s := S16384x32) ![0, 0] ![8192, 32] inb)) = _
  rw [e]
theorem rdL_hi (mr : Memref sig .tc .vmem S16384x32 .f32) (h : mr.IsWhole) (x : Vec F S16384x32 .f32) (inb : ∀ a, (![8192, 0] : Fin 2 → ℕ) a + (![8192, 32] : Fin 2 → ℕ) a ≤ S16384x32.size a) :
    k0_pay8 (View.readAt (Elt F) mr.view (Rect.unit (s := S16384x32) ![8192, 0] ![8192, 32] inb).toLoadRect (h.unread x)) = embI x := by
  unfold embI
  have e : mr.view.read (Elt F) (h.unread x) = x := h.read_unread x
  show k0_pay8 (View.ld (mr.view.read (Elt F) (h.unread x)) (Rect.unit (s := S16384x32) ![8192, 0] ![8192, 32] inb)) = _
  rw [e]
theorem rd_lo' (mr : Memref sig .tc .vmem S16384x32 .f32) (h : mr.IsWhole) (x : Vec F S16384x32 .f32) :
    k0_pay7 (View.readAt (Elt F) mr.view (Rect.unit (s := S16384x32) ![0, 0] S8192x32.size inb_S16384x32_S8192x32_0_0).toLoadRect (h.unread x)) = embU x :=
  rdL_lo mr h x _
theorem rd_hi' (mr : Memref sig .tc .vmem S16384x32 .f32) (h : mr.IsWhole) (x : Vec F S16384x32 .f32) :
    k0_pay8 (View.readAt (Elt F) mr.view (Rect.unit (s := S16384x32) ![8192, 0] S8192x32.size inb_S16384x32_S8192x32_8192_0).toLoadRect (h.unread x)) = embI x :=
  rdL_hi mr h x _

/-! ## What the scratch tables and the output blocks hold after each point -/

/-- The three scratch tables (the users' table, the items' table, the transposed accumulator) and the four
    output blocks after a point. -/
structure St (F : FTy → Type) [FloatOps F] where
  U : Vec F S8192x32 .f32
  I : Vec F S8192x32 .f32
  Acc : Vec F S32x8192 .f32
  G : Vec F S1x256x32 .f32
  L : Vec F S1x256x32 .f32
  IG : Vec F S1x8192x32 .f32
  IL : Vec F S1x8192x32 .f32

/-- One point of the grid, at position `n` of the row-major order (layer `n / 32`, stripe `n % 32`): the tables are
    loaded from the embeddings at the very first point; the stripe's user rows get the forward product plus
    themselves; the accumulator is set at a layer's first stripe and added to afterwards; at a layer's last stripe
    the items' table gets the accumulator transposed plus itself. -/
def stepAt (n : ℕ) (i : grid0.Coords) (a : Vec F S256x8192 .f32) (e : Vec F S16384x32 .f32) (s : St F) : St F :=
  { U := putStripe i (if n = 0 then embU e else s.U)
      (k0_pay13 a (stripe i (if n = 0 then embU e else s.U)) (if n = 0 then embI e else s.I))
    I := if n % 32 = 31 then
        k0_pay6 (if n % 32 = 0 then k0_pay15 a (stripe i (if n = 0 then embU e else s.U))
                  else k0_pay1 (k0_pay14 a (stripe i (if n = 0 then embU e else s.U))) s.Acc) (if n = 0 then embI e else s.I)
      else (if n = 0 then embI e else s.I)
    Acc := if n % 32 = 0 then k0_pay15 a (stripe i (if n = 0 then embU e else s.U))
      else k0_pay1 (k0_pay14 a (stripe i (if n = 0 then embU e else s.U))) s.Acc
    G := k0_pay10 a (if n = 0 then embI e else s.I)
    L := k0_pay12 a (stripe i (if n = 0 then embU e else s.U)) (if n = 0 then embI e else s.I)
    IG := k0_pay3 (if n % 32 = 0 then k0_pay15 a (stripe i (if n = 0 then embU e else s.U))
      else k0_pay1 (k0_pay14 a (stripe i (if n = 0 then embU e else s.U))) s.Acc)
    IL := k0_pay5 (if n % 32 = 0 then k0_pay15 a (stripe i (if n = 0 then embU e else s.U))
      else k0_pay1 (k0_pay14 a (stripe i (if n = 0 then embU e else s.U))) s.Acc) (if n = 0 then embI e else s.I) }

/-- Any state: what precedes the first point, of which nothing is read. -/
def st0 : St F := ⟨fun _ => Classical.choice (Elt.nonempty F .f32), fun _ => Classical.choice (Elt.nonempty F .f32), fun _ => Classical.choice (Elt.nonempty F .f32),
  fun _ => Classical.choice (Elt.nonempty F .f32), fun _ => Classical.choice (Elt.nonempty F .f32), fun _ => Classical.choice (Elt.nonempty F .f32), fun _ => Classical.choice (Elt.nonempty F .f32)⟩

end Cert.Kernel.Gen
end
-- ==== Proof.RunsBits.lean ====
/-
  The kernel body run symbolically in each of the four cases of its branch conditions the grid meets
  (A: the very first point; B: a later layer's first stripe; C: a middle stripe; D: a layer's last stripe):
  from the staging buffers and the scratch tables at given contents to the contents the case's stores leave,
  each named by the pure functions of the step.
-/
import proofs.«159328_g20109036880396_cont_8to1_786_9_alg».proof.Proof.StepBits
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reads the contents a run leaves back to the named pure functions. -/
macro "rd_tac" : tactic => `(tactic| (
  sl_unfold_run_names
  simp only [rdL_S256x8192, wrL_S256x8192, rcL_S256x8192, rd_whole (S := S256x8192) _ _ z2, wr_whole (S := S256x8192) _ _ z2, View.readCov_unit_zero (S := S256x8192) _ z2, rdL_S8192x32, wrL_S8192x32, rcL_S8192x32, rd_whole (S := S8192x32) _ _ z2, wr_whole (S := S8192x32) _ _ z2, View.readCov_unit_zero (S := S8192x32) _ z2, rdL_S32x8192, wrL_S32x8192, rcL_S32x8192, rd_whole (S := S32x8192) _ _ z2, wr_whole (S := S32x8192) _ _ z2, View.readCov_unit_zero (S := S32x8192) _ z2, rdL_S1x256x32, wrL_S1x256x32, rcL_S1x256x32, rd_whole (S := S1x256x32) _ _ z3, wr_whole (S := S1x256x32) _ _ z3, View.readCov_unit_zero (S := S1x256x32) _ z3, rdL_S1x8192x32, wrL_S1x8192x32, rcL_S1x8192x32, rd_whole (S := S1x8192x32) _ _ z3, wr_whole (S := S1x8192x32) _ _ z3, View.readCov_unit_zero (S := S1x8192x32) _ z3,
    rd_stripe, rdL_stripe, rdL_lo, rdL_hi, rd_lo', rd_hi', wr_stripe, wrL_stripe, View.writes_nil, Memref.IsWhole.read_unread]
  try rfl))

set_option maxHeartbeats 4000000 in
/-- The body at a point of case A: from the staging buffers and the three scratch tables at given contents it runs
    to the same buffers at the contents the case's stores leave, each a pure function of what was loaded. -/
theorem runA (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : cnd1 i) (hc2 : cnd2 i) (hc3 : ¬cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 (embI x1)) ∗ owns (c : Thread nD τ) arg5 fullShare (k0_pay12 x0 (stripe i (embU x1)) (embI x1))
                ∗ owns (c : Thread nD τ) arg6 fullShare xi6 ∗ owns (c : Thread nD τ) arg7 fullShare xi7
                ∗ owns (c : Thread nD τ) arg8 fullShare (putStripe i (embU x1) (k0_pay13 x0 (stripe i (embU x1)) (embI x1))) ∗ owns (c : Thread nD τ) arg9 fullShare (embI x1)
                ∗ owns (c : Thread nD τ) arg10 fullShare (k0_pay15 x0 (stripe i (embU x1)))) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; swap; · iexact H9
      ipureintro; rd_tac
    iexists _; isplitr; swap; · iexact H10
    ipureintro; rd_tac

set_option maxHeartbeats 4000000 in
/-- The body at a point of case B: from the staging buffers and the three scratch tables at given contents it runs
    to the same buffers at the contents the case's stores leave, each a pure function of what was loaded. -/
theorem runB (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : cnd2 i) (hc3 : ¬cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare xi6 ∗ owns (c : Thread nD τ) arg7 fullShare xi7
                ∗ owns (c : Thread nD τ) arg8 fullShare (putStripe i xs8 (k0_pay13 x0 (stripe i xs8) xs9)) ∗ owns (c : Thread nD τ) arg9 fullShare xs9
                ∗ owns (c : Thread nD τ) arg10 fullShare (k0_pay15 x0 (stripe i xs8))) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; · ipureintro; exact harg9.read_unread _
      iexact H9
    iexists _; isplitr; swap; · iexact H10
    ipureintro; rd_tac

set_option maxHeartbeats 4000000 in
/-- The body at a point of case C: from the staging buffers and the three scratch tables at given contents it runs
    to the same buffers at the contents the case's stores leave, each a pure function of what was loaded. -/
theorem runC (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : ¬cnd2 i) (hc3 : cnd3 i) (hc4 : ¬cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare xi6 ∗ owns (c : Thread nD τ) arg7 fullShare xi7
                ∗ owns (c : Thread nD τ) arg8 fullShare (putStripe i xs8 (k0_pay13 x0 (stripe i xs8) xs9)) ∗ owns (c : Thread nD τ) arg9 fullShare xs9
                ∗ owns (c : Thread nD τ) arg10 fullShare (k0_pay1 (k0_pay14 x0 (stripe i xs8)) xs10)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; rd_tac
    isplitl [H9]
    · iexists _; isplitr; · ipureintro; exact harg9.read_unread _
      iexact H9
    iexists _; isplitr; swap; · iexact H10
    ipureintro; rd_tac

set_option maxHeartbeats 4000000 in
/-- The body at a point of case D: from the staging buffers and the three scratch tables at given contents it runs
    to the same buffers at the contents the case's stores leave, each a pure function of what was loaded. -/
theorem runD (c : Dev nD) (i : grid0.Coords) (arg2 : Memref sig .tc .vmem S256x8192 .f32) (harg2 : arg2.IsWhole) (arg3 : Memref sig .tc .vmem S16384x32 .f32) (harg3 : arg3.IsWhole) (arg4 : Memref sig .tc .vmem S1x256x32 .f32) (harg4 : arg4.IsWhole) (arg5 : Memref sig .tc .vmem S1x256x32 .f32) (harg5 : arg5.IsWhole) (arg6 : Memref sig .tc .vmem S1x8192x32 .f32) (harg6 : arg6.IsWhole) (arg7 : Memref sig .tc .vmem S1x8192x32 .f32) (harg7 : arg7.IsWhole) (arg8 : Memref sig .tc .vmem S8192x32 .f32) (harg8 : arg8.IsWhole) (arg9 : Memref sig .tc .vmem S8192x32 .f32) (harg9 : arg9.IsWhole) (arg10 : Memref sig .tc .vmem S32x8192 .f32) (harg10 : arg10.IsWhole) (hc1 : ¬cnd1 i) (hc2 : ¬cnd2 i) (hc3 : cnd3 i) (hc4 : cnd4 i)
    (x0 : Vec F S256x8192 .f32) (x1 : Vec F S16384x32 .f32) (d4 d5 : Vec F S1x256x32 .f32) (xi6 xi7 : Vec F S1x8192x32 .f32) (xs8 : Vec F S8192x32 .f32) (xs9 : Vec F S8192x32 .f32) (xs10 : Vec F S32x8192 .f32)
    (E : Set ℕ) (K : PUnit → sProp 𝕄) :
        iprop(owns (c : Thread nD τ) arg2 fullShare x0 ∗ owns (c : Thread nD τ) arg3 fullShare x1 ∗ owns (c : Thread nD τ) arg4 fullShare d4 ∗ owns (c : Thread nD τ) arg5 fullShare d5
            ∗ owns (c : Thread nD τ) arg6 fullShare xi6 ∗ owns (c : Thread nD τ) arg7 fullShare xi7
            ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1
                ∗ owns (c : Thread nD τ) arg4 fullShare (k0_pay10 x0 xs9) ∗ owns (c : Thread nD τ) arg5 fullShare (k0_pay12 x0 (stripe i xs8) xs9)
                ∗ owns (c : Thread nD τ) arg6 fullShare (k0_pay3 (k0_pay1 (k0_pay14 x0 (stripe i xs8)) xs10)) ∗ owns (c : Thread nD τ) arg7 fullShare (k0_pay5 (k0_pay1 (k0_pay14 x0 (stripe i xs8)) xs10) xs9)
                ∗ owns (c : Thread nD τ) arg8 fullShare (putStripe i xs8 (k0_pay13 x0 (stripe i xs8) xs9)) ∗ owns (c : Thread nD τ) arg9 fullShare (k0_pay6 (k0_pay1 (k0_pay14 x0 (stripe i xs8)) xs10) xs9)
                ∗ owns (c : Thread nD τ) arg10 fullShare (k0_pay1 (k0_pay14 x0 (stripe i xs8)) xs10)) -∗ K ⟨⟩))
          ⊢ wp frame (wpE (defs₀ (F := F)) Variants.none c none) E (cc0__lightgcn_kernel i arg2 harg2 arg3 harg3 arg4 harg4 arg5 harg5 arg6 harg6 arg7 harg7 arg8 harg8 arg9 harg9 arg10 harg10) K := by
    simp only [cc0__lightgcn_kernel_eq_skeleton]; unfold cc0__lightgcn_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; rd_tac
    isplitl [H5]
    · iexists _; isplitr; swap; · iexact H5
      ipureintro; rd_tac
    isplitl [H6]
    · iexists _; isplitr; swap; · iexact H6
      ipureintro; rd_tac
    isplitl [H7]
    · iexists _; isplitr; swap; · iexact H7
      ipureintro; rd_tac
    isplitl [H8]
    · iexists _; isplitr; swap; · iexact H8
      ipureintro; rd_tac
    isplitl [H9]
    · iexists _; isplitr; swap; · iexact H9
      ipureintro; rd_tac
    iexists _; isplitr; swap; · iexact H10
    ipureintro; rd_tac

end Cert.Kernel.Gen
end
-- ==== Proof.BodyBits.lean ====
/-
  The state after each grid point by recursion on the point, the invariant that carries the three scratch tables from point to
  point, the proof data of the pipeline, the body obligation at every point (by cases on the closed forms of the branch
  conditions), and the run of @main around its one region.
-/
import proofs.«159328_g20109036880396_cont_8to1_786_9_alg».proof.Proof.RunsBits
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The state after the point at position `n`, by recursion on the position. -/
def stAt (c : Dev nD) : (n : ℕ) → n < cfg0.N → St F
  | 0, hn => stepAt 0 (grid0.coords ⟨0, hn⟩) (iblk m c 0 ⟨0, hn⟩) (iblk m c 1 ⟨0, hn⟩) st0
  | n + 1, hn => stepAt (n + 1) (grid0.coords ⟨n + 1, hn⟩) (iblk m c 0 ⟨n + 1, hn⟩) (iblk m c 1 ⟨n + 1, hn⟩) (stAt c n (Nat.lt_of_succ_lt hn))

theorem stAt_zero (c : Dev nD) (t : Fin cfg0.N) (hz : t.val = 0) (s : St F) :
    stAt m c t.val t.isLt = stepAt t.val (grid0.coords t) (iblk m c 0 t) (iblk m c 1 t) s := by
  obtain ⟨n, hn⟩ := t
  cases n with
  | zero => unfold stAt stepAt; simp only [if_pos]
  | succ n => exact absurd hz (Nat.succ_ne_zero n)

theorem stAt_pos (c : Dev nD) (t : Fin cfg0.N) (hz : t.val ≠ 0) :
    stAt m c t.val t.isLt = stepAt t.val (grid0.coords t) (iblk m c 0 t) (iblk m c 1 t)
      (stAt m c (t.val - 1) (Nat.lt_of_le_of_lt (Nat.sub_le _ _) t.isLt)) := by
  obtain ⟨n, hn⟩ := t
  cases n with
  | zero => exact absurd rfl hz
  | succ n => rfl

/-! ## The invariant and the proof data -/

abbrev scM0 : Memref sig .tc .vmem S8192x32 .f32 := Memref.whole cc0_scratch0
abbrev scM1 : Memref sig .tc .vmem S8192x32 .f32 := Memref.whole cc0_scratch1
abbrev scM2 : Memref sig .tc .vmem S32x8192 .f32 := Memref.whole cc0_scratch2
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x32 .f32 := win0_5.stage (cfg0.slots t 5)
abbrev hs0_5 (t : Fin cfg0.N) : (ms0_5 t).IsWhole := hstage0_5 ((cfg0.slots t 5).cast nbuf0_5)

/-- The region's own invariant with the three scratch tables as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point the scratch tables hold anything; afterwards what the
    point before left in them. -/
def PhiS (c : Dev nD) : (n : ℕ) → n ≤ cfg0.N → sProp 𝕄
  | 0, _ => Pipeline.ΦA spec0 c
  | n + 1, hn => iprop(iprop(owns (c : Thread nD τ) scM0 fullShare (stAt m c n hn).U ∗ owns (c : Thread nD τ) scM1 fullShare (stAt m c n hn).I ∗ owns (c : Thread nD τ) scM2 fullShare (stAt m c n hn).Acc) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (stAt m c n hn).U ∗ owns (c : Thread nD τ) scM1 fullShare (stAt m c n hn).I ∗ owns (c : Thread nD τ) scM2 fullShare (stAt m c n hn).Acc) ∗ (∃ r, prngReg c r)) := rfl
theorem PhiS_pos (c : Dev nD) (n : ℕ) (h : n ≤ cfg0.N) (hz : n ≠ 0) :
    PhiS m c n h = iprop(iprop(owns (c : Thread nD τ) scM0 fullShare (stAt m c (n - 1) (by omega)).U ∗ owns (c : Thread nD τ) scM1 fullShare (stAt m c (n - 1) (by omega)).I ∗ owns (c : Thread nD τ) scM2 fullShare (stAt m c (n - 1) (by omega)).Acc) ∗ (∃ r, prngReg c r)) := by
  cases n with
  | zero => exact absurd rfl hz
  | succ n => rfl

/-- The proof data: the arrays as the region finds them; after each point the inputs' buffers at their blocks and the
    outputs' at the state's blocks; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).G
    | ⟨3, _⟩ => (stAt m c t.val t.isLt).L
    | ⟨4, _⟩ => (stAt m c t.val t.isLt).IG
    | ⟨5, _⟩ => (stAt m c t.val t.isLt).IL
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).G := by dsimp only [dats]
theorem after0_3 (c : Dev nD) (t : Fin cfg0.N) : (dats m 0 c).after 3 t = (stAt m c t.val t.isLt).L := by dsimp only [dats]
theorem after0_4 (c : Dev nD) (t : Fin cfg0.N) : (dats m 0 c).after 4 t = (stAt m c t.val t.isLt).IG := by dsimp only [dats]
theorem after0_5 (c : Dev nD) (t : Fin cfg0.N) : (dats m 0 c).after 5 t = (stAt m c t.val t.isLt).IL := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem live0 (c : Dev nD) (t : Fin cfg0.N) : (dats m 0 c).leavesExact 0 t = owns (c : Thread nD τ) (ms0_0 t) fullShare (iblk m c 0 t) := by
  unfold Dat.leavesExact; rw [liveAt0_0 t, after0_0]
theorem live1 (c : Dev nD) (t : Fin cfg0.N) : (dats m 0 c).leavesExact 1 t = owns (c : Thread nD τ) (ms0_1 t) fullShare (iblk m c 1 t) := by
  unfold Dat.leavesExact; rw [liveAt0_1 t, after0_1]
theorem live2 (c : Dev nD) (t : Fin cfg0.N) : (dats m 0 c).leavesExact 2 t = owns (c : Thread nD τ) (ms0_2 t) fullShare (stAt m c t.val t.isLt).G := by
  unfold Dat.leavesExact; rw [liveAt0_2 t, after0_2]
theorem live3 (c : Dev nD) (t : Fin cfg0.N) : (dats m 0 c).leavesExact 3 t = owns (c : Thread nD τ) (ms0_3 t) fullShare (stAt m c t.val t.isLt).L := by
  unfold Dat.leavesExact; rw [liveAt0_3 t, after0_3]
theorem live4 (c : Dev nD) (t : Fin cfg0.N) (h : t.val % 32 = 31) : (dats m 0 c).leavesExact 4 t = owns (c : Thread nD τ) (ms0_4 t) fullShare (stAt m c t.val t.isLt).IG := by
  unfold Dat.leavesExact; rw [liveAt0_4 t h, after0_4]
theorem live5 (c : Dev nD) (t : Fin cfg0.N) (h : t.val % 32 = 31) : (dats m 0 c).leavesExact 5 t = owns (c : Thread nD τ) (ms0_5 t) fullShare (stAt m c t.val t.isLt).IL := by
  unfold Dat.leavesExact; rw [liveAt0_5 t h, after0_5]

set_option maxHeartbeats 4800000 in
/-- The body at any point: the closed forms of the branch conditions say which case the point is in; the invariant hands
    the body the scratch tables at what the point before left (at anything before the first point) and takes them back at
    this point's state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [live0, live1, live2, live3]
  have hN : t.val < 96 := lt_of_lt_of_eq t.isLt (show cfg0.N = 96 from N_0)
  by_cases hz : t.val = 0
  · have h2 : t.val % 32 = 0 := by omega
    have h4 : ¬ t.val % 32 = 31 := by omega
    rw [Dat.leavesExact_idle (dats m 0 c) 4 t (idleAt0_4 t h4) (noFlush0_4 t h4), Dat.leavesExact_idle (dats m 0 c) 5 t (idleAt0_5 t h4) (noFlush0_5 t h4)]
    rw [stAt_zero m c t hz st0]; unfold stepAt; simp only [if_pos hz, if_pos h2, if_neg h4]
    rw [PhiS_castSucc m c t, PhiS_zero m c _ _ hz, PhiA0_eq]
    iintro ⟨⟨⟨⟨%x8, HS0⟩, ⟨%x9, HS1⟩, ⟨%x10, HS2⟩⟩, Hg⟩, Ho, ⟨%d0, H0⟩, ⟨%d1, H1⟩, ⟨%d2, H2⟩, ⟨%d3, H3⟩, ⟨%d4, H4⟩, ⟨%d5, H5⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) ((hcnd1 t).mpr hz) ((hcnd2 t).mpr h2) (fun h => ((hcnd3 t).mp h) h2) (fun h => h4 ((hcnd4 t).mp h)) (iblk m c 0 t) (iblk m c 1 t) _ _ _ _ x8 x9 x10 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h2 : t.val % 32 = 0
    · have h4 : ¬ t.val % 32 = 31 := by omega
      rw [Dat.leavesExact_idle (dats m 0 c) 4 t (idleAt0_4 t h4) (noFlush0_4 t h4), Dat.leavesExact_idle (dats m 0 c) 5 t (idleAt0_5 t h4) (noFlush0_5 t h4)]
      rw [stAt_pos m c t hz]; unfold stepAt; simp only [if_neg hz, if_pos h2, if_neg h4]
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) ((hcnd2 t).mpr h2) (fun h => ((hcnd3 t).mp h) h2) (fun h => h4 ((hcnd4 t).mp h)) (iblk m c 0 t) (iblk m c 1 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · by_cases h4 : t.val % 32 = 31
      · rw [live4 m c t h4, live5 m c t h4]
        rw [stAt_pos m c t hz]; unfold stepAt; simp only [if_neg hz, if_neg h2, if_pos h4]
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) (fun h => h2 ((hcnd2 t).mp h)) ((hcnd3 t).mpr h2) ((hcnd4 t).mpr h4) (iblk m c 0 t) (iblk m c 1 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [Dat.leavesExact_idle (dats m 0 c) 4 t (idleAt0_4 t h4) (noFlush0_4 t h4), Dat.leavesExact_idle (dats m 0 c) 5 t (idleAt0_5 t h4) (noFlush0_5 t h4)]
        rw [stAt_pos m c t hz]; unfold stepAt; simp only [if_neg hz, if_neg h2, if_neg h4]
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) scM2 (Memref.isWhole_whole _) (fun h => hz ((hcnd1 t).mp h)) (fun h => h2 ((hcnd2 t).mp h)) ((hcnd3 t).mpr h2) (fun h => h4 ((hcnd4 t).mp h)) (iblk m c 0 t) (iblk m c 1 t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 96 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every weakly fair execution of @main terminates, with every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen
end
-- ==== Proof.KTail.lean ====
/-
  The thirty host operations that follow the kernel's one region in @main of the idealized kernel program, read back.
  For each layer l = 0, 1, 2 the four region results (each f32[3, 8192, 32]) are sliced at [l : l+1], reshaped to
  [8192, 32] and concatenated along axis 0 in pairs. `layer l X` is one slice-and-reshape, `stack a b` one
  concatenation; the six results of @main are `stack (layer l _) (layer l _)` of the region's results, and the two
  arguments are untouched. Then both are read at an index: `layer l X (r, d) = X (l, r, d)`, and `stack a b` holds `a`
  in its rows below 8192 and `b` in the rows from 8192 on.
-/
import proofs.«159328_g20109036880396_cont_8to1_786_9_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## One slice-and-reshape, one concatenation -/

/-- Layer `l` of a stack of three tables: the slice `[l : l+1, 0 : 8192, 0 : 32]` with its unit axis dropped. -/
def layer (l : Fin 3) (X : (⟨S3x8192x32, .f32⟩ : BufTy).Contents (Elt F)) : (⟨S8192x32, .f32⟩ : BufTy).Contents (Elt F) :=
  match l with
  | 0 => shapeCast S8192x32 (extractStridedSlice S1x8192x32 ![0, 0, 0] X slices_S3x8192x32_S1x8192x32_0_0_0) shapeCasts_S1x8192x32_S8192x32
  | 1 => shapeCast S8192x32 (extractStridedSlice S1x8192x32 ![1, 0, 0] X slices_S3x8192x32_S1x8192x32_1_0_0) shapeCasts_S1x8192x32_S8192x32
  | 2 => shapeCast S8192x32 (extractStridedSlice S1x8192x32 ![2, 0, 0] X slices_S3x8192x32_S1x8192x32_2_0_0) shapeCasts_S1x8192x32_S8192x32

/-- Two tables of 8192 rows set one above the other. -/
def stack (a b : (⟨S8192x32, .f32⟩ : BufTy).Contents (Elt F)) : (⟨S16384x32, .f32⟩ : BufTy).Contents (Elt F) :=
  concatenate S16384x32 0 [⟨S8192x32, a⟩, ⟨S8192x32, b⟩] concatenates_S8192x32_S8192x32_S16384x32_d0

/-! ## What the operations leave, from any contents -/

theorem tail_v5 (W : Valuation τ sig (Elt F)) :
    StableHlo.after (Gen.hostOps1 (F := F)) W (Proc.devRef .tc main_v5)
      = stack (layer 0 (W (Proc.devRef .tc main_v0_0))) (layer 0 (W (Proc.devRef .tc main_v0_2))) := by
  after_results
  rfl

theorem tail_v10 (W : Valuation τ sig (Elt F)) :
    StableHlo.after (Gen.hostOps1 (F := F)) W (Proc.devRef .tc main_v10)
      = stack (layer 0 (W (Proc.devRef .tc main_v0_1))) (layer 0 (W (Proc.devRef .tc main_v0_3))) := by
  after_results
  rfl

theorem tail_v15 (W : Valuation τ sig (Elt F)) :
    StableHlo.after (Gen.hostOps1 (F := F)) W (Proc.devRef .tc main_v15)
      = stack (layer 1 (W (Proc.devRef .tc main_v0_0))) (layer 1 (W (Proc.devRef .tc main_v0_2))) := by
  after_results
  rfl

theorem tail_v20 (W : Valuation τ sig (Elt F)) :
    StableHlo.after (Gen.hostOps1 (F := F)) W (Proc.devRef .tc main_v20)
      = stack (layer 1 (W (Proc.devRef .tc main_v0_1))) (layer 1 (W (Proc.devRef .tc main_v0_3))) := by
  after_results
  rfl

theorem tail_v25 (W : Valuation τ sig (Elt F)) :
    StableHlo.after (Gen.hostOps1 (F := F)) W (Proc.devRef .tc main_v25)
      = stack (layer 2 (W (Proc.devRef .tc main_v0_0))) (layer 2 (W (Proc.devRef .tc main_v0_2))) := by
  after_results
  rfl

theorem tail_v30 (W : Valuation τ sig (Elt F)) :
    StableHlo.after (Gen.hostOps1 (F := F)) W (Proc.devRef .tc main_v30)
      = stack (layer 2 (W (Proc.devRef .tc main_v0_1))) (layer 2 (W (Proc.devRef .tc main_v0_3))) := by
  after_results
  rfl

theorem tail_arg0 (W : Valuation τ sig (Elt F)) :
    StableHlo.after (Gen.hostOps1 (F := F)) W (Proc.devRef .tc main_arg0) = W (Proc.devRef .tc main_arg0) := by
  after_results

theorem tail_arg1 (W : Valuation τ sig (Elt F)) :
    StableHlo.after (Gen.hostOps1 (F := F)) W (Proc.devRef .tc main_arg1) = W (Proc.devRef .tc main_arg1) := by
  after_results

/-! ## A layer read at an index -/

/-- Layer `l` at row `r`, column `d` is the stack at `(l, r, d)`: the reshape drops the slice's unit axis, and the
    slice starts at `(l, 0, 0)`. -/
theorem layer_apply (l : Fin 3) (X : (⟨S3x8192x32, .f32⟩ : BufTy).Contents (Elt F)) (r : Fin 8192) (d : Fin 32) :
    layer l X (ix2 r d) = X (ix3 l r d) := by
  match l with
  | 0 =>
    show shapeCast S8192x32 (extractStridedSlice S1x8192x32 ![0, 0, 0] X slices_S3x8192x32_S1x8192x32_0_0_0)
      shapeCasts_S1x8192x32_S8192x32 (ix2 r d) = X (ix3 (0 : Fin 3) r d)
    rw [shapeCast_1ab_ab_apply]
    exact extractStridedSlice_apply _ X _ _ _ fun a => match a with
      | ⟨0, _⟩ => rfl
      | ⟨1, _⟩ => by show r.val = 0 + r.val; omega
      | ⟨2, _⟩ => by show d.val = 0 + d.val; omega
  | 1 =>
    show shapeCast S8192x32 (extractStridedSlice S1x8192x32 ![1, 0, 0] X slices_S3x8192x32_S1x8192x32_1_0_0)
      shapeCasts_S1x8192x32_S8192x32 (ix2 r d) = X (ix3 (1 : Fin 3) r d)
    rw [shapeCast_1ab_ab_apply]
    exact extractStridedSlice_apply _ X _ _ _ fun a => match a with
      | ⟨0, _⟩ => rfl
      | ⟨1, _⟩ => by show r.val = 0 + r.val; omega
      | ⟨2, _⟩ => by show d.val = 0 + d.val; omega
  | 2 =>
    show shapeCast S8192x32 (extractStridedSlice S1x8192x32 ![2, 0, 0] X slices_S3x8192x32_S1x8192x32_2_0_0)
      shapeCasts_S1x8192x32_S8192x32 (ix2 r d) = X (ix3 (2 : Fin 3) r d)
    rw [shapeCast_1ab_ab_apply]
    exact extractStridedSlice_apply _ X _ _ _ fun a => match a with
      | ⟨0, _⟩ => rfl
      | ⟨1, _⟩ => by show r.val = 0 + r.val; omega
      | ⟨2, _⟩ => by show d.val = 0 + d.val; omega

/-! ## A stack read at an index -/

/-- A row of the upper table is a row of the stack. -/
theorem lo_lt (r : Fin 8192) : r.val < 16384 := Nat.lt_of_lt_of_le r.isLt (by decide)
/-- A row of the lower table, moved down by 8192, is a row of the stack. -/
theorem hi_lt (r : Fin 8192) : 8192 + r.val < 16384 := by have := r.isLt; omega

/-- The stack's rows below 8192 are the upper table's. -/
theorem stack_apply_lo (a b : (⟨S8192x32, .f32⟩ : BufTy).Contents (Elt F)) (r : Fin 8192) (d : Fin 32) :
    stack a b (ix2 (⟨r.val, lo_lt r⟩ : Fin 16384) d) = a (ix2 r d) := by
  unfold stack
  exact concatenate_pair_apply_left (t := S16384x32) (s₁ := S8192x32) (s₂ := S8192x32) (0 : Fin 2) a b
    concatenates_S8192x32_S8192x32_S16384x32_d0 (ix2 (⟨r.val, lo_lt r⟩ : Fin 16384) d) rfl (ix2 r d) fun c => match c with
    | ⟨0, _⟩ => rfl
    | ⟨1, _⟩ => rfl

/-- The stack's rows from 8192 on are the lower table's. -/
theorem stack_apply_hi (a b : (⟨S8192x32, .f32⟩ : BufTy).Contents (Elt F)) (r : Fin 8192) (d : Fin 32) :
    stack a b (ix2 (⟨8192 + r.val, hi_lt r⟩ : Fin 16384) d) = b (ix2 r d) := by
  unfold stack
  exact concatenate_pair_apply_right (t := S16384x32) (s₁ := S8192x32) (s₂ := S8192x32) (0 : Fin 2) a b
    concatenates_S8192x32_S8192x32_S16384x32_d0 (ix2 (⟨8192 + r.val, hi_lt r⟩ : Fin 16384) d) rfl rfl (ix2 r d)
    (fun c hc => match c, hc with
      | ⟨0, _⟩, hc => absurd rfl hc
      | ⟨1, _⟩, _ => rfl)
    (by show r.val + 8192 = 8192 + r.val; omega)

/-- Stacks of equal halves are equal. -/
theorem stack_ext {a a' b b' : (⟨S8192x32, .f32⟩ : BufTy).Contents (Elt F)} (ha : a = a') (hb : b = b') :
    stack a b = stack a' b' := by rw [ha, hb]

/-- A table of 16384 rows whose upper half is `a` and whose lower half is `b` is their stack. -/
theorem eq_stack_of_halves (L : (⟨S16384x32, .f32⟩ : BufTy).Contents (Elt F))
    (a b : (⟨S8192x32, .f32⟩ : BufTy).Contents (Elt F))
    (ha : ∀ (r : Fin 8192) (d : Fin 32), L (ix2 (⟨r.val, lo_lt r⟩ : Fin 16384) d) = a (ix2 r d))
    (hb : ∀ (r : Fin 8192) (d : Fin 32), L (ix2 (⟨8192 + r.val, hi_lt r⟩ : Fin 16384) d) = b (ix2 r d)) :
    L = stack a b := by
  funext j
  obtain ⟨r', d', rfl⟩ : ∃ (r' : Fin 16384) (d' : Fin 32), j = ix2 r' d' := ⟨j 0, j 1, eq_ix2 j⟩
  by_cases h : r'.val < 8192
  · exact (ha ⟨r'.val, h⟩ d').trans (stack_apply_lo a b ⟨r'.val, h⟩ d').symm
  · have h' : r'.val - 8192 < 8192 := by have := r'.isLt; omega
    obtain ⟨q, hq⟩ : ∃ q : Fin 8192, r' = (⟨8192 + q.val, hi_lt q⟩ : Fin 16384) :=
      ⟨⟨r'.val - 8192, h'⟩, Fin.ext (by show r'.val = 8192 + (r'.val - 8192); omega)⟩
    subst hq
    exact (hb q d').trans (stack_apply_hi a b q d').symm

end Cert.KernelIdeal.Tail

end
-- ==== Proof.Layers.lean ====
/-
  The reference's three propagation layers as ONE step function applied three times.

  With `A` the adjacency (8192 x 8192) and `L` a stacked embedding table (16384 x 32: the user rows on top, the item rows
  below), one layer forms `gcn A L`, the stack of `A · (item rows of L)` over `Aᵀ · (user rows of L)`, and the next table
  `next A L = gcn A L + L`.  The reference's results are `L₀ = embeds`, `L₁ = next A L₀`, `L₂ = next A L₁`, `L₃ = next A L₂`
  and the three stacks `gcn A L₀`, `gcn A L₁`, `gcn A L₂`; each printed stage is one of these by unfolding.
-/
import proofs.«159328_g20109036880396_cont_8to1_786_9_alg».proof.Proof.Gen.ReferenceIdeal.Run
import proofs.«159328_g20109036880396_cont_8to1_786_9_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe Idealize.SL.Sem

variable {F : FTy → Type} [FloatOps F]

/-- The item rows (the lower half) of a stacked table. -/
def itemRows (L : (⟨S16384x32, .f32⟩ : BufTy).Contents (Elt F)) : (⟨S8192x32, .f32⟩ : BufTy).Contents (Elt F) :=
  extractStridedSlice S8192x32 ![8192, 0] L slices_S16384x32_S8192x32_8192_0
/-- The user rows (the upper half) of a stacked table. -/
def userRows (L : (⟨S16384x32, .f32⟩ : BufTy).Contents (Elt F)) : (⟨S8192x32, .f32⟩ : BufTy).Contents (Elt F) :=
  extractStridedSlice S8192x32 ![0, 0] L slices_S16384x32_S8192x32_0_0
/-- The users' aggregate: the adjacency times the item rows. -/
def userAgg (A : (⟨S8192x8192, .f32⟩ : BufTy).Contents (Elt F)) (L : (⟨S16384x32, .f32⟩ : BufTy).Contents (Elt F)) :
    (⟨S8192x32, .f32⟩ : BufTy).Contents (Elt F) :=
  Host.dotGeneral dot_S8192x8192_S8192x32_S8192x32_1_0_0_1_n_n none A (itemRows L)
/-- The items' aggregate: the transposed adjacency times the user rows. -/
def itemAgg (A : (⟨S8192x8192, .f32⟩ : BufTy).Contents (Elt F)) (L : (⟨S16384x32, .f32⟩ : BufTy).Contents (Elt F)) :
    (⟨S8192x32, .f32⟩ : BufTy).Contents (Elt F) :=
  Host.dotGeneral dot_S8192x8192_S8192x32_S8192x32_1_0_0_1_n_n none (transpose S8192x8192 [1, 0] A transposes_S8192x8192_S8192x8192_1_0) (userRows L)
/-- Two 8192-row tables stacked. -/
def stack (a b : (⟨S8192x32, .f32⟩ : BufTy).Contents (Elt F)) : (⟨S16384x32, .f32⟩ : BufTy).Contents (Elt F) :=
  concatenate S16384x32 0 [⟨S8192x32, a⟩, ⟨S8192x32, b⟩] concatenates_S8192x32_S8192x32_S16384x32_d0
/-- One layer's aggregate, stacked. -/
def gcn (A : (⟨S8192x8192, .f32⟩ : BufTy).Contents (Elt F)) (L : (⟨S16384x32, .f32⟩ : BufTy).Contents (Elt F)) :
    (⟨S16384x32, .f32⟩ : BufTy).Contents (Elt F) := stack (userAgg A L) (itemAgg A L)
/-- The next table: the aggregate plus the table. -/
def next (A : (⟨S8192x8192, .f32⟩ : BufTy).Contents (Elt F)) (L : (⟨S16384x32, .f32⟩ : BufTy).Contents (Elt F)) :
    (⟨S16384x32, .f32⟩ : BufTy).Contents (Elt F) := addf (gcn A L) L

variable (A : (⟨S8192x8192, .f32⟩ : BufTy).Contents (Elt F)) (E : (⟨S16384x32, .f32⟩ : BufTy).Contents (Elt F))

theorem v5_eq : val_main_v5 (F := F) A E = gcn A E := rfl
theorem v6_eq : val_main_v6 (F := F) A E = next A E := rfl
theorem v12_eq : val_main_v12 (F := F) A E = gcn A (next A E) := rfl
theorem v13_eq : val_main_v13 (F := F) A E = next A (next A E) := rfl
theorem v19_eq : val_main_v19 (F := F) A E = gcn A (next A (next A E)) := rfl
theorem v20_eq : val_main_v20 (F := F) A E = next A (next A (next A E)) := rfl

end Cert.ReferenceIdeal.Layers

end
-- ==== Proof.LayerSums.lean ====
/-
  The reference's layer functions and the kernel's matrix-product payloads, each read at one index as a plain sum over
  the extended reals, and the splitting of a sum over 8192 rows into 32 stripes of 256 rows.

  With `A` the adjacency (8192 x 8192) and `L` a stacked table (16384 x 32; user rows on top, item rows below):
    the users' aggregate at (r, d) is  ∑ k, A (r, k) * L (8192 + k, d),
    the items' aggregate at (j, d) is  ∑ k, A (k, j) * L (k, d),
  and one layer's stack reads the first on its upper half and the second on its lower half; the next table adds `L`.
  The kernel's forward product of a 256-row stripe `a` of the adjacency with a table `v` is  ∑ k, a (p, k) * v (k, d),
  and its transposed product of the stripe with a 256-row block `u` is  ∑ k, u (k, d) * a (k, j), read at (d, j).
-/
import proofs.«159328_g20109036880396_cont_8to1_786_9_alg».proof.Proof.Layers
import proofs.«159328_g20109036880396_cont_8to1_786_9_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Sums

open Idealize.ShloMosaic Idealize.ShloMosaic.ValueIdx Idealize.SL.Sem

/-! ## The reference's layer functions at an index -/

section Reference

open Cert.ReferenceIdeal.Gen

variable (A : (⟨Cert.ReferenceIdeal.S8192x8192, .f32⟩ : BufTy).Contents (Elt Ideal))
  (L : (⟨Cert.ReferenceIdeal.S16384x32, .f32⟩ : BufTy).Contents (Elt Ideal))

/-- The users' aggregate at (r, d): the adjacency's row r against column d of the item rows. -/
theorem userAgg_apply (r : Fin 8192) (d : Fin 32) :
    Cert.ReferenceIdeal.Layers.userAgg (F := Ideal) A L (ix2 r d)
      = ∑ k : Fin 8192, A (ix2 r k) * L (ix2 ⟨8192 + k.val, by omega⟩ d) := by
  show Cert.ReferenceIdeal.Read.val_main_v1 (F := Ideal) A L (ix2 r d) = _
  rw [Cert.ReferenceIdeal.Read.val_main_v1_apply]
  refine Finset.sum_congr rfl fun k _ => ?_
  rw [Cert.ReferenceIdeal.Read.val_main_v0_apply]
  have e1 : Cert.ReferenceIdeal.Read.lidx_main_v1 (ix2 r d) k = ix2 r k :=
    funext fun a => Fin.ext (by match a with | ⟨0, _⟩ => rfl | ⟨1, _⟩ => rfl)
  have e2 : Cert.ReferenceIdeal.Read.idx_main_v0 (Cert.ReferenceIdeal.Read.ridx_main_v1 (ix2 r d) k)
      = ix2 ⟨8192 + k.val, by omega⟩ d :=
    funext fun a => Fin.ext (by match a with | ⟨0, _⟩ => rfl | ⟨1, _⟩ => rfl)
  rw [e1, e2]

/-- The items' aggregate at (j, d): the adjacency's column j against column d of the user rows. -/
theorem itemAgg_apply (j : Fin 8192) (d : Fin 32) :
    Cert.ReferenceIdeal.Layers.itemAgg (F := Ideal) A L (ix2 j d)
      = ∑ k : Fin 8192, A (ix2 k j) * L (ix2 ⟨k.val, by omega⟩ d) := by
  show Cert.ReferenceIdeal.Read.val_main_v4 (F := Ideal) A L (ix2 j d) = _
  rw [Cert.ReferenceIdeal.Read.val_main_v4_apply]
  refine Finset.sum_congr rfl fun k _ => ?_
  rw [Cert.ReferenceIdeal.Read.val_main_v2_apply, Cert.ReferenceIdeal.Read.val_main_v3_apply]
  have e1 : Cert.ReferenceIdeal.Read.idx_main_v2 (Cert.ReferenceIdeal.Read.lidx_main_v4 (ix2 j d) k) = ix2 k j :=
    funext fun a => Fin.ext (by match a with | ⟨0, _⟩ => rfl | ⟨1, _⟩ => rfl)
  have e2 : Cert.ReferenceIdeal.Read.idx_main_v3 (Cert.ReferenceIdeal.Read.ridx_main_v4 (ix2 j d) k)
      = ix2 ⟨k.val, by omega⟩ d :=
    funext fun a => Fin.ext (by match a with | ⟨0, _⟩ => rfl | ⟨1, _⟩ => rfl)
  rw [e1, e2]

/-- One layer's stack on its upper half is the users' aggregate. -/
theorem gcn_apply_lo (r : Fin 8192) (d : Fin 32) :
    Cert.ReferenceIdeal.Layers.gcn (F := Ideal) A L (ix2 ⟨r.val, by omega⟩ d)
      = Cert.ReferenceIdeal.Layers.userAgg (F := Ideal) A L (ix2 r d) := by
  unfold Cert.ReferenceIdeal.Layers.gcn Cert.ReferenceIdeal.Layers.stack
  exact concatenate_pair_apply_left (t := Cert.ReferenceIdeal.S16384x32) (s₁ := Cert.ReferenceIdeal.S8192x32)
    (s₂ := Cert.ReferenceIdeal.S8192x32) (0 : Fin 2) _ _ concatenates_S8192x32_S8192x32_S16384x32_d0
    (ix2 (⟨r.val, by omega⟩ : Fin 16384) d) rfl (ix2 r d) (fun b => match b with | ⟨0, _⟩ => rfl | ⟨1, _⟩ => rfl)

/-- One layer's stack on its lower half is the items' aggregate. -/
theorem gcn_apply_hi (r : Fin 8192) (d : Fin 32) :
    Cert.ReferenceIdeal.Layers.gcn (F := Ideal) A L (ix2 ⟨8192 + r.val, by omega⟩ d)
      = Cert.ReferenceIdeal.Layers.itemAgg (F := Ideal) A L (ix2 r d) := by
  unfold Cert.ReferenceIdeal.Layers.gcn Cert.ReferenceIdeal.Layers.stack
  exact concatenate_pair_apply_right (t := Cert.ReferenceIdeal.S16384x32) (s₁ := Cert.ReferenceIdeal.S8192x32)
    (s₂ := Cert.ReferenceIdeal.S8192x32) (0 : Fin 2) _ _ concatenates_S8192x32_S8192x32_S16384x32_d0
    (ix2 (⟨8192 + r.val, by omega⟩ : Fin 16384) d) rfl rfl (ix2 r d)
    (fun b => match b with | ⟨0, _⟩ => fun h => absurd rfl h | ⟨1, _⟩ => fun _ => rfl)
    (by show r.val + 8192 = 8192 + r.val; omega)

/-- The next table on its upper half: the users' aggregate plus the table. -/
theorem next_apply_lo (r : Fin 8192) (d : Fin 32) :
    Cert.ReferenceIdeal.Layers.next (F := Ideal) A L (ix2 ⟨r.val, by omega⟩ d)
      = Cert.ReferenceIdeal.Layers.userAgg (F := Ideal) A L (ix2 r d) + L (ix2 ⟨r.val, by omega⟩ d) := by
  show Cert.ReferenceIdeal.Layers.gcn (F := Ideal) A L (ix2 ⟨r.val, by omega⟩ d) + L (ix2 ⟨r.val, by omega⟩ d) = _
  rw [gcn_apply_lo]

/-- The next table on its lower half: the items' aggregate plus the table. -/
theorem next_apply_hi (r : Fin 8192) (d : Fin 32) :
    Cert.ReferenceIdeal.Layers.next (F := Ideal) A L (ix2 ⟨8192 + r.val, by omega⟩ d)
      = Cert.ReferenceIdeal.Layers.itemAgg (F := Ideal) A L (ix2 r d) + L (ix2 ⟨8192 + r.val, by omega⟩ d) := by
  show Cert.ReferenceIdeal.Layers.gcn (F := Ideal) A L (ix2 ⟨8192 + r.val, by omega⟩ d)
    + L (ix2 ⟨8192 + r.val, by omega⟩ d) = _
  rw [gcn_apply_hi]

end Reference

/-! ## The kernel's payloads at an index -/

section Kernel

open Cert.KernelIdeal.Gen

/-! ### The forward product: a 256-row stripe of the adjacency times a table -/

theorem fwd_lhs_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide),
    dif_pos (show (0 : Fin S256x8192.rank) ∈ dot_S256x8192_S8192x32_S256x32_1_0_0_1_n_n.lhsNonContracting by decide)]
  rfl
theorem fwd_lhs_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem fwd_rhs_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem fwd_rhs_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide),
    dif_pos (show (1 : Fin S8192x32.rank) ∈ dot_S256x8192_S8192x32_S256x32_1_0_0_1_n_n.rhsNonContracting by decide)]
  rfl

/-- The forward product at (p, d): row p of the stripe against column d of the table. -/
theorem k0_pay9_apply (a : Vec Ideal S256x8192 .f32) (v : Vec Ideal S8192x32 .f32) (p : Fin 256) (d : Fin 32) :
    k0_pay9 (F := Ideal) a v (ix2 p d) = ∑ k : Fin 8192, a (ix2 p k) * v (ix2 k d) := by
  refine (Ideal.matmul_constant_zero_apply (φ₁ := .f32) (φ₂ := .f32) dot_S256x8192_S8192x32_S256x32_1_0_0_1_n_n none
    a v (ix2 p d)).trans ?_
  rw [← Equiv.sum_comp (contrEquiv1 dot_S256x8192_S8192x32_S256x32_1_0_0_1_n_n 8192 rfl rfl).symm]
  refine Finset.sum_congr rfl fun k _ => ?_
  have hk := contrEquiv1_symm_val dot_S256x8192_S8192x32_S256x32_1_0_0_1_n_n 8192 rfl rfl k
  have el : dot_S256x8192_S8192x32_S256x32_1_0_0_1_n_n.lhsIdx (ix2 p d)
      ((contrEquiv1 dot_S256x8192_S8192x32_S256x32_1_0_0_1_n_n 8192 rfl rfl).symm k) = ix2 p k :=
    funext fun c => Fin.ext (by
      match c with
      | ⟨0, _⟩ => exact fwd_lhs_0 _ _
      | ⟨1, _⟩ => exact (fwd_lhs_1 _ _).trans hk)
  have er : dot_S256x8192_S8192x32_S256x32_1_0_0_1_n_n.rhsIdx (ix2 p d)
      ((contrEquiv1 dot_S256x8192_S8192x32_S256x32_1_0_0_1_n_n 8192 rfl rfl).symm k) = ix2 k d :=
    funext fun c => Fin.ext (by
      match c with
      | ⟨0, _⟩ => exact (fwd_rhs_0 _ _).trans hk
      | ⟨1, _⟩ => exact fwd_rhs_1 _ _)
  rw [el, er]

/-- The forward product stored as a one-stripe block. -/
theorem k0_pay10_apply (a : Vec Ideal S256x8192 .f32) (v : Vec Ideal S8192x32 .f32) (p : Fin 256) (d : Fin 32) :
    k0_pay10 (F := Ideal) a v (ix3 (0 : Fin 1) p d) = k0_pay9 (F := Ideal) a v (ix2 p d) :=
  shapeCast_ab_1ab_apply (k0_pay9 (F := Ideal) a v) shapeCasts_S256x32_S1x256x32 0 p d

/-- The forward product plus the stripe's own rows. -/
theorem k0_pay11_apply (a : Vec Ideal S256x8192 .f32) (u : Vec Ideal S256x32 .f32) (v : Vec Ideal S8192x32 .f32)
    (p : Fin 256) (d : Fin 32) :
    k0_pay11 (F := Ideal) a u v (ix2 p d) = k0_pay9 (F := Ideal) a v (ix2 p d) + u (ix2 p d) := rfl

theorem k0_pay12_apply (a : Vec Ideal S256x8192 .f32) (u : Vec Ideal S256x32 .f32) (v : Vec Ideal S8192x32 .f32)
    (p : Fin 256) (d : Fin 32) :
    k0_pay12 (F := Ideal) a u v (ix3 (0 : Fin 1) p d) = k0_pay11 (F := Ideal) a u v (ix2 p d) :=
  shapeCast_ab_1ab_apply (k0_pay11 (F := Ideal) a u v) shapeCasts_S256x32_S1x256x32 0 p d

theorem k0_pay13_eq (a : Vec Ideal S256x8192 .f32) (u : Vec Ideal S256x32 .f32) (v : Vec Ideal S8192x32 .f32) :
    k0_pay13 (F := Ideal) a u v = k0_pay11 (F := Ideal) a u v :=
  shapeCast_self _ _

/-! ### The transposed product: a 256-row block, transposed, times the stripe -/

theorem bwd_lhs_0 (i : S32x8192.Idx) (q : dot_S32x256_S256x8192_S32x8192_1_0_0_1_n_n.contr.Idx) :
    (dot_S32x256_S256x8192_S32x8192_1_0_0_1_n_n.lhsIdx i q 0).val = (i 0).val := by
  unfold DotDims.lhsIdx
  rw [dif_neg (show ¬(0 : Fin S32x256.rank) ∈ dot_S32x256_S256x8192_S32x8192_1_0_0_1_n_n.lhsBatch by decide),
    dif_pos (show (0 : Fin S32x256.rank) ∈ dot_S32x256_S256x8192_S32x8192_1_0_0_1_n_n.lhsNonContracting by decide)]
  rfl
theorem bwd_lhs_1 (i : S32x8192.Idx) (q : dot_S32x256_S256x8192_S32x8192_1_0_0_1_n_n.contr.Idx) :
    (dot_S32x256_S256x8192_S32x8192_1_0_0_1_n_n.lhsIdx i q 1).val = (q ⟨0, by decide⟩).val :=
  dot_S32x256_S256x8192_S32x8192_1_0_0_1_n_n.lhsIdx_val_of_single rfl i q
theorem bwd_rhs_0 (i : S32x8192.Idx) (q : dot_S32x256_S256x8192_S32x8192_1_0_0_1_n_n.contr.Idx) :
    (dot_S32x256_S256x8192_S32x8192_1_0_0_1_n_n.rhsIdx i q 0).val = (q ⟨0, by decide⟩).val :=
  dot_S32x256_S256x8192_S32x8192_1_0_0_1_n_n.rhsIdx_val_of_single rfl i q
theorem bwd_rhs_1 (i : S32x8192.Idx) (q : dot_S32x256_S256x8192_S32x8192_1_0_0_1_n_n.contr.Idx) :
    (dot_S32x256_S256x8192_S32x8192_1_0_0_1_n_n.rhsIdx i q 1).val = (i 1).val := by
  unfold DotDims.rhsIdx
  rw [dif_neg (show ¬(1 : Fin S256x8192.rank) ∈ dot_S32x256_S256x8192_S32x8192_1_0_0_1_n_n.rhsBatch by decide),
    dif_pos (show (1 : Fin S256x8192.rank) ∈ dot_S32x256_S256x8192_S32x8192_1_0_0_1_n_n.rhsNonContracting by decide)]
  rfl

/-- The transposed product at (d, j): column d of the block against column j of the stripe. -/
theorem k0_pay14_apply (a : Vec Ideal S256x8192 .f32) (u : Vec Ideal S256x32 .f32) (d : Fin 32) (j : Fin 8192) :
    k0_pay14 (F := Ideal) a u (ix2 d j) = ∑ k : Fin 256, u (ix2 k d) * a (ix2 k j) := by
  refine (Ideal.matmul_constant_zero_apply (φ₁ := .f32) (φ₂ := .f32) dot_S32x256_S256x8192_S32x8192_1_0_0_1_n_n none
    (transpose S32x256 [1, 0] u transposes_S256x32_p1_0_S32x256) a (ix2 d j)).trans ?_
  rw [← Equiv.sum_comp (contrEquiv1 dot_S32x256_S256x8192_S32x8192_1_0_0_1_n_n 256 rfl rfl).symm]
  refine Finset.sum_congr rfl fun k _ => ?_
  have hk := contrEquiv1_symm_val dot_S32x256_S256x8192_S32x8192_1_0_0_1_n_n 256 rfl rfl k
  have el : dot_S32x256_S256x8192_S32x8192_1_0_0_1_n_n.lhsIdx (ix2 d j)
      ((contrEquiv1 dot_S32x256_S256x8192_S32x8192_1_0_0_1_n_n 256 rfl rfl).symm k) = ix2 d k :=
    funext fun c => Fin.ext (by
      match c with
      | ⟨0, _⟩ => exact bwd_lhs_0 _ _
      | ⟨1, _⟩ => exact (bwd_lhs_1 _ _).trans hk)
  have er : dot_S32x256_S256x8192_S32x8192_1_0_0_1_n_n.rhsIdx (ix2 d j)
      ((contrEquiv1 dot_S32x256_S256x8192_S32x8192_1_0_0_1_n_n 256 rfl rfl).symm k) = ix2 k j :=
    funext fun c => Fin.ext (by
      match c with
      | ⟨0, _⟩ => exact (bwd_rhs_0 _ _).trans hk
      | ⟨1, _⟩ => exact bwd_rhs_1 _ _)
  rw [el, er]
  exact congrArg (· * a (ix2 k j)) (transpose_ix2_apply u transposes_S256x32_p1_0_S32x256 d k)

theorem k0_pay15_eq (a : Vec Ideal S256x8192 .f32) (u : Vec Ideal S256x32 .f32) :
    k0_pay15 (F := Ideal) a u = k0_pay14 (F := Ideal) a u :=
  shapeCast_self _ _

/-! ### The accumulator of transposed products, and what is stored from it -/

/-- The accumulator plus one stripe's transposed product. -/
theorem k0_pay1_apply (c : FVec Ideal S32x8192 .f32) (acc : Vec Ideal S32x8192 .f32) (d : Fin 32) (j : Fin 8192) :
    k0_pay1 (F := Ideal) c acc (ix2 d j) = acc (ix2 d j) + c (ix2 d j) := by
  show shapeCast S32x8192 (addf acc c) shapeCasts_S32x8192_S32x8192 (ix2 d j) = _
  rw [shapeCast_self]
  rfl

/-- The accumulator transposed back to rows. -/
theorem k0_pay2_apply (acc : Vec Ideal S32x8192 .f32) (j : Fin 8192) (d : Fin 32) :
    k0_pay2 (F := Ideal) acc (ix2 j d) = acc (ix2 d j) :=
  transpose_ix2_apply acc transposes_S32x8192_p1_0_S8192x32 j d

theorem k0_pay3_apply (acc : Vec Ideal S32x8192 .f32) (j : Fin 8192) (d : Fin 32) :
    k0_pay3 (F := Ideal) acc (ix3 (0 : Fin 1) j d) = acc (ix2 d j) :=
  (shapeCast_ab_1ab_apply (k0_pay2 (F := Ideal) acc) shapeCasts_S8192x32_S1x8192x32 0 j d).trans (k0_pay2_apply acc j d)

/-- The accumulator, transposed back, plus the table's rows. -/
theorem k0_pay4_apply (acc : Vec Ideal S32x8192 .f32) (v : Vec Ideal S8192x32 .f32) (j : Fin 8192) (d : Fin 32) :
    k0_pay4 (F := Ideal) acc v (ix2 j d) = acc (ix2 d j) + v (ix2 j d) := by
  show k0_pay2 (F := Ideal) acc (ix2 j d) + v (ix2 j d) = _
  rw [k0_pay2_apply]

theorem k0_pay5_apply (acc : Vec Ideal S32x8192 .f32) (v : Vec Ideal S8192x32 .f32) (j : Fin 8192) (d : Fin 32) :
    k0_pay5 (F := Ideal) acc v (ix3 (0 : Fin 1) j d) = k0_pay4 (F := Ideal) acc v (ix2 j d) :=
  shapeCast_ab_1ab_apply (k0_pay4 (F := Ideal) acc v) shapeCasts_S8192x32_S1x8192x32 0 j d

theorem k0_pay6_eq (acc : Vec Ideal S32x8192 .f32) (v : Vec Ideal S8192x32 .f32) :
    k0_pay6 (F := Ideal) acc v = k0_pay4 (F := Ideal) acc v :=
  shapeCast_self _ _

theorem k0_pay7_eq (x : Vec Ideal S8192x32 .f32) : k0_pay7 (F := Ideal) x = x := shapeCast_self _ _

theorem k0_pay8_eq (x : Vec Ideal S8192x32 .f32) : k0_pay8 (F := Ideal) x = x := shapeCast_self _ _

end Kernel

/-! ## A sum over the rows, stripe by stripe -/

section Stripes

variable {M : Type*} [AddCommMonoid M] (f : ℕ → M)

/-- A sum over the first `n` naturals, indexed by `Fin n` or by the range. -/
theorem sum_fin_eq_range (n : ℕ) : ∑ k : Fin n, f k.val = ∑ k ∈ Finset.range n, f k :=
  Fin.sum_univ_eq_sum_range f n

/-- One more stripe of 256 terms. -/
theorem sum_range_stripe_succ (n : ℕ) :
    ∑ k ∈ Finset.range (256 * (n + 1)), f k
      = (∑ k ∈ Finset.range (256 * n), f k) + ∑ k ∈ Finset.range 256, f (256 * n + k) := by
  rw [Nat.mul_succ, Finset.sum_range_add]

/-- `n` stripes of 256 terms. -/
theorem sum_range_stripes (n : ℕ) :
    ∑ k ∈ Finset.range (256 * n), f k = ∑ i ∈ Finset.range n, ∑ k ∈ Finset.range 256, f (256 * i + k) := by
  induction n with
  | zero => simp
  | succ n ih =>
    rw [sum_range_stripe_succ, ih]
    exact (Finset.sum_range_succ (fun i => ∑ k ∈ Finset.range 256, f (256 * i + k)) n).symm

/-- One more stripe of 256 terms, indexed by `Fin`. -/
theorem sum_stripe_succ (n : ℕ) :
    ∑ k : Fin (256 * (n + 1)), f k.val
      = (∑ k : Fin (256 * n), f k.val) + ∑ k : Fin 256, f (256 * n + k.val) := by
  rw [sum_fin_eq_range f, sum_fin_eq_range f, sum_fin_eq_range (fun k => f (256 * n + k)), sum_range_stripe_succ]

/-- `n` stripes of 256 terms, indexed by `Fin`. -/
theorem sum_stripes (n : ℕ) :
    ∑ k : Fin (256 * n), f k.val = ∑ i : Fin n, ∑ k : Fin 256, f (256 * i.val + k.val) := by
  rw [sum_fin_eq_range f, sum_range_stripes, ← sum_fin_eq_range (fun i => ∑ k ∈ Finset.range 256, f (256 * i + k))]
  exact Finset.sum_congr rfl fun i _ => (sum_fin_eq_range (fun k => f (256 * i.val + k)) 256).symm

/-- The 8192 rows are 32 stripes of 256. -/
theorem sum_8192_stripes : ∑ k : Fin 8192, f k.val = ∑ i : Fin 32, ∑ k : Fin 256, f (256 * i.val + k.val) :=
  sum_stripes f 32

end Stripes

end Cert.KernelIdeal.Sums

end
-- ==== Proof.TrajDefs.lean ====
/-
  The grid's positions and the objects the kernel's state is compared with.

  The grid is 3 layers x 32 stripes, run in row-major order: position n is layer n / 32, stripe n % 32, and the body's
  row offset into the users' table there is 256 · (n % 32). Here: the stripe of a table, a table with a stripe replaced
  and the two halves of the embedding table, each read at an index; the adjacency's stripes; the kernel's state after
  each position; and the reference's tables L₀ = E, L_{l+1} = next A L_l.
-/
import proofs.«159328_g20109036880396_cont_8to1_786_9_alg».proof.Proof.Step
import proofs.«159328_g20109036880396_cont_8to1_786_9_alg».proof.Proof.LayerSums

set_option maxRecDepth 16384

noncomputable section

open scoped BigOperators

namespace Cert.KernelIdeal.Traj

open Idealize.ShloMosaic Idealize.ShloMosaic.ValueIdx Idealize.SL.Sem
open Cert.KernelIdeal.Gen Cert.KernelIdeal.Sums

/-! ## The grid's coordinates and the body's row offset at each position -/

theorem hcoord0 : ∀ t : Fin grid0.N, (grid0.coords t 0).val = t.val / 32 := by decide +kernel
theorem hcoord1 : ∀ t : Fin grid0.N, (grid0.coords t 1).val = t.val % 32 := by decide +kernel
/-- The rows the body reads and writes of the users' table at a position: from 256 times the stripe. -/
theorem hoff : ∀ t : Fin grid0.N, k0_off1 (grid0.coords t) = ![256 * (t.val % 32), 0] := by decide +kernel

/-! ## The stripe of a table, a table with a stripe replaced, and the halves of the embedding table, at an index -/

/-- Reading one array at two row numbers that are equal. -/
theorem at_congr {n0 n1 : ℕ} {α : Type} (X : (⟨2, ![n0, n1]⟩ : Shape).Idx → α) {a b : ℕ} (h : a = b) (ha : a < n0)
    (hb : b < n0) (d : Fin n1) : X (ix2 ⟨a, ha⟩ d) = X (ix2 ⟨b, hb⟩ d) := by
  subst h; rfl

section AtIndex

variable (c : grid0.Coords) (m : ℕ)

/-- The stripe's row p is the table's row 256·m + p. -/
theorem stripe_apply (hc : k0_off1 c = ![256 * m, 0]) (hm : m < 32) (u : Vec Ideal S8192x32 .f32) (p : Fin 256)
    (d : Fin 32) :
    stripe (F := Ideal) c u (ix2 p d) = u (ix2 ⟨256 * m + p.val, by omega⟩ d) := by
  unfold stripe
  show u _ = u _
  congr 1
  funext a
  apply Fin.ext
  match a with
  | ⟨0, _⟩ =>
    show k0_off1 c 0 + 1 * p.val = 256 * m + p.val
    rw [hc]; show 256 * m + 1 * p.val = _; omega
  | ⟨1, _⟩ =>
    show k0_off1 c 1 + 1 * d.val = d.val
    rw [hc]; show 0 + 1 * d.val = _; omega

/-- A table with the stripe replaced reads the new rows on the stripe and the old ones elsewhere. -/
theorem putStripe_apply (hc : k0_off1 c = ![256 * m, 0]) (hm : m < 32) (u : Vec Ideal S8192x32 .f32)
    (w : Vec Ideal S256x32 .f32) (r : Fin 8192) (d : Fin 32) :
    putStripe (F := Ideal) c u w (ix2 r d)
      = if h : 256 * m ≤ r.val ∧ r.val < 256 * m + 256 then w (ix2 ⟨r.val - 256 * m, by omega⟩ d) else u (ix2 r d) := by
  unfold putStripe
  by_cases h : 256 * m ≤ r.val ∧ r.val < 256 * m + 256
  · have h' : ∀ a, k0_off1 c a ≤ ((ix2 r d : S8192x32.Idx) a).val
        ∧ ((ix2 r d : S8192x32.Idx) a).val < k0_off1 c a + S256x32.size a := by
      intro a
      match a with
      | ⟨0, _⟩ => rw [hc]; exact h
      | ⟨1, _⟩ => rw [hc]; exact ⟨Nat.zero_le _, by show d.val < 0 + 32; omega⟩
    rw [dif_pos h', dif_pos h]
    congr 1
    funext a
    apply Fin.ext
    match a with
    | ⟨0, _⟩ => show r.val - k0_off1 c 0 = r.val - 256 * m; rw [hc]; rfl
    | ⟨1, _⟩ => show d.val - k0_off1 c 1 = d.val; rw [hc]; rfl
  · have h' : ¬ ∀ a, k0_off1 c a ≤ ((ix2 r d : S8192x32.Idx) a).val
        ∧ ((ix2 r d : S8192x32.Idx) a).val < k0_off1 c a + S256x32.size a := fun hh => h (by
      have h0 := hh 0
      rw [hc] at h0
      exact h0)
    rw [dif_neg h', dif_neg h]

end AtIndex

/-- The user rows of the embedding table are its first 8192 rows. -/
theorem embU_apply (e : Vec Ideal S16384x32 .f32) (r : Fin 8192) (d : Fin 32) :
    embU (F := Ideal) e (ix2 r d) = e (ix2 ⟨r.val, by omega⟩ d) := by
  unfold embU
  rw [k0_pay7_eq]
  show e _ = e _
  congr 1
  funext a
  apply Fin.ext
  match a with
  | ⟨0, _⟩ => show 0 + 1 * r.val = r.val; omega
  | ⟨1, _⟩ => show 0 + 1 * d.val = d.val; omega

/-- The item rows of the embedding table are its last 8192 rows. -/
theorem embI_apply (e : Vec Ideal S16384x32 .f32) (j : Fin 8192) (d : Fin 32) :
    embI (F := Ideal) e (ix2 j d) = e (ix2 ⟨8192 + j.val, by omega⟩ d) := by
  unfold embI
  rw [k0_pay8_eq]
  show e _ = e _
  congr 1
  funext a
  apply Fin.ext
  match a with
  | ⟨0, _⟩ => show 8192 + 1 * j.val = 8192 + j.val; omega
  | ⟨1, _⟩ => show 0 + 1 * d.val = d.val; omega

/-! ## The adjacency's stripes, the kernel's states and the reference's tables -/

/-- Stripe `n % 32` of the adjacency: its rows 256·(n % 32) … 256·(n % 32) + 255. -/
def rowsBlk (A : Vec Ideal S8192x8192 .f32) (n : ℕ) : Vec Ideal S256x8192 .f32 :=
  fun y => A (ix2 ⟨256 * (n % 32) + (y 0).val, by
    have h : (y 0).val < 256 := (y 0).isLt
    have := Nat.mod_lt n (show 0 < 32 by decide)
    omega⟩ (y 1))

theorem rowsBlk_apply (A : Vec Ideal S8192x8192 .f32) (n : ℕ) (p : Fin 256) (k : Fin 8192) :
    rowsBlk A n (ix2 p k) = A (ix2 ⟨256 * (n % 32) + p.val, by
      have := Nat.mod_lt n (show 0 < 32 by decide)
      omega⟩ k) := rfl

/-- The state after position `n`: the step of each position applied in the grid's order, from any state. -/
def traj (A : Vec Ideal S8192x8192 .f32) (E : Vec Ideal S16384x32 .f32) : (n : ℕ) → n < 96 → St Ideal
  | 0, hn => stepAt 0 (grid0.coords ⟨0, by rw [N_0]; exact hn⟩) (rowsBlk A 0) E st0
  | n + 1, hn => stepAt (n + 1) (grid0.coords ⟨n + 1, by rw [N_0]; exact hn⟩) (rowsBlk A (n + 1)) E
      (traj A E n (by omega))

/-- The reference's tables: the embeddings, and each next table from the one before. -/
def Lk (A : Vec Ideal S8192x8192 .f32) (E : Vec Ideal S16384x32 .f32) : ℕ → Vec Ideal S16384x32 .f32
  | 0 => E
  | l + 1 => Cert.ReferenceIdeal.Layers.next (F := Ideal) A (Lk A E l)

theorem Lk_zero (A : Vec Ideal S8192x8192 .f32) (E : Vec Ideal S16384x32 .f32) : Lk A E 0 = E := rfl
theorem Lk_succ (A : Vec Ideal S8192x8192 .f32) (E : Vec Ideal S16384x32 .f32) (l : ℕ) :
    Lk A E (l + 1) = Cert.ReferenceIdeal.Layers.next (F := Ideal) A (Lk A E l) := rfl

end Cert.KernelIdeal.Traj

end
-- ==== Proof.Traj.lean ====
/-
  The kernel's state along the grid, point by point, against the reference's tables.

  The grid is 3 layers x 32 stripes, run in row-major order: position n is layer l = n / 32, stripe i = n % 32.
  With `A` the adjacency and `E` the embedding table, the reference's tables are L₀ = E and L_{l+1} = next A L_l.
  After position n:
    the users' table holds L_{l+1} on the rows of stripes 0 … i and L_l on the later rows;
    the items' table holds the item rows of L_l (of L_{l+1} once the layer's last stripe has run);
    the transposed accumulator holds, at (d, j), the sum over the first 256·(i+1) user rows k of L_l (k, d) · A (k, j).
  The four output blocks of the position follow: the users' aggregate and the next table on the stripe's rows, and, at a
  layer's last stripe, the items' aggregate and the item rows of the next table.
-/
import proofs.«159328_g20109036880396_cont_8to1_786_9_alg».proof.Proof.TrajDefs

set_option maxRecDepth 16384

noncomputable section

open scoped BigOperators

namespace Cert.KernelIdeal.Traj

open Idealize.ShloMosaic Idealize.ShloMosaic.ValueIdx Idealize.SL.Sem
open Cert.KernelIdeal.Gen Cert.KernelIdeal.Sums

/-! ## One position, from what the tables hold before it -/

section Position

variable (A : Vec Ideal S8192x8192 .f32) (E : Vec Ideal S16384x32 .f32)

/-- One term of the items' sum at (d, j): row k of layer l's table against the adjacency's row k, for k a user row. -/
def term (l : ℕ) (d : Fin 32) (j : Fin 8192) (k : ℕ) : EReal :=
  if h : k < 8192 then Lk A E l (ix2 ⟨k, by omega⟩ d) * A (ix2 ⟨k, h⟩ j) else 0

theorem term_of_lt (l : ℕ) (d : Fin 32) (j : Fin 8192) (k : ℕ) (h : k < 8192) :
    term A E l d j k = Lk A E l (ix2 ⟨k, by omega⟩ d) * A (ix2 ⟨k, h⟩ j) := dif_pos h

/-- What a position of layer `l` and stripe `m` finds: its row offset, its stripe of the adjacency, a users' table that
    holds the next layer's rows on the earlier stripes and this layer's on the others, and this layer's items' table. -/
structure Pre (l m : ℕ) (c : grid0.Coords) (a : Vec Ideal S256x8192 .f32) (Ue Ie : Vec Ideal S8192x32 .f32) : Prop where
  hm : m < 32
  hc : k0_off1 c = ![256 * m, 0]
  ha : ∀ (p : Fin 256) (k : Fin 8192), a (ix2 p k) = A (ix2 ⟨256 * m + p.val, by omega⟩ k)
  hU : ∀ (r : Fin 8192) (d : Fin 32), Ue (ix2 r d)
    = if r.val < 256 * m then Lk A E (l + 1) (ix2 ⟨r.val, by omega⟩ d) else Lk A E l (ix2 ⟨r.val, by omega⟩ d)
  hI : ∀ (j : Fin 8192) (d : Fin 32), Ie (ix2 j d) = Lk A E l (ix2 ⟨8192 + j.val, by omega⟩ d)

/-- What holds after position `n`: the users' table, the items' table and the transposed accumulator. -/
structure Inv (n : ℕ) (s : St Ideal) : Prop where
  U : ∀ (r : Fin 8192) (d : Fin 32), s.U (ix2 r d)
    = if r.val < 256 * (n % 32 + 1) then Lk A E (n / 32 + 1) (ix2 ⟨r.val, by omega⟩ d)
      else Lk A E (n / 32) (ix2 ⟨r.val, by omega⟩ d)
  I : ∀ (j : Fin 8192) (d : Fin 32), s.I (ix2 j d)
    = Lk A E (if n % 32 = 31 then n / 32 + 1 else n / 32) (ix2 ⟨8192 + j.val, by omega⟩ d)
  Acc : ∀ (d : Fin 32) (j : Fin 8192), s.Acc (ix2 d j)
    = ∑ k ∈ Finset.range (256 * (n % 32 + 1)), term A E (n / 32) d j k

variable {A E} {l m : ℕ} {c : grid0.Coords} {a : Vec Ideal S256x8192 .f32} {Ue Ie : Vec Ideal S8192x32 .f32}

/-- The stripe's rows, before the position, are this layer's. -/
theorem stripe_pre (P : Pre A E l m c a Ue Ie) (p : Fin 256) (d : Fin 32) :
    stripe (F := Ideal) c Ue (ix2 p d) = Lk A E l (ix2 ⟨256 * m + p.val, by have := P.hm; omega⟩ d) := by
  have hm := P.hm
  rw [stripe_apply c m P.hc hm, P.hU, if_neg (by show ¬ 256 * m + p.val < 256 * m; omega)]

/-- The forward product on the stripe is the users' aggregate on the stripe's rows. -/
theorem fwd_pre (P : Pre A E l m c a Ue Ie) (p : Fin 256) (d : Fin 32) :
    k0_pay9 (F := Ideal) a Ie (ix2 p d)
      = Cert.ReferenceIdeal.Layers.userAgg (F := Ideal) A (Lk A E l) (ix2 ⟨256 * m + p.val, by have := P.hm; omega⟩ d) := by
  rw [k0_pay9_apply, userAgg_apply]
  refine Finset.sum_congr rfl fun k _ => ?_
  rw [P.ha, P.hI]

/-- The forward product plus the stripe's rows is the next layer's rows. -/
theorem next_pre (P : Pre A E l m c a Ue Ie) (p : Fin 256) (d : Fin 32) :
    k0_pay11 (F := Ideal) a (stripe (F := Ideal) c Ue) Ie (ix2 p d)
      = Lk A E (l + 1) (ix2 ⟨256 * m + p.val, by have := P.hm; omega⟩ d) := by
  have hm := P.hm
  rw [k0_pay11_apply, fwd_pre P, stripe_pre P]
  exact (next_apply_lo A (Lk A E l) ⟨256 * m + p.val, by omega⟩ d).symm

/-- The users' table after the position. -/
theorem U_step (P : Pre A E l m c a Ue Ie) (r : Fin 8192) (d : Fin 32) :
    putStripe (F := Ideal) c Ue (k0_pay13 (F := Ideal) a (stripe (F := Ideal) c Ue) Ie) (ix2 r d)
      = if r.val < 256 * (m + 1) then Lk A E (l + 1) (ix2 ⟨r.val, by omega⟩ d)
        else Lk A E l (ix2 ⟨r.val, by omega⟩ d) := by
  have hm := P.hm
  rw [putStripe_apply c m P.hc hm, k0_pay13_eq]
  by_cases h : 256 * m ≤ r.val ∧ r.val < 256 * m + 256
  · rw [dif_pos h, if_pos (by omega), next_pre P]
    exact at_congr (Lk A E (l + 1)) (show 256 * m + (r.val - 256 * m) = r.val by omega) _ _ d
  · rw [dif_neg h, P.hU]
    by_cases h2 : r.val < 256 * m
    · rw [if_pos h2, if_pos (by omega)]
    · rw [if_neg h2, if_neg (by omega)]

/-- The transposed product of the stripe: the stripe's 256 terms of the items' sum. -/
theorem bwd_pre (P : Pre A E l m c a Ue Ie) (d : Fin 32) (j : Fin 8192) :
    k0_pay14 (F := Ideal) a (stripe (F := Ideal) c Ue) (ix2 d j)
      = ∑ k ∈ Finset.range 256, term A E l d j (256 * m + k) := by
  have hm := P.hm
  rw [k0_pay14_apply, ← sum_fin_eq_range (fun k => term A E l d j (256 * m + k)) 256]
  refine Finset.sum_congr rfl fun k _ => ?_
  rw [stripe_pre P, P.ha, term_of_lt A E l d j (256 * m + k.val) (by omega)]

/-- The accumulator after the position: set at stripe 0, added to afterwards. -/
theorem Acc_step (P : Pre A E l m c a Ue Ie) (AccP : Vec Ideal S32x8192 .f32)
    (hAcc : m ≠ 0 → ∀ (d : Fin 32) (j : Fin 8192), AccP (ix2 d j) = ∑ k ∈ Finset.range (256 * m), term A E l d j k)
    (d : Fin 32) (j : Fin 8192) :
    (if m = 0 then k0_pay15 (F := Ideal) a (stripe (F := Ideal) c Ue)
      else k0_pay1 (F := Ideal) (k0_pay14 (F := Ideal) a (stripe (F := Ideal) c Ue)) AccP) (ix2 d j)
      = ∑ k ∈ Finset.range (256 * (m + 1)), term A E l d j k := by
  by_cases h0 : m = 0
  · rw [if_pos h0, k0_pay15_eq, bwd_pre P]
    subst h0
    exact Finset.sum_congr rfl fun k _ => by rw [Nat.mul_zero, Nat.zero_add]
  · rw [if_neg h0, k0_pay1_apply, hAcc h0, bwd_pre P, sum_range_stripe_succ]

/-- At a layer's last stripe the accumulator is the items' aggregate. -/
theorem Acc_last (h31 : m = 31) (AccN : Vec Ideal S32x8192 .f32)
    (hN : ∀ (d : Fin 32) (j : Fin 8192), AccN (ix2 d j) = ∑ k ∈ Finset.range (256 * (m + 1)), term A E l d j k)
    (d : Fin 32) (j : Fin 8192) :
    AccN (ix2 d j) = Cert.ReferenceIdeal.Layers.itemAgg (F := Ideal) A (Lk A E l) (ix2 j d) := by
  rw [hN, itemAgg_apply]
  subst h31
  show ∑ k ∈ Finset.range 8192, term A E l d j k = _
  rw [← sum_fin_eq_range (term A E l d j) 8192]
  refine Finset.sum_congr rfl fun k _ => ?_
  rw [term_of_lt A E l d j k.val k.isLt, mul_comm]

/-- At a layer's last stripe the accumulator, transposed back, plus the items' table is the next layer's item rows. -/
theorem I_last (h31 : m = 31) (P : Pre A E l m c a Ue Ie) (AccN : Vec Ideal S32x8192 .f32)
    (hN : ∀ (d : Fin 32) (j : Fin 8192), AccN (ix2 d j) = ∑ k ∈ Finset.range (256 * (m + 1)), term A E l d j k)
    (j : Fin 8192) (d : Fin 32) :
    k0_pay4 (F := Ideal) AccN Ie (ix2 j d) = Lk A E (l + 1) (ix2 ⟨8192 + j.val, by omega⟩ d) := by
  rw [k0_pay4_apply, Acc_last h31 AccN hN, P.hI]
  exact (next_apply_hi A (Lk A E l) j d).symm

end Position

/-! ## The step of a position keeps the invariant and gives the output blocks -/

section Step

variable {A : Vec Ideal S8192x8192 .f32} {E : Vec Ideal S16384x32 .f32}
variable (n : ℕ) (s : St Ideal) (c : grid0.Coords) (a : Vec Ideal S256x8192 .f32) (Ue Ie : Vec Ideal S8192x32 .f32)

theorem step_inv (hUe : Ue = if n = 0 then embU (F := Ideal) E else s.U)
    (hIe : Ie = if n = 0 then embI (F := Ideal) E else s.I) (P : Pre A E (n / 32) (n % 32) c a Ue Ie)
    (hAcc : n % 32 ≠ 0 → ∀ (d : Fin 32) (j : Fin 8192),
      s.Acc (ix2 d j) = ∑ k ∈ Finset.range (256 * (n % 32)), term A E (n / 32) d j k) :
    Inv A E n (stepAt (F := Ideal) n c a E s) := by
  subst hUe hIe
  have hN := Acc_step P s.Acc hAcc
  refine ⟨fun r d => U_step P r d, fun j d => ?_, fun d j => hN d j⟩
  show (if n % 32 = 31 then k0_pay6 (F := Ideal) _ _ else _) (ix2 j d) = _
  by_cases h31 : n % 32 = 31
  · simp only [if_pos h31]
    rw [k0_pay6_eq]
    exact I_last h31 P _ hN j d
  · simp only [if_neg h31]
    exact P.hI j d

theorem step_G (hIe : Ie = if n = 0 then embI (F := Ideal) E else s.I) (P : Pre A E (n / 32) (n % 32) c a Ue Ie)
    (p : Fin 256) (d : Fin 32) :
    (stepAt (F := Ideal) n c a E s).G (ix3 (0 : Fin 1) p d)
      = Cert.ReferenceIdeal.Layers.userAgg (F := Ideal) A (Lk A E (n / 32)) (ix2 ⟨256 * (n % 32) + p.val, by omega⟩ d) := by
  subst hIe
  show k0_pay10 (F := Ideal) a _ (ix3 (0 : Fin 1) p d) = _
  rw [k0_pay10_apply]
  exact fwd_pre P p d

theorem step_L (hUe : Ue = if n = 0 then embU (F := Ideal) E else s.U)
    (hIe : Ie = if n = 0 then embI (F := Ideal) E else s.I) (P : Pre A E (n / 32) (n % 32) c a Ue Ie)
    (p : Fin 256) (d : Fin 32) :
    (stepAt (F := Ideal) n c a E s).L (ix3 (0 : Fin 1) p d)
      = Lk A E (n / 32 + 1) (ix2 ⟨256 * (n % 32) + p.val, by omega⟩ d) := by
  subst hUe hIe
  show k0_pay12 (F := Ideal) a _ _ (ix3 (0 : Fin 1) p d) = _
  rw [k0_pay12_apply]
  exact next_pre P p d

theorem step_IG (hUe : Ue = if n = 0 then embU (F := Ideal) E else s.U)
    (hIe : Ie = if n = 0 then embI (F := Ideal) E else s.I) (P : Pre A E (n / 32) (n % 32) c a Ue Ie)
    (hAcc : n % 32 ≠ 0 → ∀ (d : Fin 32) (j : Fin 8192),
      s.Acc (ix2 d j) = ∑ k ∈ Finset.range (256 * (n % 32)), term A E (n / 32) d j k)
    (h31 : n % 32 = 31) (j : Fin 8192) (d : Fin 32) :
    (stepAt (F := Ideal) n c a E s).IG (ix3 (0 : Fin 1) j d)
      = Cert.ReferenceIdeal.Layers.itemAgg (F := Ideal) A (Lk A E (n / 32)) (ix2 j d) := by
  subst hUe hIe
  show k0_pay3 (F := Ideal) _ (ix3 (0 : Fin 1) j d) = _
  rw [k0_pay3_apply]
  exact Acc_last h31 _ (Acc_step P s.Acc hAcc) d j

theorem step_IL (hUe : Ue = if n = 0 then embU (F := Ideal) E else s.U)
    (hIe : Ie = if n = 0 then embI (F := Ideal) E else s.I) (P : Pre A E (n / 32) (n % 32) c a Ue Ie)
    (hAcc : n % 32 ≠ 0 → ∀ (d : Fin 32) (j : Fin 8192),
      s.Acc (ix2 d j) = ∑ k ∈ Finset.range (256 * (n % 32)), term A E (n / 32) d j k)
    (h31 : n % 32 = 31) (j : Fin 8192) (d : Fin 32) :
    (stepAt (F := Ideal) n c a E s).IL (ix3 (0 : Fin 1) j d)
      = Lk A E (n / 32 + 1) (ix2 ⟨8192 + j.val, by omega⟩ d) := by
  subst hUe hIe
  show k0_pay5 (F := Ideal) _ _ (ix3 (0 : Fin 1) j d) = _
  rw [k0_pay5_apply]
  exact I_last h31 P _ (Acc_step P s.Acc hAcc) j d

end Step

/-! ## Along the grid -/

section Along

variable (A : Vec Ideal S8192x8192 .f32) (E : Vec Ideal S16384x32 .f32)

/-- What the first position finds: the embedding table's two halves. -/
theorem pre_zero (hn : 0 < 96) :
    Pre A E (0 / 32) (0 % 32) (grid0.coords ⟨0, by rw [N_0]; exact hn⟩) (rowsBlk A 0)
      (if (0 : ℕ) = 0 then embU (F := Ideal) E else (st0 (F := Ideal)).U)
      (if (0 : ℕ) = 0 then embI (F := Ideal) E else (st0 (F := Ideal)).I) where
  hm := by decide
  hc := hoff ⟨0, by rw [N_0]; exact hn⟩
  ha := fun p k => rowsBlk_apply A 0 p k
  hU := fun r d => by
    rw [if_pos rfl, embU_apply, if_neg (show ¬ r.val < 256 * (0 % 32) by omega)]
    rfl
  hI := fun j d => by
    rw [if_pos rfl, embI_apply]
    rfl

/-- What a later position finds, from what holds after the position before it. -/
theorem pre_succ (q : ℕ) (hn : q + 1 < 96) (s : St Ideal) (I : Inv A E q s) :
    Pre A E ((q + 1) / 32) ((q + 1) % 32) (grid0.coords ⟨q + 1, by rw [N_0]; exact hn⟩) (rowsBlk A (q + 1))
      (if q + 1 = 0 then embU (F := Ideal) E else s.U) (if q + 1 = 0 then embI (F := Ideal) E else s.I)
    ∧ ((q + 1) % 32 ≠ 0 → ∀ (d : Fin 32) (j : Fin 8192),
        s.Acc (ix2 d j) = ∑ k ∈ Finset.range (256 * ((q + 1) % 32)), term A E ((q + 1) / 32) d j k) := by
  have hU0 : (if q + 1 = 0 then embU (F := Ideal) E else s.U) = s.U := if_neg (Nat.succ_ne_zero q)
  have hI0 : (if q + 1 = 0 then embI (F := Ideal) E else s.I) = s.I := if_neg (Nat.succ_ne_zero q)
  rw [hU0, hI0]
  by_cases h31 : q % 32 = 31
  · have e1 : (q + 1) / 32 = q / 32 + 1 := by omega
    have e2 : (q + 1) % 32 = 0 := by omega
    refine ⟨⟨Nat.mod_lt _ (by decide), hoff ⟨q + 1, by rw [N_0]; exact hn⟩, fun p k => rowsBlk_apply A (q + 1) p k,
      fun r d => ?_, fun j d => ?_⟩, fun h => absurd e2 h⟩
    · rw [e1, e2, I.U, if_pos (show r.val < 256 * (q % 32 + 1) by omega), if_neg (show ¬ r.val < 256 * 0 by omega)]
    · rw [e1, I.I, if_pos h31]
  · have e1 : (q + 1) / 32 = q / 32 := by omega
    have e2 : (q + 1) % 32 = q % 32 + 1 := by omega
    refine ⟨⟨Nat.mod_lt _ (by decide), hoff ⟨q + 1, by rw [N_0]; exact hn⟩, fun p k => rowsBlk_apply A (q + 1) p k,
      fun r d => ?_, fun j d => ?_⟩, fun _ d j => ?_⟩
    · rw [e1, e2, I.U]
    · rw [e1, I.I, if_neg h31]
    · rw [e1, e2]
      exact I.Acc d j

/-- THE INVARIANT: after every position the two tables and the accumulator are as `Inv` says. -/
theorem traj_inv : ∀ (n : ℕ) (hn : n < 96), Inv A E n (traj A E n hn)
  | 0, hn => step_inv 0 st0 _ _ _ _ rfl rfl (pre_zero A E hn) (fun h => absurd rfl h)
  | q + 1, hn =>
    have Q := pre_succ A E q hn _ (traj_inv q (by omega))
    step_inv (q + 1) (traj A E q (by omega)) _ _ _ _ rfl rfl Q.1 Q.2

/-- Every state of the trajectory is the step of its position from a state that satisfies what the position needs. -/
theorem traj_step : ∀ (n : ℕ) (hn : n < 96), ∃ s : St Ideal,
    traj A E n hn = stepAt (F := Ideal) n (grid0.coords ⟨n, by rw [N_0]; exact hn⟩) (rowsBlk A n) E s
    ∧ Pre A E (n / 32) (n % 32) (grid0.coords ⟨n, by rw [N_0]; exact hn⟩) (rowsBlk A n)
        (if n = 0 then embU (F := Ideal) E else s.U) (if n = 0 then embI (F := Ideal) E else s.I)
    ∧ (n % 32 ≠ 0 → ∀ (d : Fin 32) (j : Fin 8192),
        s.Acc (ix2 d j) = ∑ k ∈ Finset.range (256 * (n % 32)), term A E (n / 32) d j k)
  | 0, hn => ⟨st0, rfl, pre_zero A E hn, fun h => absurd rfl h⟩
  | q + 1, hn => ⟨traj A E q (by omega), rfl, pre_succ A E q hn _ (traj_inv A E q (by omega))⟩

/-! ### The statements, one by one (layer l = n / 32, stripe i = n % 32) -/

/-- The users' table after position n: the next layer's rows on stripes 0 … i, this layer's on the later rows. -/
theorem traj_U (n : ℕ) (hn : n < 96) (r : Fin 8192) (d : Fin 32) :
    (traj A E n hn).U (ix2 r d)
      = if r.val < 256 * (n % 32 + 1) then Lk A E (n / 32 + 1) (ix2 ⟨r.val, by omega⟩ d)
        else Lk A E (n / 32) (ix2 ⟨r.val, by omega⟩ d) :=
  (traj_inv A E n hn).U r d

/-- The items' table after position n: this layer's item rows, the next layer's once the last stripe has run. -/
theorem traj_I (n : ℕ) (hn : n < 96) (j : Fin 8192) (d : Fin 32) :
    (traj A E n hn).I (ix2 j d)
      = Lk A E (if n % 32 = 31 then n / 32 + 1 else n / 32) (ix2 ⟨8192 + j.val, by omega⟩ d) :=
  (traj_inv A E n hn).I j d

/-- The accumulator after position n: the partial sum over the first 256·(i+1) user rows. -/
theorem traj_Acc (n : ℕ) (hn : n < 96) (d : Fin 32) (j : Fin 8192) :
    (traj A E n hn).Acc (ix2 d j)
      = ∑ k ∈ Finset.range (256 * (n % 32 + 1)),
          (if h : k < 8192 then Lk A E (n / 32) (ix2 ⟨k, by omega⟩ d) * A (ix2 ⟨k, h⟩ j) else 0) :=
  (traj_inv A E n hn).Acc d j

/-- The first output block of position n: the users' aggregate on the stripe's rows. -/
theorem traj_G (n : ℕ) (hn : n < 96) (p : Fin 256) (d : Fin 32) :
    (traj A E n hn).G (ix3 (0 : Fin 1) p d)
      = Cert.ReferenceIdeal.Layers.userAgg (F := Ideal) A (Lk A E (n / 32)) (ix2 ⟨256 * (n % 32) + p.val, by omega⟩ d) := by
  obtain ⟨s, hs, P, hA⟩ := traj_step A E n hn
  rw [hs]
  exact step_G n s _ _ _ _ rfl P p d

/-- The second output block of position n: the next table on the stripe's rows. -/
theorem traj_L (n : ℕ) (hn : n < 96) (p : Fin 256) (d : Fin 32) :
    (traj A E n hn).L (ix3 (0 : Fin 1) p d)
      = Lk A E (n / 32 + 1) (ix2 ⟨256 * (n % 32) + p.val, by omega⟩ d) := by
  obtain ⟨s, hs, P, hA⟩ := traj_step A E n hn
  rw [hs]
  exact step_L n s _ _ _ _ rfl rfl P p d

/-- The third output block at a layer's last stripe: the items' aggregate. -/
theorem traj_IG (n : ℕ) (hn : n < 96) (h31 : n % 32 = 31) (j : Fin 8192) (d : Fin 32) :
    (traj A E n hn).IG (ix3 (0 : Fin 1) j d)
      = Cert.ReferenceIdeal.Layers.itemAgg (F := Ideal) A (Lk A E (n / 32)) (ix2 j d) := by
  obtain ⟨s, hs, P, hA⟩ := traj_step A E n hn
  rw [hs]
  exact step_IG n s _ _ _ _ rfl rfl P hA h31 j d

/-- The fourth output block at a layer's last stripe: the item rows of the next table. -/
theorem traj_IL (n : ℕ) (hn : n < 96) (h31 : n % 32 = 31) (j : Fin 8192) (d : Fin 32) :
    (traj A E n hn).IL (ix3 (0 : Fin 1) j d)
      = Lk A E (n / 32 + 1) (ix2 ⟨8192 + j.val, by omega⟩ d) := by
  obtain ⟨s, hs, P, hA⟩ := traj_step A E n hn
  rw [hs]
  exact step_IL n s _ _ _ _ rfl rfl P hA h31 j d

end Along

end Cert.KernelIdeal.Traj

end
-- ==== Proof.Arrays.lean ====
/-
  From the blocks the pipeline writes back to the four output arrays of the region, read at an index.
  The grid is 3 x 32, run row-major: the point at position t has coordinates (t / 32, t % 32). Output windows 2 and 3
  have blocks [1, 256, 32] at block index (t / 32, t % 32, 0) of arrays [3, 8192, 32] and are written back at every
  point: the entry (l, r, d) of the array is in the block of the point 32 l + r / 256, at (0, r % 256, d). Output
  windows 4 and 5 have blocks [1, 8192, 32] at block index (t / 32, 0, 0) and are written back at the last point of
  each row of the grid only: the entry (l, r, d) is in the block of the point 32 l + 31, at (0, r, d).
  Each array is therefore one function of the family of blocks the points leave; the blocks written back are its
  blocks, they cover the array, and the array ends holding it.
-/
import proofs.«159328_g20109036880396_cont_8to1_786_9_alg».proof.Proof.Body
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The points -/

/-- The point whose small block holds row `r` of layer `l`. -/
theorem pt_lt (l : Fin 3) (r : Fin 8192) : 32 * l.val + r.val / 256 < cfg0.N := by
  rw [show cfg0.N = 96 from N_0]; have := l.isLt; have := r.isLt; omega
/-- The last point of row `l` of the grid. -/
theorem last_lt (l : Fin 3) : 32 * l.val + 31 < cfg0.N := by
  rw [show cfg0.N = 96 from N_0]; have := l.isLt; omega

/-- A family of tables indexed by the points, read at equal points and equal indices. -/
theorem fam_congr {S : Shape} (T : (n : ℕ) → n < cfg0.N → S.Idx → Elt F .f32) {n n' : ℕ} (hn : n < cfg0.N)
    (hn' : n' < cfg0.N) (e : n = n') {j j' : S.Idx} (hj : j = j') : T n hn j = T n' hn' j' := by
  subst e; subst hj; rfl

/-! ## The two whole-array functions -/

/-- The array whose [1, 256, 32] block at block index (t / 32, t % 32, 0) is the table `T t`. -/
def small (T : (n : ℕ) → n < cfg0.N → Vec F S1x256x32 .f32) (i : S3x8192x32.Idx) : Elt F .f32 :=
  T (32 * (i 0).val + (i 1).val / 256) (pt_lt (i 0) (i 1))
    (ix3 (0 : Fin 1) (⟨(i 1).val % 256, Nat.mod_lt _ (by decide)⟩ : Fin 256) (⟨(i 2).val, (i 2).isLt⟩ : Fin 32))

/-- The array whose [1, 8192, 32] block at block index (l, 0, 0) is the table `B (32 l + 31)`. -/
def big (B : (n : ℕ) → n < cfg0.N → Vec F S1x8192x32 .f32) (i : S3x8192x32.Idx) : Elt F .f32 :=
  B (32 * (i 0).val + 31) (last_lt (i 0))
    (ix3 (0 : Fin 1) (⟨(i 1).val, (i 1).isLt⟩ : Fin 8192) (⟨(i 2).val, (i 2).isLt⟩ : Fin 32))

/-- The table of point `t` at `j` is the small-block array at the index with coordinates
    (t / 32, (t % 32) * 256 + j₁, j₂). -/
theorem small_of_coords (T : (n : ℕ) → n < cfg0.N → Vec F S1x256x32 .f32) (t : ℕ) (ht : t < cfg0.N)
    (j : S1x256x32.Idx) (i : S3x8192x32.Idx) (h0 : (i 0).val = t / 32)
    (h1 : (i 1).val = t % 32 * 256 + (j 1).val) (h2 : (i 2).val = (j 2).val) : T t ht j = small T i := by
  have hj0 : (j 0).val < 1 := (j 0).isLt
  have hj1 : (j 1).val < 256 := (j 1).isLt
  unfold small
  refine fam_congr T ht _ (by omega) ?_
  funext a; apply Fin.ext
  match a with
  | ⟨0, _⟩ => show (j 0).val = 0; omega
  | ⟨1, _⟩ => show (j 1).val = (i 1).val % 256; omega
  | ⟨2, _⟩ => show (j 2).val = (i 2).val; omega

/-- The table of a last point `t` of a row at `j` is the large-block array at the index with coordinates
    (t / 32, j₁, j₂). -/
theorem big_of_coords (B : (n : ℕ) → n < cfg0.N → Vec F S1x8192x32 .f32) (t : ℕ) (ht : t < cfg0.N)
    (j : S1x8192x32.Idx) (i : S3x8192x32.Idx) (h31 : t % 32 = 31) (h0 : (i 0).val = t / 32)
    (h1 : (i 1).val = (j 1).val) (h2 : (i 2).val = (j 2).val) : B t ht j = big B i := by
  have hj0 : (j 0).val < 1 := (j 0).isLt
  unfold big
  refine fam_congr B ht _ (by omega) ?_
  funext a; apply Fin.ext
  match a with
  | ⟨0, _⟩ => show (j 0).val = 0; omega
  | ⟨1, _⟩ => show (j 1).val = (i 1).val; omega
  | ⟨2, _⟩ => show (j 2).val = (i 2).val; omega

section Windows

variable {c : Dev nD} (dat : Dat τ (Elt F) Unit ℕ (UR sig nD τ) ℕ cfg0 c)

/-! ## Window 2 -/

/-- The printed index map of window 2, decided over the grid: block index (t / 32, t % 32, 0). -/
theorem idx_facts2 : ∀ t : Fin cfg0.N, win0_2.index t (0 : Fin 3) = t.val / 32
    ∧ win0_2.index t (1 : Fin 3) = t.val % 32 ∧ win0_2.index t (2 : Fin 3) = 0 :=
  (by decide +kernel : ∀ t : Fin grid0.N, _)

/-- What point `t` writes back to window 2's array is block `t` of the small-block array of the tables. -/
theorem flushed2_eq (T : (n : ℕ) → n < cfg0.N → Vec F S1x256x32 .f32)
    (h : ∀ t : Fin cfg0.N, dat.after 2 t = T t.val t.isLt) (t : Fin cfg0.N) :
    dat.flushed 2 t = ((cfg0.win 2).blk t).view.read (Elt F) (small T) := by
  show (cfg0.win 2).cut (grid0.coords t) (dat.after 2 t) = _
  rw [h t]
  obtain ⟨e0, e1, e2⟩ := idx_facts2 t
  funext j
  have hj0 : (j 0).val < 1 := (j 0).isLt
  show T t.val t.isLt j = small T (((cfg0.win 2).blk t).view.emb j)
  exact small_of_coords T t.val t.isLt j (((cfg0.win 2).blk t).view.emb j)
    (by show win0_2.index t (0 : Fin 3) * 1 + 1 * (j 0).val = t.val / 32; omega)
    (by show win0_2.index t (1 : Fin 3) * 256 + 1 * (j 1).val = t.val % 32 * 256 + (j 1).val; omega)
    (by show win0_2.index t (2 : Fin 3) * 32 + 1 * (j 2).val = (j 2).val; omega)

/-- An index of the array is in point `t`'s block iff each coordinate is in the block's range on its axis. -/
theorem mem_blk2 (t : Fin cfg0.N) (i : S3x8192x32.Idx) :
    i ∈ ((cfg0.win 2).blk t).view.set ↔ ∀ a : Fin 3, win0_2.index t a * S1x256x32.size a ≤ (i a).val ∧ (i a).val < win0_2.index t a * S1x256x32.size a + S1x256x32.size a := by
  show i ∈ ((View.whole main_v0_0).slice (win0_2.rect t)).set ↔ _
  rw [View.set_slice_whole, Rect.mem_set_unit]
  exact Iff.rfl

/-- Every index of the array is in the block of a point that writes back: row `r` of layer `l` in that of the
    point 32 l + r / 256. -/
theorem cover2 (i : S3x8192x32.Idx) :
    ∃ t : Fin cfg0.N, (cfg0.win 2).flush t = true ∧ i ∈ ((cfg0.win 2).blk t).view.set := by
  have hi0 : (i 0).val < 3 := (i 0).isLt
  have hi1 : (i 1).val < 8192 := (i 1).isLt
  have hi2 : (i 2).val < 32 := (i 2).isLt
  obtain ⟨t, tv⟩ : ∃ t : Fin cfg0.N, t.val = 32 * (i 0).val + (i 1).val / 256 := ⟨⟨_, pt_lt (i 0) (i 1)⟩, rfl⟩
  obtain ⟨e0, e1, e2⟩ := idx_facts2 t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 32 ≤ (i 2).val ∧ (i 2).val < win0_2.index t (2 : Fin 3) * 32 + 32; omega

/-- So window 2's array ends holding the small-block array of the tables. -/
theorem final2 (T : (n : ℕ) → n < cfg0.N → Vec F S1x256x32 .f32)
    (h : ∀ t : Fin cfg0.N, dat.after 2 t = T t.val t.isLt) : dat.arrAt 2 cfg0.N = small T :=
  dat.arrAt_eq_of_cover 2 (small T) (fun t _ => flushed2_eq dat T h t) (fun i => cover2 i)

/-! ## Window 3 -/

/-- The printed index map of window 3, decided over the grid: block index (t / 32, t % 32, 0). -/
theorem idx_facts3 : ∀ t : Fin cfg0.N, win0_3.index t (0 : Fin 3) = t.val / 32
    ∧ win0_3.index t (1 : Fin 3) = t.val % 32 ∧ win0_3.index t (2 : Fin 3) = 0 :=
  (by decide +kernel : ∀ t : Fin grid0.N, _)

/-- What point `t` writes back to window 3's array is block `t` of the small-block array of the tables. -/
theorem flushed3_eq (T : (n : ℕ) → n < cfg0.N → Vec F S1x256x32 .f32)
    (h : ∀ t : Fin cfg0.N, dat.after 3 t = T t.val t.isLt) (t : Fin cfg0.N) :
    dat.flushed 3 t = ((cfg0.win 3).blk t).view.read (Elt F) (small T) := by
  show (cfg0.win 3).cut (grid0.coords t) (dat.after 3 t) = _
  rw [h t]
  obtain ⟨e0, e1, e2⟩ := idx_facts3 t
  funext j
  have hj0 : (j 0).val < 1 := (j 0).isLt
  show T t.val t.isLt j = small T (((cfg0.win 3).blk t).view.emb j)
  exact small_of_coords T t.val t.isLt j (((cfg0.win 3).blk t).view.emb j)
    (by show win0_3.index t (0 : Fin 3) * 1 + 1 * (j 0).val = t.val / 32; omega)
    (by show win0_3.index t (1 : Fin 3) * 256 + 1 * (j 1).val = t.val % 32 * 256 + (j 1).val; omega)
    (by show win0_3.index t (2 : Fin 3) * 32 + 1 * (j 2).val = (j 2).val; omega)

/-- An index of the array is in point `t`'s block iff each coordinate is in the block's range on its axis. -/
theorem mem_blk3 (t : Fin cfg0.N) (i : S3x8192x32.Idx) :
    i ∈ ((cfg0.win 3).blk t).view.set ↔ ∀ a : Fin 3, win0_3.index t a * S1x256x32.size a ≤ (i a).val ∧ (i a).val < win0_3.index t a * S1x256x32.size a + S1x256x32.size a := by
  show i ∈ ((View.whole main_v0_1).slice (win0_3.rect t)).set ↔ _
  rw [View.set_slice_whole, Rect.mem_set_unit]
  exact Iff.rfl

/-- Every index of the array is in the block of a point that writes back: row `r` of layer `l` in that of the
    point 32 l + r / 256. -/
theorem cover3 (i : S3x8192x32.Idx) :
    ∃ t : Fin cfg0.N, (cfg0.win 3).flush t = true ∧ i ∈ ((cfg0.win 3).blk t).view.set := by
  have hi0 : (i 0).val < 3 := (i 0).isLt
  have hi1 : (i 1).val < 8192 := (i 1).isLt
  have hi2 : (i 2).val < 32 := (i 2).isLt
  obtain ⟨t, tv⟩ : ∃ t : Fin cfg0.N, t.val = 32 * (i 0).val + (i 1).val / 256 := ⟨⟨_, pt_lt (i 0) (i 1)⟩, rfl⟩
  obtain ⟨e0, e1, e2⟩ := idx_facts3 t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 32 ≤ (i 2).val ∧ (i 2).val < win0_3.index t (2 : Fin 3) * 32 + 32; omega

/-- So window 3's array ends holding the small-block array of the tables. -/
theorem final3 (T : (n : ℕ) → n < cfg0.N → Vec F S1x256x32 .f32)
    (h : ∀ t : Fin cfg0.N, dat.after 3 t = T t.val t.isLt) : dat.arrAt 3 cfg0.N = small T :=
  dat.arrAt_eq_of_cover 3 (small T) (fun t _ => flushed3_eq dat T h t) (fun i => cover3 i)

/-! ## Window 4 -/

/-- The printed index map of window 4, decided over the grid: block index (t / 32, 0, 0). -/
theorem idx_facts4 : ∀ t : Fin cfg0.N, win0_4.index t (0 : Fin 3) = t.val / 32
    ∧ win0_4.index t (1 : Fin 3) = 0 ∧ win0_4.index t (2 : Fin 3) = 0 :=
  (by decide +kernel : ∀ t : Fin grid0.N, _)

/-- What a last point `t` of a row writes back to window 4's array is block `t` of the large-block array of
    the tables. -/
theorem flushed4_eq (B : (n : ℕ) → n < cfg0.N → Vec F S1x8192x32 .f32)
    (h : ∀ t : Fin cfg0.N, dat.after 4 t = B t.val t.isLt) (t : Fin cfg0.N) (hf : (cfg0.win 4).flush t = true) :
    dat.flushed 4 t = ((cfg0.win 4).blk t).view.read (Elt F) (big B) := by
  have h31 : t.val % 32 = 31 := (flush0_4 t).mp hf
  show (cfg0.win 4).cut (grid0.coords t) (dat.after 4 t) = _
  rw [h t]
  obtain ⟨e0, e1, e2⟩ := idx_facts4 t
  funext j
  have hj0 : (j 0).val < 1 := (j 0).isLt
  show B t.val t.isLt j = big B (((cfg0.win 4).blk t).view.emb j)
  exact big_of_coords B t.val t.isLt j (((cfg0.win 4).blk t).view.emb j) h31
    (by show win0_4.index t (0 : Fin 3) * 1 + 1 * (j 0).val = t.val / 32; omega)
    (by show win0_4.index t (1 : Fin 3) * 8192 + 1 * (j 1).val = (j 1).val; omega)
    (by show win0_4.index t (2 : Fin 3) * 32 + 1 * (j 2).val = (j 2).val; omega)

/-- An index of the array is in point `t`'s block iff each coordinate is in the block's range on its axis. -/
theorem mem_blk4 (t : Fin cfg0.N) (i : S3x8192x32.Idx) :
    i ∈ ((cfg0.win 4).blk t).view.set ↔ ∀ a : Fin 3, win0_4.index t a * S1x8192x32.size a ≤ (i a).val ∧ (i a).val < win0_4.index t a * S1x8192x32.size a + S1x8192x32.size a := by
  show i ∈ ((View.whole main_v0_2).slice (win0_4.rect t)).set ↔ _
  rw [View.set_slice_whole, Rect.mem_set_unit]
  exact Iff.rfl

/-- Every index of the array is in the block of a point that writes back: layer `l` in that of the last point
    32 l + 31 of row `l` of the grid. -/
theorem cover4 (i : S3x8192x32.Idx) :
    ∃ t : Fin cfg0.N, (cfg0.win 4).flush t = true ∧ i ∈ ((cfg0.win 4).blk t).view.set := by
  have hi0 : (i 0).val < 3 := (i 0).isLt
  have hi1 : (i 1).val < 8192 := (i 1).isLt
  have hi2 : (i 2).val < 32 := (i 2).isLt
  obtain ⟨t, tv⟩ : ∃ t : Fin cfg0.N, t.val = 32 * (i 0).val + 31 := ⟨⟨_, last_lt (i 0)⟩, rfl⟩
  obtain ⟨e0, e1, e2⟩ := idx_facts4 t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8192 ≤ (i 1).val ∧ (i 1).val < win0_4.index t (1 : Fin 3) * 8192 + 8192; omega
  | ⟨2, _⟩ => show win0_4.index t (2 : Fin 3) * 32 ≤ (i 2).val ∧ (i 2).val < win0_4.index t (2 : Fin 3) * 32 + 32; omega

/-- So window 4's array ends holding the large-block array of the tables. -/
theorem final4 (B : (n : ℕ) → n < cfg0.N → Vec F S1x8192x32 .f32)
    (h : ∀ t : Fin cfg0.N, dat.after 4 t = B t.val t.isLt) : dat.arrAt 4 cfg0.N = big B :=
  dat.arrAt_eq_of_cover 4 (big B) (flushed4_eq dat B h) (fun i => cover4 i)

/-! ## Window 5 -/

/-- The printed index map of window 5, decided over the grid: block index (t / 32, 0, 0). -/
theorem idx_facts5 : ∀ t : Fin cfg0.N, win0_5.index t (0 : Fin 3) = t.val / 32
    ∧ win0_5.index t (1 : Fin 3) = 0 ∧ win0_5.index t (2 : Fin 3) = 0 :=
  (by decide +kernel : ∀ t : Fin grid0.N, _)

/-- What a last point `t` of a row writes back to window 5's array is block `t` of the large-block array of
    the tables. -/
theorem flushed5_eq (B : (n : ℕ) → n < cfg0.N → Vec F S1x8192x32 .f32)
    (h : ∀ t : Fin cfg0.N, dat.after 5 t = B t.val t.isLt) (t : Fin cfg0.N) (hf : (cfg0.win 5).flush t = true) :
    dat.flushed 5 t = ((cfg0.win 5).blk t).view.read (Elt F) (big B) := by
  have h31 : t.val % 32 = 31 := (flush0_5 t).mp hf
  show (cfg0.win 5).cut (grid0.coords t) (dat.after 5 t) = _
  rw [h t]
  obtain ⟨e0, e1, e2⟩ := idx_facts5 t
  funext j
  have hj0 : (j 0).val < 1 := (j 0).isLt
  show B t.val t.isLt j = big B (((cfg0.win 5).blk t).view.emb j)
  exact big_of_coords B t.val t.isLt j (((cfg0.win 5).blk t).view.emb j) h31
    (by show win0_5.index t (0 : Fin 3) * 1 + 1 * (j 0).val = t.val / 32; omega)
    (by show win0_5.index t (1 : Fin 3) * 8192 + 1 * (j 1).val = (j 1).val; omega)
    (by show win0_5.index t (2 : Fin 3) * 32 + 1 * (j 2).val = (j 2).val; omega)

/-- An index of the array is in point `t`'s block iff each coordinate is in the block's range on its axis. -/
theorem mem_blk5 (t : Fin cfg0.N) (i : S3x8192x32.Idx) :
    i ∈ ((cfg0.win 5).blk t).view.set ↔ ∀ a : Fin 3, win0_5.index t a * S1x8192x32.size a ≤ (i a).val ∧ (i a).val < win0_5.index t a * S1x8192x32.size a + S1x8192x32.size a := by
  show i ∈ ((View.whole main_v0_3).slice (win0_5.rect t)).set ↔ _
  rw [View.set_slice_whole, Rect.mem_set_unit]
  exact Iff.rfl

/-- Every index of the array is in the block of a point that writes back: layer `l` in that of the last point
    32 l + 31 of row `l` of the grid. -/
theorem cover5 (i : S3x8192x32.Idx) :
    ∃ t : Fin cfg0.N, (cfg0.win 5).flush t = true ∧ i ∈ ((cfg0.win 5).blk t).view.set := by
  have hi0 : (i 0).val < 3 := (i 0).isLt
  have hi1 : (i 1).val < 8192 := (i 1).isLt
  have hi2 : (i 2).val < 32 := (i 2).isLt
  obtain ⟨t, tv⟩ : ∃ t : Fin cfg0.N, t.val = 32 * (i 0).val + 31 := ⟨⟨_, last_lt (i 0)⟩, rfl⟩
  obtain ⟨e0, e1, e2⟩ := idx_facts5 t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8192 ≤ (i 1).val ∧ (i 1).val < win0_5.index t (1 : Fin 3) * 8192 + 8192; omega
  | ⟨2, _⟩ => show win0_5.index t (2 : Fin 3) * 32 ≤ (i 2).val ∧ (i 2).val < win0_5.index t (2 : Fin 3) * 32 + 32; omega

/-- So window 5's array ends holding the large-block array of the tables. -/
theorem final5 (B : (n : ℕ) → n < cfg0.N → Vec F S1x8192x32 .f32)
    (h : ∀ t : Fin cfg0.N, dat.after 5 t = B t.val t.isLt) : dat.arrAt 5 cfg0.N = big B :=
  dat.arrAt_eq_of_cover 5 (big B) (flushed5_eq dat B h) (fun i => cover5 i)

end Windows

/-! ## The four arrays after the run, read at an index -/

variable (m : (ℓ : Loc nD τ sig) → Buf (Elt F) ℓ)

/-- Result 0 at (l, r, d): the first small block the point 32 l + r / 256 leaves, at (0, r % 256, d). -/
theorem arr2_apply (c : Dev nD) (l : Fin 3) (r : Fin 8192) (d : Fin 32) :
    ((dats m 0 c).arrAt 2 cfg0.N : S3x8192x32.Idx → Elt F .f32) (ix3 l r d)
      = (stAt m c (32 * l.val + r.val / 256) (pt_lt l r)).G
          (ix3 (0 : Fin 1) (⟨r.val % 256, Nat.mod_lt _ (by decide)⟩ : Fin 256) d) :=
  (congrFun (final2 (dats m 0 c) (fun n hn => (stAt m c n hn).G) (after0_2 m c)) (ix3 l r d)).trans rfl

/-- Result 1 at (l, r, d): the second small block the point 32 l + r / 256 leaves, at (0, r % 256, d). -/
theorem arr3_apply (c : Dev nD) (l : Fin 3) (r : Fin 8192) (d : Fin 32) :
    ((dats m 0 c).arrAt 3 cfg0.N : S3x8192x32.Idx → Elt F .f32) (ix3 l r d)
      = (stAt m c (32 * l.val + r.val / 256) (pt_lt l r)).L
          (ix3 (0 : Fin 1) (⟨r.val % 256, Nat.mod_lt _ (by decide)⟩ : Fin 256) d) :=
  (congrFun (final3 (dats m 0 c) (fun n hn => (stAt m c n hn).L) (after0_3 m c)) (ix3 l r d)).trans rfl

/-- Result 2 at (l, r, d): the first large block the last point 32 l + 31 of row l leaves, at (0, r, d). -/
theorem arr4_apply (c : Dev nD) (l : Fin 3) (r : Fin 8192) (d : Fin 32) :
    ((dats m 0 c).arrAt 4 cfg0.N : S3x8192x32.Idx → Elt F .f32) (ix3 l r d)
      = (stAt m c (32 * l.val + 31) (last_lt l)).IG (ix3 (0 : Fin 1) r d) :=
  (congrFun (final4 (dats m 0 c) (fun n hn => (stAt m c n hn).IG) (after0_4 m c)) (ix3 l r d)).trans rfl

/-- Result 3 at (l, r, d): the second large block the last point 32 l + 31 of row l leaves, at (0, r, d). -/
theorem arr5_apply (c : Dev nD) (l : Fin 3) (r : Fin 8192) (d : Fin 32) :
    ((dats m 0 c).arrAt 5 cfg0.N : S3x8192x32.Idx → Elt F .f32) (ix3 l r d)
      = (stAt m c (32 * l.val + 31) (last_lt l)).IL (ix3 (0 : Fin 1) r d) :=
  (congrFun (final5 (dats m 0 c) (fun n hn => (stAt m c n hn).IL) (after0_5 m c)) (ix3 l r d)).trans rfl

end Cert.KernelIdeal.Arrays

end
-- ==== Proof.Bridge.lean ====
/-
  The kernel's input blocks are the adjacency's stripes and the whole embedding table, so the state the proof data
  carries from point to point is the state of the pure recursion over the two argument arrays.
-/
import proofs.«159328_g20109036880396_cont_8to1_786_9_alg».proof.Proof.Body
import proofs.«159328_g20109036880396_cont_8to1_786_9_alg».proof.Proof.TrajDefs

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The adjacency's block index at a point is (the stripe, 0); the embedding table's is (0, 0). -/
theorem idx0 : ∀ t : Fin cfg0.N, win0_0.index t (0 : Fin 2) = t.val % 32 ∧ win0_0.index t (1 : Fin 2) = 0 :=
  (by decide +kernel : ∀ t : Fin grid0.N, win0_0.index t (0 : Fin 2) = t.val % 32 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The adjacency block the body finds at a point is the point's stripe of the adjacency. -/
theorem iblk0_eq (c : Dev nD) (t : Fin cfg0.N) :
    (iblk m c 0 t : Vec Ideal S256x8192 .f32) = Traj.rowsBlk (m ((c.tc : Thread nD τ).loc main_arg0)) t.val := by
  funext y
  show V m c main_arg0 (((cfg0.win 0).blk t).view.emb y) = m ((c.tc : Thread nD τ).loc main_arg0) (ix2 ⟨256 * (t.val % 32) + (y 0).val, _⟩ (y 1))
  rw [V_main_arg0]
  congr 1
  funext a; apply Fin.ext
  match a with
  | ⟨0, _⟩ => show win0_0.index t (0 : Fin 2) * 256 + 1 * (y 0).val = 256 * (t.val % 32) + (y 0).val; have := (idx0 t).1; omega
  | ⟨1, _⟩ => show win0_0.index t (1 : Fin 2) * 8192 + 1 * (y 1).val = (y 1).val; have := (idx0 t).2; omega

/-- The embedding block the body finds at a point is the whole embedding table. -/
theorem iblk1_eq (c : Dev nD) (t : Fin cfg0.N) :
    (iblk m c 1 t : Vec Ideal S16384x32 .f32) = m ((c.tc : Thread nD τ).loc main_arg1) := by
  funext y
  show V m c main_arg1 (((cfg0.win 1).blk t).view.emb y) = m ((c.tc : Thread nD τ).loc main_arg1) y
  rw [V_main_arg1]
  congr 1
  funext a; apply Fin.ext
  match a with
  | ⟨0, _⟩ => show win0_1.index t (0 : Fin 2) * 16384 + 1 * (y 0).val = (y 0).val; have := (idx1 t).1; omega
  | ⟨1, _⟩ => show win0_1.index t (1 : Fin 2) * 32 + 1 * (y 1).val = (y 1).val; have := (idx1 t).2; omega

/-- The state after each point is the pure recursion's over the two argument arrays. -/
theorem stAt_eq (c : Dev nD) : ∀ (n : ℕ) (hn : n < cfg0.N),
    stAt m c n hn = Traj.traj (m ((c.tc : Thread nD τ).loc main_arg0)) (m ((c.tc : Thread nD τ).loc main_arg1)) n (lt_of_lt_of_eq hn N_0)
  | 0, hn => by
    unfold stAt Traj.traj
    rw [iblk0_eq m c ⟨0, hn⟩, iblk1_eq m c ⟨0, hn⟩]
  | n + 1, hn => by
    unfold stAt Traj.traj
    rw [iblk0_eq m c ⟨n + 1, hn⟩, iblk1_eq m c ⟨n + 1, hn⟩, stAt_eq c n (Nat.lt_of_succ_lt hn)]

end Cert.KernelIdeal.Bridge

end
-- ==== Proof.Value.lean ====
/-
  The value of the idealized kernel program against the idealized reference.

  With `A` the adjacency and `E` the embedding table, the reference computes the tables L₀ = E, L_{l+1} = gcn A L_l + L_l and
  returns L₀ … L₃ and gcn A L₀ … gcn A L₂, where gcn A L stacks A · (item rows of L) over Aᵀ · (user rows of L).
  The kernel streams the adjacency stripe by stripe: per layer it writes the users' aggregate and new rows stripe by stripe,
  accumulates the items' aggregate over the stripes (a sum of 8192 products split into 32 sums of 256, with the factors in
  the other order), and writes the items' aggregate and new rows at the layer's last stripe.  Read index by index over the
  extended reals the four output arrays are the reference's aggregates and next tables; the host operations after the
  region stack them pairwise, layer by layer, as the reference's own stacks.  Only commutativity and associativity of the
  extended reals' sum and product are used, so the inputs' finiteness is never needed.
-/
import proofs.«159328_g20109036880396_cont_8to1_786_9_alg».proof.Defs
import proofs.«159328_g20109036880396_cont_8to1_786_9_alg».proof.Proof.Gen.Pre_finite_inputs
import proofs.«159328_g20109036880396_cont_8to1_786_9_alg».proof.Proof.Gen.ReferenceIdeal
import proofs.«159328_g20109036880396_cont_8to1_786_9_alg».proof.Proof.Body
import proofs.«159328_g20109036880396_cont_8to1_786_9_alg».proof.Proof.BodyBits
import proofs.«159328_g20109036880396_cont_8to1_786_9_alg».proof.Proof.KTail
import proofs.«159328_g20109036880396_cont_8to1_786_9_alg».proof.Proof.Layers
import proofs.«159328_g20109036880396_cont_8to1_786_9_alg».proof.Proof.Traj
import proofs.«159328_g20109036880396_cont_8to1_786_9_alg».proof.Proof.Arrays
import proofs.«159328_g20109036880396_cont_8to1_786_9_alg».proof.Proof.Bridge
import Idealize.ShloMosaic.Lib.ValueIdx
import Idealize.ShloMosaic.Lib.Pipeline.Value

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen
open Cert.ReferenceIdeal (Layers.next Layers.gcn Layers.userAgg Layers.itemAgg Layers.stack)

variable (m : (ℓ : Loc nD τ sig) → Buf (Elt Ideal) ℓ) (ρ : Dev nD → PrngReg)

/-! ## The four output arrays after the run, index by index -/

/-- The users' aggregates: layer `l`, user row `r` is written by the point of that layer whose stripe holds the row. -/
theorem arr2 (c : Dev nD) (l : Fin 3) (r : Fin 8192) (d : Fin 32) :
    (dats m 0 c).arrAt 2 cfg0.N (ix3 l r d) = Layers.userAgg (F := Ideal) (m ((c.tc : Thread nD τ).loc main_arg0)) (Traj.Lk (m ((c.tc : Thread nD τ).loc main_arg0)) (m ((c.tc : Thread nD τ).loc main_arg1)) l.val) (ix2 r d) := by
  have hl := l.isLt
  have hr := r.isLt
  have e1 : (32 * l.val + r.val / 256) / 32 = l.val := by omega
  refine (Arrays.arr2_apply m c l r d).trans ?_
  rw [Bridge.stAt_eq m c, Traj.traj_G, e1]
  exact congrArg (fun i : Fin 8192 => Layers.userAgg (F := Ideal) (m ((c.tc : Thread nD τ).loc main_arg0)) (Traj.Lk (m ((c.tc : Thread nD τ).loc main_arg0)) (m ((c.tc : Thread nD τ).loc main_arg1)) l.val) (ix2 i d))
    (Fin.ext (by show 256 * ((32 * l.val + r.val / 256) % 32) + r.val % 256 = r.val; omega))

/-- The users' new rows: the same point writes row `r` of the next table. -/
theorem arr3 (c : Dev nD) (l : Fin 3) (r : Fin 8192) (d : Fin 32) :
    (dats m 0 c).arrAt 3 cfg0.N (ix3 l r d) = Traj.Lk (m ((c.tc : Thread nD τ).loc main_arg0)) (m ((c.tc : Thread nD τ).loc main_arg1)) (l.val + 1) (ix2 ⟨r.val, Tail.lo_lt r⟩ d) := by
  have hl := l.isLt
  have hr := r.isLt
  have e1 : (32 * l.val + r.val / 256) / 32 = l.val := by omega
  refine (Arrays.arr3_apply m c l r d).trans ?_
  rw [Bridge.stAt_eq m c, Traj.traj_L, e1]
  exact congrArg (fun i : Fin 16384 => Traj.Lk (m ((c.tc : Thread nD τ).loc main_arg0)) (m ((c.tc : Thread nD τ).loc main_arg1)) (l.val + 1) (ix2 i d))
    (Fin.ext (by show 256 * ((32 * l.val + r.val / 256) % 32) + r.val % 256 = r.val; omega))

/-- The items' aggregates: written whole by the layer's last point. -/
theorem arr4 (c : Dev nD) (l : Fin 3) (j : Fin 8192) (d : Fin 32) :
    (dats m 0 c).arrAt 4 cfg0.N (ix3 l j d) = Layers.itemAgg (F := Ideal) (m ((c.tc : Thread nD τ).loc main_arg0)) (Traj.Lk (m ((c.tc : Thread nD τ).loc main_arg0)) (m ((c.tc : Thread nD τ).loc main_arg1)) l.val) (ix2 j d) := by
  have hl := l.isLt
  have e1 : (32 * l.val + 31) / 32 = l.val := by omega
  refine (Arrays.arr4_apply m c l j d).trans ?_
  rw [Bridge.stAt_eq m c, Traj.traj_IG _ _ _ _ (by omega), e1]

/-- The items' new rows: the layer's last point writes the item rows of the next table. -/
theorem arr5 (c : Dev nD) (l : Fin 3) (j : Fin 8192) (d : Fin 32) :
    (dats m 0 c).arrAt 5 cfg0.N (ix3 l j d) = Traj.Lk (m ((c.tc : Thread nD τ).loc main_arg0)) (m ((c.tc : Thread nD τ).loc main_arg1)) (l.val + 1) (ix2 ⟨8192 + j.val, Tail.hi_lt j⟩ d) := by
  have hl := l.isLt
  have e1 : (32 * l.val + 31) / 32 = l.val := by omega
  refine (Arrays.arr5_apply m c l j d).trans ?_
  rw [Bridge.stAt_eq m c, Traj.traj_IL _ _ _ _ (by omega), e1]

/-- The adjacency and the embedding table as the kernel program is launched with them. -/
abbrev adj (c : Dev nD) : Vec Ideal S8192x8192 .f32 := m ((c.tc : Thread nD τ).loc main_arg0)
abbrev emb (c : Dev nD) : Vec Ideal S16384x32 .f32 := m ((c.tc : Thread nD τ).loc main_arg1)

/-! ## The results after the host operations that follow the region -/

theorem flat1 : ([hostOps1] : List (List (HloOp τ sig (Elt Ideal)))).flatten = hostOps1 := by
  simp only [List.flatten_cons, List.flatten_nil, List.append_nil]

theorem tail5 (c : Dev nD) : Pipeline.afterTail₀ cfgs (dats m) 0 (V0 m) [hostOps1] c main_v5
    = Tail.stack (Tail.layer 0 ((dats m 0 c).arrAt 2 cfg0.N)) (Tail.layer 0 ((dats m 0 c).arrAt 4 cfg0.N)) := by
  unfold Pipeline.afterTail₀
  rw [flat1, Tail.tail_v5]
  exact congrArg₂ Tail.stack
    (congrArg (Tail.layer 0) (Pipeline.withArrays_arr spec0 launch0.win.arr_inj c _ _ 2))
    (congrArg (Tail.layer 0) (Pipeline.withArrays_arr spec0 launch0.win.arr_inj c _ _ 4))

theorem tail10 (c : Dev nD) : Pipeline.afterTail₀ cfgs (dats m) 0 (V0 m) [hostOps1] c main_v10
    = Tail.stack (Tail.layer 0 ((dats m 0 c).arrAt 3 cfg0.N)) (Tail.layer 0 ((dats m 0 c).arrAt 5 cfg0.N)) := by
  unfold Pipeline.afterTail₀
  rw [flat1, Tail.tail_v10]
  exact congrArg₂ Tail.stack
    (congrArg (Tail.layer 0) (Pipeline.withArrays_arr spec0 launch0.win.arr_inj c _ _ 3))
    (congrArg (Tail.layer 0) (Pipeline.withArrays_arr spec0 launch0.win.arr_inj c _ _ 5))

theorem tail15 (c : Dev nD) : Pipeline.afterTail₀ cfgs (dats m) 0 (V0 m) [hostOps1] c main_v15
    = Tail.stack (Tail.layer 1 ((dats m 0 c).arrAt 2 cfg0.N)) (Tail.layer 1 ((dats m 0 c).arrAt 4 cfg0.N)) := by
  unfold Pipeline.afterTail₀
  rw [flat1, Tail.tail_v15]
  exact congrArg₂ Tail.stack
    (congrArg (Tail.layer 1) (Pipeline.withArrays_arr spec0 launch0.win.arr_inj c _ _ 2))
    (congrArg (Tail.layer 1) (Pipeline.withArrays_arr spec0 launch0.win.arr_inj c _ _ 4))

theorem tail20 (c : Dev nD) : Pipeline.afterTail₀ cfgs (dats m) 0 (V0 m) [hostOps1] c main_v20
    = Tail.stack (Tail.layer 1 ((dats m 0 c).arrAt 3 cfg0.N)) (Tail.layer 1 ((dats m 0 c).arrAt 5 cfg0.N)) := by
  unfold Pipeline.afterTail₀
  rw [flat1, Tail.tail_v20]
  exact congrArg₂ Tail.stack
    (congrArg (Tail.layer 1) (Pipeline.withArrays_arr spec0 launch0.win.arr_inj c _ _ 3))
    (congrArg (Tail.layer 1) (Pipeline.withArrays_arr spec0 launch0.win.arr_inj c _ _ 5))

theorem tail25 (c : Dev nD) : Pipeline.afterTail₀ cfgs (dats m) 0 (V0 m) [hostOps1] c main_v25
    = Tail.stack (Tail.layer 2 ((dats m 0 c).arrAt 2 cfg0.N)) (Tail.layer 2 ((dats m 0 c).arrAt 4 cfg0.N)) := by
  unfold Pipeline.afterTail₀
  rw [flat1, Tail.tail_v25]
  exact congrArg₂ Tail.stack
    (congrArg (Tail.layer 2) (Pipeline.withArrays_arr spec0 launch0.win.arr_inj c _ _ 2))
    (congrArg (Tail.layer 2) (Pipeline.withArrays_arr spec0 launch0.win.arr_inj c _ _ 4))

theorem tail30 (c : Dev nD) : Pipeline.afterTail₀ cfgs (dats m) 0 (V0 m) [hostOps1] c main_v30
    = Tail.stack (Tail.layer 2 ((dats m 0 c).arrAt 3 cfg0.N)) (Tail.layer 2 ((dats m 0 c).arrAt 5 cfg0.N)) := by
  unfold Pipeline.afterTail₀
  rw [flat1, Tail.tail_v30]
  exact congrArg₂ Tail.stack
    (congrArg (Tail.layer 2) (Pipeline.withArrays_arr spec0 launch0.win.arr_inj c _ _ 3))
    (congrArg (Tail.layer 2) (Pipeline.withArrays_arr spec0 launch0.win.arr_inj c _ _ 5))

/-- Layer `l` of the users' and items' aggregates, stacked, is the reference's aggregate of the table `L l`. -/
theorem res_gcn (c : Dev nD) (l : Fin 3) :
    Tail.stack (Tail.layer l ((dats m 0 c).arrAt 2 cfg0.N)) (Tail.layer l ((dats m 0 c).arrAt 4 cfg0.N))
      = Layers.gcn (F := Ideal) (adj m c) (Traj.Lk (adj m c) (emb m c) l.val) := by
  show _ = Tail.stack (Layers.userAgg (F := Ideal) (adj m c) (Traj.Lk (adj m c) (emb m c) l.val)) (Layers.itemAgg (F := Ideal) (adj m c) (Traj.Lk (adj m c) (emb m c) l.val))
  refine Tail.stack_ext ?_ ?_
  · funext idx
    obtain ⟨r, d, rfl⟩ : ∃ (r : Fin 8192) (d : Fin 32), idx = ix2 r d := ⟨idx 0, idx 1, eq_ix2 idx⟩
    rw [Tail.layer_apply]; exact arr2 m c l r d
  · funext idx
    obtain ⟨r, d, rfl⟩ : ∃ (r : Fin 8192) (d : Fin 32), idx = ix2 r d := ⟨idx 0, idx 1, eq_ix2 idx⟩
    rw [Tail.layer_apply]; exact arr4 m c l r d

/-- Layer `l` of the users' and items' new rows, stacked, is the reference's next table `L (l + 1)`. -/
theorem res_lat (c : Dev nD) (l : Fin 3) :
    Tail.stack (Tail.layer l ((dats m 0 c).arrAt 3 cfg0.N)) (Tail.layer l ((dats m 0 c).arrAt 5 cfg0.N))
      = Traj.Lk (adj m c) (emb m c) (l.val + 1) :=
  (Tail.eq_stack_of_halves (Traj.Lk (adj m c) (emb m c) (l.val + 1)) _ _
    (fun r d => by rw [Tail.layer_apply]; exact (arr3 m c l r d).symm)
    (fun r d => by rw [Tail.layer_apply]; exact (arr5 m c l r d).symm)).symm

/-! ## The kernel program's run, read -/

/-- Every weakly fair execution of the idealized kernel program terminates with its eight results at the reference's
    tables and aggregates of the launch contents of its two arguments, which it leaves unchanged. -/
theorem run : θ_run defs (onTc (τ := τ) (main (F := Ideal))) ⟨m, fun _ => 0, ρ⟩ fun r => ∀ c : Dev nD,
      r.2.mem ((c.tc : Thread nD τ).loc main_arg1) = emb m c
      ∧ r.2.mem ((c.tc : Thread nD τ).loc main_v10) = Traj.Lk (adj m c) (emb m c) 1
      ∧ r.2.mem ((c.tc : Thread nD τ).loc main_v20) = Traj.Lk (adj m c) (emb m c) 2
      ∧ r.2.mem ((c.tc : Thread nD τ).loc main_v30) = Traj.Lk (adj m c) (emb m c) 3
      ∧ r.2.mem ((c.tc : Thread nD τ).loc main_arg1) = emb m c
      ∧ r.2.mem ((c.tc : Thread nD τ).loc main_v5) = Layers.gcn (F := Ideal) (adj m c) (Traj.Lk (adj m c) (emb m c) 0)
      ∧ r.2.mem ((c.tc : Thread nD τ).loc main_v15) = Layers.gcn (F := Ideal) (adj m c) (Traj.Lk (adj m c) (emb m c) 1)
      ∧ r.2.mem ((c.tc : Thread nD τ).loc main_v25) = Layers.gcn (F := Ideal) (adj m c) (Traj.Lk (adj m c) (emb m c) 2)
      ∧ r.2.mem ((c.tc : Thread nD τ).loc main_arg0) = adj m c
      ∧ r.2.mem ((c.tc : Thread nD τ).loc main_arg1) = emb m c :=
  (θ_run defs _ _).mono (fun r h c =>
    have k0 : r.2.mem ((c.tc : Thread nD τ).loc main_arg0) = adj m c :=
      ((h c).1 0).trans (((dats m 0 c).arrAt_in 0 rfl _).trans ((A_eq m c 0).trans (V_main_arg0 m c)))
    have k1 : r.2.mem ((c.tc : Thread nD τ).loc main_arg1) = emb m c :=
      ((h c).1 1).trans (((dats m 0 c).arrAt_in 1 rfl _).trans ((A_eq m c 1).trans (V_main_arg1 m c)))
    ⟨k1,
     ((h c).2 main_v10 (Pipeline.mem_restRefs_of main_v10 rfl (by decide))).trans ((tail10 m c).trans (res_lat m c 0)),
     ((h c).2 main_v20 (Pipeline.mem_restRefs_of main_v20 rfl (by decide))).trans ((tail20 m c).trans (res_lat m c 1)),
     ((h c).2 main_v30 (Pipeline.mem_restRefs_of main_v30 rfl (by decide))).trans ((tail30 m c).trans (res_lat m c 2)),
     k1,
     ((h c).2 main_v5 (Pipeline.mem_restRefs_of main_v5 rfl (by decide))).trans ((tail5 m c).trans (res_gcn m c 0)),
     ((h c).2 main_v15 (Pipeline.mem_restRefs_of main_v15 rfl (by decide))).trans ((tail15 m c).trans (res_gcn m c 1)),
     ((h c).2 main_v25 (Pipeline.mem_restRefs_of main_v25 rfl (by decide))).trans ((tail25 m c).trans (res_gcn m c 2)),
     k0, k1⟩) (run_main m ρ)

end Cert.KernelIdeal.Final

/-! ## The claims -/

namespace Cert.Proof.Claims

open Idealize.ShloMosaic Idealize.ShloMosaic.TcCoe Idealize.SL.Sem
open Cert.ReferenceIdeal (Layers.next Layers.gcn)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.2.2.2.2.2.1, (h c).2.2.2.2.2.2.2.2.2⟩) (Cert.ReferenceIdeal.Value.run (F := Ideal) m ρ)

/-- No rewrite was made when the kernel was idealized: nothing to preserve. -/
theorem preserves : Cert.preserves_Kernel_KernelIdeal := trivial

/-- Both idealized programs end with the same eight tables: the kernel's by the run read above, the reference's by its
    own run, whose stages are the layer functions by unfolding. -/
theorem algebraic : Cert.algebraic_KernelIdeal_ReferenceIdeal := by
  intro m ρ m' ρ' _ hagree
  refine ⟨fun c => Cert.KernelIdeal.Final.emb m c,
    fun c => Cert.KernelIdeal.Traj.Lk (Cert.KernelIdeal.Final.adj m c) (Cert.KernelIdeal.Final.emb m c) 1,
    fun c => Cert.KernelIdeal.Traj.Lk (Cert.KernelIdeal.Final.adj m c) (Cert.KernelIdeal.Final.emb m c) 2,
    fun c => Cert.KernelIdeal.Traj.Lk (Cert.KernelIdeal.Final.adj m c) (Cert.KernelIdeal.Final.emb m c) 3,
    fun c => Cert.KernelIdeal.Final.emb m c,
    fun c => Layers.gcn (F := Ideal) (Cert.KernelIdeal.Final.adj m c) (Cert.KernelIdeal.Traj.Lk (Cert.KernelIdeal.Final.adj m c) (Cert.KernelIdeal.Final.emb m c) 0),
    fun c => Layers.gcn (F := Ideal) (Cert.KernelIdeal.Final.adj m c) (Cert.KernelIdeal.Traj.Lk (Cert.KernelIdeal.Final.adj m c) (Cert.KernelIdeal.Final.emb m c) 1),
    fun c => Layers.gcn (F := Ideal) (Cert.KernelIdeal.Final.adj m c) (Cert.KernelIdeal.Traj.Lk (Cert.KernelIdeal.Final.adj m c) (Cert.KernelIdeal.Final.emb m c) 2),
    Cert.KernelIdeal.Final.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9⟩ := h c
  obtain ⟨ea, ee⟩ := hagree c
  refine ⟨h0.trans ee, h1.trans ?_, h2.trans ?_, h3.trans ?_, h4.trans ee, h5.trans ?_, h6.trans ?_, h7.trans ?_, h8, h9⟩
  · show Layers.next (F := Ideal) _ _ = _; rw [ea, ee]; rfl
  · show Layers.next (F := Ideal) _ (Layers.next (F := Ideal) _ _) = _; rw [ea, ee]; rfl
  · rw [Cert.ReferenceIdeal.Read.val_main_v20_eq, Cert.ReferenceIdeal.Layers.v20_eq, ea, ee]; rfl
  · show Layers.gcn (F := Ideal) _ _ = _; rw [ea, ee]; rfl
  · show Layers.gcn (F := Ideal) _ (Layers.next (F := Ideal) _ _) = _; rw [ea, ee]; rfl
  · rw [Cert.ReferenceIdeal.Read.val_main_v19_eq, Cert.ReferenceIdeal.Layers.v19_eq, ea, ee]; rfl

end Cert.Proof.Claims

end
-- ==== Proof.lean ====
/-
  Three layers of graph propagation with a dense users-by-items adjacency, computed by one kernel that streams each
  row stripe of the adjacency once per layer and forms both products from it, against a reference that forms the two
  products of each layer as whole matrix products.

  The three frames: the word-level kernel program and its idealization run to the end, fault nowhere and leave their two
  argument arrays unchanged (the body run symbolically in each of its four control cases, the three scratch tables carried
  from grid point to grid point by an invariant that names their contents); the reference is a straight line of host
  operations.  No operation was rewritten when the kernel was idealized, so there is nothing to preserve.  Over the
  extended reals the eight results of the two idealized programs are equal element by element: the embedding table, the
  three next tables and the three stacked aggregates (Proof/Value.lean).
-/
import proofs.«159328_g20109036880396_cont_8to1_786_9_alg».proof.Defs
import proofs.«159328_g20109036880396_cont_8to1_786_9_alg».proof.Proof.Gen.Kernel
import proofs.«159328_g20109036880396_cont_8to1_786_9_alg».proof.Proof.Gen.KernelIdeal
import proofs.«159328_g20109036880396_cont_8to1_786_9_alg».proof.Proof.Gen.ReferenceIdeal
import proofs.«159328_g20109036880396_cont_8to1_786_9_alg».proof.Proof.Gen.Pre_finite_inputs
import proofs.«159328_g20109036880396_cont_8to1_786_9_alg».proof.Proof.Value

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
